-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S800000 : Shape := ⟨1, ![800000]⟩
abbrev S50000x128 : Shape := ⟨2, ![50000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S800000 : S_.BroadcastsInDim S800000 (![] : Fin 0 → Fin S800000.rank)
  reducesTo_S800000_S_d0 : S800000.ReducesTo [0] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg14 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg14
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg10 : FVec F S128 .f32) (main_arg11 : FVec F S128x128 .f32) (main_arg12 : FVec F S128 .f32) (main_arg13 : FVec F S128x1 .f32) (main_arg14 : FVec F S1 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg13
  let main_cst_18 : FVec F S_ .f32 := constant S_ .f32 0x7F800000#32
  let main_v50 : FVec F S128x1 .f32 := broadcastInDim S128x1 ![] bcast_S_S128x1 main_cst_18
  fn_part3 (F := F) main_arg14 main_v48 main_v49 main_v50

def fn_part1 {F : FTy → Type} [FloatOps F] (main_arg7 : FVec F S256x128 .f32) (main_arg8 : FVec F S128 .f32) (main_arg9 : FVec F S256x128 .f32) (main_arg10 : FVec F S128 .f32) (main_arg11 : FVec F S128x128 .f32) (main_arg12 : FVec F S128 .f32) (main_arg13 : FVec F S128x1 .f32) (main_arg14 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg7
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg9
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg10 main_arg11 main_arg12 main_arg13 main_arg14 main_v33

def fn {F : FTy → Type} [FloatOps F] (main_arg0 : IVec S50000 32) (main_arg1 : IVec S2x800000 32) (main_arg2 : IVec S2x800000 32) (main_arg3 : FVec F S800000 .f32) (main_arg4 : FVec F S50000x128 .f32) (main_arg5 : FVec F S128x256 .f32) (main_arg6 : FVec F S256 .f32) (main_arg7 : FVec F S256x128 .f32) (main_arg8 : FVec F S128 .f32) (main_arg9 : FVec F S256x128 .f32) (main_arg10 : FVec F S128 .f32) (main_arg11 : FVec F S128x128 .f32) (main_arg12 : FVec F S128 .f32) (main_arg13 : FVec F S128x1 .f32) (main_arg14 : FVec F S1 .f32) : IVec S_ 1 :=
  let main_v0 : FVec F S800000 .f32 := Host.absf main_arg3
  let main_cst : FVec F S_ .f32 := constant S_ .f32 0x7F800000#32
  let main_v1 : FVec F S800000 .f32 := broadcastInDim S800000 ![] bcast_S_S800000 main_cst
  let main_v2 : IVec S800000 1 := cmpf .olt main_v0 main_v1
  let main_c : IVec S_ 1 := constantI S_ 1 1#1
  let main_v3 : IVec S_ 1 := (fun x v => Host.reduce IntOp.andi x v reducesTo_S800000_S_d0 h_S_) main_v2 main_c
  let main_v4 : FVec F S50000x128 .f32 := Host.absf main_arg4
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x256 .f32 := Host.absf main_arg5
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg6
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg7 main_arg8 main_arg9 main_arg10 main_arg11 main_arg12 main_arg13 main_arg14 main_v13 main_v16
-- ==== Kernel.lean ====
abbrev S50000 : Shape := ⟨1, ![50000]⟩
abbrev S2x800000 : Shape := ⟨2, ![2, 800000]⟩
abbrev S800000 : Shape := ⟨1, ![800000]⟩
abbrev S50000x128 : Shape := ⟨2, ![50000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S50000x1 : Shape := ⟨2, ![50000, 1]⟩
abbrev S1x800000 : Shape := ⟨2, ![1, 800000]⟩
abbrev S800000x1 : Shape := ⟨2, ![800000, 1]⟩
abbrev S50000x256 : Shape := ⟨2, ![50000, 256]⟩
abbrev S5000x128 : Shape := ⟨2, ![5000, 128]⟩
abbrev S5000x256 : Shape := ⟨2, ![5000, 256]⟩
abbrev S800000x256 : Shape := ⟨2, ![800000, 256]⟩
abbrev S1x256 : Shape := ⟨2, ![1, 256]⟩
abbrev S800000x128 : Shape := ⟨2, ![800000, 128]⟩
abbrev S1x128 : Shape := ⟨2, ![1, 128]⟩
abbrev S1x1 : Shape := ⟨2, ![1, 1]⟩
abbrev S8000x128 : Shape := ⟨2, ![8000, 128]⟩
abbrev S8000x1 : Shape := ⟨2, ![8000, 1]⟩

abbrev nBuf : Space → Nat
  | .hbm => 208
  | .vmem => 23
  | .smem => 0
  | _ => 0

abbrev hbmTy0_0 (i : Nat) : BufTy := match i % 128 with
  | 0 => ⟨S50000, .i32⟩
  | 1 => ⟨S2x800000, .i32⟩
  | 2 => ⟨S2x800000, .i32⟩
  | 3 => ⟨S800000, .f32⟩
  | 4 => ⟨S50000x128, .f32⟩
  | 5 => ⟨S128x256, .f32⟩
  | 6 => ⟨S256, .f32⟩
  | 7 => ⟨S256x128, .f32⟩
  | 8 => ⟨S128, .f32⟩
  | 9 => ⟨S256x128, .f32⟩
  | 10 => ⟨S128, .f32⟩
  | 11 => ⟨S128x128, .f32⟩
  | 12 => ⟨S128, .f32⟩
  | 13 => ⟨S128x1, .f32⟩
  | 14 => ⟨S1, .f32⟩
  | 15 => ⟨S_, .i32⟩
  | 16 => ⟨S50000, .i32⟩
  | 17 => ⟨S50000, .i1⟩
  | 18 => ⟨S_, .i32⟩
  | 19 => ⟨S50000, .i32⟩
  | 20 => ⟨S50000, .i32⟩
  | 21 => ⟨S50000, .i32⟩
  | 22 => ⟨S50000x1, .i32⟩
  | 23 => ⟨S50000x128, .f32⟩
  | 24 => ⟨S1x800000, .i32⟩
  | 25 => ⟨S800000, .i32⟩
  | 26 => ⟨S1x800000, .i32⟩
  | 27 => ⟨S800000, .i32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .i1⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000, .f32⟩
  | 59 => ⟨S800000, .f32⟩
  | 60 => ⟨S50000x128, .bf16⟩
  | 61 => ⟨S128x256, .bf16⟩
  | 62 => ⟨S50000x256, .bf16⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x256, .bf16⟩
  | 72 => ⟨S800000x256, .f32⟩
  | 73 => ⟨S800000x1, .f32⟩
  | 74 => ⟨S800000x256, .f32⟩
  | 75 => ⟨S800000x256, .f32⟩
  | 76 => ⟨S_, .f32⟩
  | 77 => ⟨S50000x256, .f32⟩
  | 78 => ⟨S800000x1, .i32⟩
  | 79 => ⟨S50000x256, .f32⟩
  | 80 => ⟨S1x256, .f32⟩
  | 81 => ⟨S50000x256, .f32⟩
  | 82 => ⟨S50000x256, .f32⟩
  | 83 => ⟨S_, .f32⟩
  | 84 => ⟨S50000x256, .f32⟩
  | 85 => ⟨S50000x256, .i1⟩
  | 86 => ⟨S_, .f32⟩
  | 87 => ⟨S50000x256, .f32⟩
  | 88 => ⟨S50000x256, .i1⟩
  | 89 => ⟨S_, .f32⟩
  | 90 => ⟨S_, .f32⟩
  | 91 => ⟨S50000x256, .f32⟩
  | 92 => ⟨S50000x256, .f32⟩
  | 93 => ⟨S50000x256, .f32⟩
  | 94 => ⟨S_, .f32⟩
  | 95 => ⟨S50000x256, .f32⟩
  | 96 => ⟨S50000x256, .f32⟩
  | 97 => ⟨S50000x256, .f32⟩
  | 98 => ⟨S_, .f32⟩
  | 99 => ⟨S800000, .f32⟩
  | 100 => ⟨S1x800000, .i32⟩
  | 101 => ⟨S800000, .i32⟩
  | 102 => ⟨S1x800000, .i32⟩
  | 103 => ⟨S800000, .i32⟩
  | 104 => ⟨S_, .f32⟩
  | 105 => ⟨S50000, .f32⟩
  | 106 => ⟨S800000x1, .i32⟩
  | 107 => ⟨S50000, .f32⟩
  | 108 => ⟨S_, .f32⟩
  | 109 => ⟨S50000, .f32⟩
  | 110 => ⟨S50000, .i1⟩
  | 111 => ⟨S50000, .f32⟩
  | 112 => ⟨S_, .f32⟩
  | 113 => ⟨S_, .f32⟩
  | 114 => ⟨S50000, .f32⟩
  | 115 => ⟨S50000, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000, .f32⟩
  | 125 => ⟨S800000, .f32⟩
  | 126 => ⟨S_, .i32⟩
  | 127 => ⟨S800000, .i32⟩
  | _ => ⟨S50000, .i32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000, .f32⟩
  | 7 => ⟨S800000, .f32⟩
  | 8 => ⟨S50000x256, .bf16⟩
  | 9 => ⟨S256x128, .bf16⟩
  | 10 => ⟨S50000x128, .bf16⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .bf16⟩
  | 20 => ⟨S800000x128, .f32⟩
  | 21 => ⟨S800000x1, .f32⟩
  | 22 => ⟨S800000x128, .f32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S1x128, .f32⟩
  | 29 => ⟨S50000x128, .f32⟩
  | 30 => ⟨S50000x128, .f32⟩
  | 31 => ⟨S_, .f32⟩
  | 32 => ⟨S50000x128, .f32⟩
  | 33 => ⟨S50000x128, .i1⟩
  | 34 => ⟨S_, .f32⟩
  | 35 => ⟨S50000x128, .f32⟩
  | 36 => ⟨S50000x128, .i1⟩
  | 37 => ⟨S_, .f32⟩
  | 38 => ⟨S_, .f32⟩
  | 39 => ⟨S50000x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S50000x128, .f32⟩
  | 46 => ⟨S1x800000, .i32⟩
  | 47 => ⟨S800000, .i32⟩
  | 48 => ⟨S1x800000, .i32⟩
  | 49 => ⟨S800000, .i32⟩
  | 50 => ⟨S50000x128, .bf16⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .bf16⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x128, .bf16⟩
  | 69 => ⟨S128x128, .f32⟩
  | 70 => ⟨S128x128, .f32⟩
  | 71 => ⟨S128x128, .bf16⟩
  | 72 => ⟨S128x128, .bf16⟩
  | 73 => ⟨S128x128, .bf16⟩
  | 74 => ⟨S128x1, .bf16⟩
  | 75 => ⟨S1x128, .f32⟩
  | 76 => ⟨S1x128, .f32⟩
  | 77 => ⟨S1x1, .f32⟩
  | 78 => ⟨S800000x1, .f32⟩
  | 79 => ⟨S800000, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | .local _ .vmem, ⟨0, _⟩ => ⟨S5000x128, .bf16⟩
  | .local _ .vmem, ⟨1, _⟩ => ⟨S5000x128, .bf16⟩
  | .local _ .vmem, ⟨2, _⟩ => ⟨S128x256, .bf16⟩
  | .local _ .vmem, ⟨3, _⟩ => ⟨S5000x256, .bf16⟩
  | .local _ .vmem, ⟨4, _⟩ => ⟨S5000x256, .bf16⟩
  | .local _ .vmem, ⟨5, _⟩ => ⟨S5000x256, .bf16⟩
  | .local _ .vmem, ⟨6, _⟩ => ⟨S5000x256, .bf16⟩
  | .local _ .vmem, ⟨7, _⟩ => ⟨S256x128, .bf16⟩
  | .local _ .vmem, ⟨8, _⟩ => ⟨S5000x128, .bf16⟩
  | .local _ .vmem, ⟨9, _⟩ => ⟨S5000x128, .bf16⟩
  | .local _ .vmem, ⟨10, _⟩ => ⟨S8000x128, .bf16⟩
  | .local _ .vmem, ⟨11, _⟩ => ⟨S8000x128, .bf16⟩
  | .local _ .vmem, ⟨12, _⟩ => ⟨S8000x128, .bf16⟩
  | .local _ .vmem, ⟨13, _⟩ => ⟨S8000x128, .bf16⟩
  | .local _ .vmem, ⟨14, _⟩ => ⟨S128x128, .bf16⟩
  | .local _ .vmem, ⟨15, _⟩ => ⟨S128x128, .bf16⟩
  | .local _ .vmem, ⟨16, _⟩ => ⟨S1x128, .f32⟩
  | .local _ .vmem, ⟨17, _⟩ => ⟨S128x128, .bf16⟩
  | .local _ .vmem, ⟨18, _⟩ => ⟨S1x128, .f32⟩
  | .local _ .vmem, ⟨19, _⟩ => ⟨S128x1, .bf16⟩
  | .local _ .vmem, ⟨20, _⟩ => ⟨S1x1, .f32⟩
  | .local _ .vmem, ⟨21, _⟩ => ⟨S8000x1, .f32⟩
  | .local _ .vmem, ⟨22, _⟩ => ⟨S8000x1, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_5 : Ref sig .tc := ⟨.hbm, 50, rfl⟩
abbrev main_v26 : Ref sig .tc := ⟨.hbm, 51, rfl⟩
abbrev main_v27 : Ref sig .tc := ⟨.hbm, 52, rfl⟩
abbrev main_c_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_7 : Ref sig .tc := ⟨.hbm, 63, rfl⟩
abbrev main_v37 : Ref sig .tc := ⟨.hbm, 64, rfl⟩
abbrev main_v38 : Ref sig .tc := ⟨.hbm, 65, rfl⟩
abbrev main_c_8 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_9 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_call1_cst : Ref sig .tc := ⟨.hbm, 83, rfl⟩
abbrev main_call1_v0 : Ref sig .tc := ⟨.hbm, 84, rfl⟩
abbrev main_call1_v1 : Ref sig .tc := ⟨.hbm, 85, rfl⟩
abbrev main_call1_cst_0 : Ref sig .tc := ⟨.hbm, 86, rfl⟩
abbrev main_call1_v2 : Ref sig .tc := ⟨.hbm, 87, rfl⟩
abbrev main_call1_v3 : Ref sig .tc := ⟨.hbm, 88, rfl⟩
abbrev main_call1_cst_1 : Ref sig .tc := ⟨.hbm, 89, rfl⟩
abbrev main_call1_call0_v0 : Ref sig .tc := ⟨.hbm, 90, rfl⟩
abbrev main_call1_call0_v1 : Ref sig .tc := ⟨.hbm, 91, rfl⟩
abbrev main_call1_v4 : Ref sig .tc := ⟨.hbm, 92, rfl⟩
abbrev main_call1_v5 : Ref sig .tc := ⟨.hbm, 93, rfl⟩
abbrev main_call1_cst_2 : Ref sig .tc := ⟨.hbm, 94, rfl⟩
abbrev main_call1_v6 : Ref sig .tc := ⟨.hbm, 95, rfl⟩
abbrev main_call1_v7 : Ref sig .tc := ⟨.hbm, 96, rfl⟩
abbrev main_v54 : Ref sig .tc := ⟨.hbm, 97, rfl⟩
abbrev main_cst_10 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_cst_11 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_cst_12 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_cst_13 : Ref sig .tc := ⟨.hbm, 112, rfl⟩
abbrev main_call2_v0 : Ref sig .tc := ⟨.hbm, 113, rfl⟩
abbrev main_call2_v1 : Ref sig .tc := ⟨.hbm, 114, rfl⟩
abbrev main_v66 : Ref sig .tc := ⟨.hbm, 115, rfl⟩
abbrev main_c_14 : Ref sig .tc := ⟨.hbm, 116, rfl⟩
abbrev main_v67 : Ref sig .tc := ⟨.hbm, 117, rfl⟩
abbrev main_v68 : Ref sig .tc := ⟨.hbm, 118, rfl⟩
abbrev main_c_15 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_c_16 : Ref sig .tc := ⟨.hbm, 126, rfl⟩
abbrev main_v75 : Ref sig .tc := ⟨.hbm, 127, rfl⟩
abbrev main_v76 : Ref sig .tc := ⟨.hbm, 128, rfl⟩
abbrev main_c_17 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_c_18 : Ref sig .tc := ⟨.hbm, 139, rfl⟩
abbrev main_v86 : Ref sig .tc := ⟨.hbm, 140, rfl⟩
abbrev main_v87 : Ref sig .tc := ⟨.hbm, 141, rfl⟩
abbrev main_c_19 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_cst_20 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_call3_cst : Ref sig .tc := ⟨.hbm, 159, rfl⟩
abbrev main_call3_v0 : Ref sig .tc := ⟨.hbm, 160, rfl⟩
abbrev main_call3_v1 : Ref sig .tc := ⟨.hbm, 161, rfl⟩
abbrev main_call3_cst_0 : Ref sig .tc := ⟨.hbm, 162, rfl⟩
abbrev main_call3_v2 : Ref sig .tc := ⟨.hbm, 163, rfl⟩
abbrev main_call3_v3 : Ref sig .tc := ⟨.hbm, 164, rfl⟩
abbrev main_call3_cst_1 : Ref sig .tc := ⟨.hbm, 165, rfl⟩
abbrev main_call3_call0_v0 : Ref sig .tc := ⟨.hbm, 166, rfl⟩
abbrev main_call3_call0_v1 : Ref sig .tc := ⟨.hbm, 167, rfl⟩
abbrev main_call3_v4 : Ref sig .tc := ⟨.hbm, 168, rfl⟩
abbrev main_call3_v5 : Ref sig .tc := ⟨.hbm, 169, rfl⟩
abbrev main_call3_cst_2 : Ref sig .tc := ⟨.hbm, 170, rfl⟩
abbrev main_call3_v6 : Ref sig .tc := ⟨.hbm, 171, rfl⟩
abbrev main_call3_v7 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_c_21 : Ref sig .tc := ⟨.hbm, 179, rfl⟩
abbrev main_v109 : Ref sig .tc := ⟨.hbm, 180, rfl⟩
abbrev main_v110 : Ref sig .tc := ⟨.hbm, 181, rfl⟩
abbrev main_c_22 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_c_23 : Ref sig .tc := ⟨.hbm, 188, rfl⟩
abbrev main_v116 : Ref sig .tc := ⟨.hbm, 189, rfl⟩
abbrev main_v117 : Ref sig .tc := ⟨.hbm, 190, rfl⟩
abbrev main_c_24 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg9_0 : Ref sig .tc := ⟨.vmem, 21, rfl⟩
abbrev cc2_stg9_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20
abbrev cc2_sem9_0 : DmaSem sig := 21
abbrev cc2_sem9_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x1 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S8000x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  packedbf16_S5000x256_S5000x256_0_0 : (Rect.unit (s := S5000x256) ![0, 0] S5000x256.size inb_S5000x256_S5000x256_0_0).PackedRows (EltTy.packing .bf16)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  packedbf16_S5000x128_S5000x128_0_0 : (Rect.unit (s := S5000x128) ![0, 0] S5000x128.size inb_S5000x128_S5000x128_0_0).PackedRows (EltTy.packing .bf16)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S256x128_S128x128_0_0 : S256x128.Slices ![0, 0] S128x128
  slices_S256x128_S128x128_128_0 : S256x128.Slices ![128, 0] S128x128
  shapeCasts_S128_S1x128 : S128.ShapeCasts S1x128
  shapeCasts_S1_S1x1 : S1.ShapeCasts S1x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S800000x1_S800000 : S800000x1.ShapeCasts S800000
  gather_S50000x128_S50000x1_S50000x128_1_0_n_n_0_1_1128_wf : GatherDims.WF S50000x128 S50000x1 S50000x128 [1] [0] [] [0] [] 1 ![1, 128]
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S8000x128_S128x128_S8000x128_1_0_0_1_n_n_wf : DotDims.WF S8000x128 S128x128 S8000x128 [1] [0] [0] [1] [] []
  dot_S8000x128_S128x1_S8000x1_1_0_0_1_n_n_wf : DotDims.WF S8000x128 S128x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .bf16 = 32 ∨ (Rect.block (s := S50000x128) S5000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .bf16 = 32 ∨ (Rect.block (s := S50000x256) S5000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .bf16 = 32 ∨ (Rect.block (s := S50000x256) S5000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .bf16 = 32 ∨ (Rect.block (s := S256x128) S256x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .bf16 = 32 ∨ (Rect.block (s := S50000x128) S5000x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S800000x128.size a
  hwx2_0 : ∀ i : grid2.Coords, EltTy.bits .bf16 = 32 ∨ (Rect.block (s := S800000x128) S8000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S800000x128.size a
  hwx2_1 : ∀ i : grid2.Coords, EltTy.bits .bf16 = 32 ∨ (Rect.block (s := S800000x128) S8000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x1.size a ≤ S128x1.size a
  hwx2_7 : ∀ i : grid2.Coords, EltTy.bits .bf16 = 32 ∨ (Rect.block (s := S128x1) S128x1.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S8000x1.size a ≤ S800000x1.size a
  hwx2_9 : ∀ i : grid2.Coords, EltTy.bits .f32 = 32 ∨ (Rect.block (s := S800000x1) S8000x1.size (cc2_transform_9 i) (hinb2_9 i)).WholeWords (EltTy.packing .f32)

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf

abbrev win0_0 : Pipeline.Window sig grid0 :=
  Pipeline.Window.ofSpec (Memref.whole main_v34) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v83) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v84) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v85) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v115) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v122) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v125) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v126) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v129) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v127) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v130) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v128) S128x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v131) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v132) S8000x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000 : Shape := ⟨1, ![50000]⟩
abbrev S2x800000 : Shape := ⟨2, ![2, 800000]⟩
abbrev S800000 : Shape := ⟨1, ![800000]⟩
abbrev S50000x128 : Shape := ⟨2, ![50000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S50000x1 : Shape := ⟨2, ![50000, 1]⟩
abbrev S1x800000 : Shape := ⟨2, ![1, 800000]⟩
abbrev S800000x1 : Shape := ⟨2, ![800000, 1]⟩
abbrev S50000x256 : Shape := ⟨2, ![50000, 256]⟩
abbrev S800000x256 : Shape := ⟨2, ![800000, 256]⟩
abbrev S1x256 : Shape := ⟨2, ![1, 256]⟩
abbrev S800000x128 : Shape := ⟨2, ![800000, 128]⟩
abbrev S1x128 : Shape := ⟨2, ![1, 128]⟩
abbrev S1x1 : Shape := ⟨2, ![1, 1]⟩

abbrev nBuf : Space → Nat
  | .hbm => 216
  | .vmem => 0
  | .smem => 0
  | _ => 0

abbrev hbmTy0_0 (i : Nat) : BufTy := match i % 128 with
  | 0 => ⟨S50000, .i32⟩
  | 1 => ⟨S2x800000, .i32⟩
  | 2 => ⟨S2x800000, .i32⟩
  | 3 => ⟨S800000, .f32⟩
  | 4 => ⟨S50000x128, .f32⟩
  | 5 => ⟨S128x256, .f32⟩
  | 6 => ⟨S256, .f32⟩
  | 7 => ⟨S256x128, .f32⟩
  | 8 => ⟨S128, .f32⟩
  | 9 => ⟨S256x128, .f32⟩
  | 10 => ⟨S128, .f32⟩
  | 11 => ⟨S128x128, .f32⟩
  | 12 => ⟨S128, .f32⟩
  | 13 => ⟨S128x1, .f32⟩
  | 14 => ⟨S1, .f32⟩
  | 15 => ⟨S_, .i32⟩
  | 16 => ⟨S50000, .i32⟩
  | 17 => ⟨S50000, .i1⟩
  | 18 => ⟨S_, .i32⟩
  | 19 => ⟨S50000, .i32⟩
  | 20 => ⟨S50000, .i32⟩
  | 21 => ⟨S50000, .i32⟩
  | 22 => ⟨S50000x1, .i32⟩
  | 23 => ⟨S50000x128, .f32⟩
  | 24 => ⟨S1x800000, .i32⟩
  | 25 => ⟨S800000, .i32⟩
  | 26 => ⟨S1x800000, .i32⟩
  | 27 => ⟨S800000, .i32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .i1⟩
  | 35 => ⟨S50000, .f32⟩
  | 36 => ⟨S_, .f32⟩
  | 37 => ⟨S50000, .f32⟩
  | 38 => ⟨S50000, .f32⟩
  | 39 => ⟨S_, .f32⟩
  | 40 => ⟨S_, .f32⟩
  | 41 => ⟨S50000, .f32⟩
  | 42 => ⟨S50000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000, .f32⟩
  | 62 => ⟨S800000, .f32⟩
  | 63 => ⟨S50000x256, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x256, .f32⟩
  | 73 => ⟨S800000x1, .f32⟩
  | 74 => ⟨S800000x256, .f32⟩
  | 75 => ⟨S800000x256, .f32⟩
  | 76 => ⟨S_, .f32⟩
  | 77 => ⟨S50000x256, .f32⟩
  | 78 => ⟨S800000x1, .i32⟩
  | 79 => ⟨S50000x256, .f32⟩
  | 80 => ⟨S1x256, .f32⟩
  | 81 => ⟨S50000x256, .f32⟩
  | 82 => ⟨S50000x256, .f32⟩
  | 83 => ⟨S_, .f32⟩
  | 84 => ⟨S50000x256, .f32⟩
  | 85 => ⟨S50000x256, .i1⟩
  | 86 => ⟨S_, .f32⟩
  | 87 => ⟨S50000x256, .f32⟩
  | 88 => ⟨S50000x256, .i1⟩
  | 89 => ⟨S_, .f32⟩
  | 90 => ⟨S_, .f32⟩
  | 91 => ⟨S50000x256, .f32⟩
  | 92 => ⟨S50000x256, .f32⟩
  | 93 => ⟨S50000x256, .f32⟩
  | 94 => ⟨S_, .f32⟩
  | 95 => ⟨S50000x256, .f32⟩
  | 96 => ⟨S50000x256, .f32⟩
  | 97 => ⟨S50000x256, .f32⟩
  | 98 => ⟨S_, .f32⟩
  | 99 => ⟨S800000, .f32⟩
  | 100 => ⟨S1x800000, .i32⟩
  | 101 => ⟨S800000, .i32⟩
  | 102 => ⟨S1x800000, .i32⟩
  | 103 => ⟨S800000, .i32⟩
  | 104 => ⟨S_, .f32⟩
  | 105 => ⟨S50000, .f32⟩
  | 106 => ⟨S800000x1, .i32⟩
  | 107 => ⟨S50000, .f32⟩
  | 108 => ⟨S_, .f32⟩
  | 109 => ⟨S50000, .f32⟩
  | 110 => ⟨S50000, .i1⟩
  | 111 => ⟨S50000, .f32⟩
  | 112 => ⟨S_, .f32⟩
  | 113 => ⟨S50000, .f32⟩
  | 114 => ⟨S50000, .f32⟩
  | 115 => ⟨S_, .f32⟩
  | 116 => ⟨S_, .f32⟩
  | 117 => ⟨S50000, .f32⟩
  | 118 => ⟨S50000, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000, .f32⟩
  | _ => ⟨S50000, .i32⟩

abbrev hbmTy0_1 (i : Nat) : BufTy := match i % 128 with
  | 0 => ⟨S800000, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000, .f32⟩
  | 10 => ⟨S800000, .f32⟩
  | 11 => ⟨S50000x128, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x128, .f32⟩
  | 21 => ⟨S800000x1, .f32⟩
  | 22 => ⟨S800000x128, .f32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S1x128, .f32⟩
  | 29 => ⟨S50000x128, .f32⟩
  | 30 => ⟨S50000x128, .f32⟩
  | 31 => ⟨S_, .f32⟩
  | 32 => ⟨S50000x128, .f32⟩
  | 33 => ⟨S50000x128, .i1⟩
  | 34 => ⟨S_, .f32⟩
  | 35 => ⟨S50000x128, .f32⟩
  | 36 => ⟨S50000x128, .i1⟩
  | 37 => ⟨S_, .f32⟩
  | 38 => ⟨S_, .f32⟩
  | 39 => ⟨S50000x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S50000x128, .f32⟩
  | 46 => ⟨S1x800000, .i32⟩
  | 47 => ⟨S800000, .i32⟩
  | 48 => ⟨S1x800000, .i32⟩
  | 49 => ⟨S800000, .i32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x128, .f32⟩
  | 68 => ⟨S800000x256, .f32⟩
  | 69 => ⟨S800000x128, .f32⟩
  | 70 => ⟨S1x128, .f32⟩
  | 71 => ⟨S800000x128, .f32⟩
  | 72 => ⟨S800000x128, .f32⟩
  | 73 => ⟨S_, .f32⟩
  | 74 => ⟨S800000x128, .f32⟩
  | 75 => ⟨S800000x128, .f32⟩
  | 76 => ⟨S800000x128, .f32⟩
  | 77 => ⟨S1x128, .f32⟩
  | 78 => ⟨S800000x128, .f32⟩
  | 79 => ⟨S800000x128, .f32⟩
  | 80 => ⟨S_, .f32⟩
  | 81 => ⟨S800000x128, .f32⟩
  | 82 => ⟨S800000x128, .f32⟩
  | 83 => ⟨S800000x1, .f32⟩
  | 84 => ⟨S1x1, .f32⟩
  | 85 => ⟨S800000x1, .f32⟩
  | 86 => ⟨S800000x1, .f32⟩
  | 87 => ⟨S800000, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_c_5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_6 : Ref sig .tc := ⟨.hbm, 53, rfl⟩
abbrev main_v28 : Ref sig .tc := ⟨.hbm, 54, rfl⟩
abbrev main_v29 : Ref sig .tc := ⟨.hbm, 55, rfl⟩
abbrev main_c_7 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_8 : Ref sig .tc := ⟨.hbm, 64, rfl⟩
abbrev main_v37 : Ref sig .tc := ⟨.hbm, 65, rfl⟩
abbrev main_v38 : Ref sig .tc := ⟨.hbm, 66, rfl⟩
abbrev main_c_9 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_10 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call1_cst : Ref sig .tc := ⟨.hbm, 83, rfl⟩
abbrev main_call1_v0 : Ref sig .tc := ⟨.hbm, 84, rfl⟩
abbrev main_call1_v1 : Ref sig .tc := ⟨.hbm, 85, rfl⟩
abbrev main_call1_cst_0 : Ref sig .tc := ⟨.hbm, 86, rfl⟩
abbrev main_call1_v2 : Ref sig .tc := ⟨.hbm, 87, rfl⟩
abbrev main_call1_v3 : Ref sig .tc := ⟨.hbm, 88, rfl⟩
abbrev main_call1_cst_1 : Ref sig .tc := ⟨.hbm, 89, rfl⟩
abbrev main_call1_call0_v0 : Ref sig .tc := ⟨.hbm, 90, rfl⟩
abbrev main_call1_call0_v1 : Ref sig .tc := ⟨.hbm, 91, rfl⟩
abbrev main_call1_v4 : Ref sig .tc := ⟨.hbm, 92, rfl⟩
abbrev main_call1_v5 : Ref sig .tc := ⟨.hbm, 93, rfl⟩
abbrev main_call1_cst_2 : Ref sig .tc := ⟨.hbm, 94, rfl⟩
abbrev main_call1_v6 : Ref sig .tc := ⟨.hbm, 95, rfl⟩
abbrev main_call1_v7 : Ref sig .tc := ⟨.hbm, 96, rfl⟩
abbrev main_v53 : Ref sig .tc := ⟨.hbm, 97, rfl⟩
abbrev main_cst_11 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_12 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_cst_13 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_14 : Ref sig .tc := ⟨.hbm, 112, rfl⟩
abbrev main_v65 : Ref sig .tc := ⟨.hbm, 113, rfl⟩
abbrev main_v66 : Ref sig .tc := ⟨.hbm, 114, rfl⟩
abbrev main_cst_15 : Ref sig .tc := ⟨.hbm, 115, rfl⟩
abbrev main_call2_v0 : Ref sig .tc := ⟨.hbm, 116, rfl⟩
abbrev main_call2_v1 : Ref sig .tc := ⟨.hbm, 117, rfl⟩
abbrev main_v67 : Ref sig .tc := ⟨.hbm, 118, rfl⟩
abbrev main_c_16 : Ref sig .tc := ⟨.hbm, 119, rfl⟩
abbrev main_v68 : Ref sig .tc := ⟨.hbm, 120, rfl⟩
abbrev main_v69 : Ref sig .tc := ⟨.hbm, 121, rfl⟩
abbrev main_c_17 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_c_18 : Ref sig .tc := ⟨.hbm, 129, rfl⟩
abbrev main_v76 : Ref sig .tc := ⟨.hbm, 130, rfl⟩
abbrev main_v77 : Ref sig .tc := ⟨.hbm, 131, rfl⟩
abbrev main_c_19 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_c_20 : Ref sig .tc := ⟨.hbm, 140, rfl⟩
abbrev main_v85 : Ref sig .tc := ⟨.hbm, 141, rfl⟩
abbrev main_v86 : Ref sig .tc := ⟨.hbm, 142, rfl⟩
abbrev main_c_21 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_22 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_call3_cst : Ref sig .tc := ⟨.hbm, 159, rfl⟩
abbrev main_call3_v0 : Ref sig .tc := ⟨.hbm, 160, rfl⟩
abbrev main_call3_v1 : Ref sig .tc := ⟨.hbm, 161, rfl⟩
abbrev main_call3_cst_0 : Ref sig .tc := ⟨.hbm, 162, rfl⟩
abbrev main_call3_v2 : Ref sig .tc := ⟨.hbm, 163, rfl⟩
abbrev main_call3_v3 : Ref sig .tc := ⟨.hbm, 164, rfl⟩
abbrev main_call3_cst_1 : Ref sig .tc := ⟨.hbm, 165, rfl⟩
abbrev main_call3_call0_v0 : Ref sig .tc := ⟨.hbm, 166, rfl⟩
abbrev main_call3_call0_v1 : Ref sig .tc := ⟨.hbm, 167, rfl⟩
abbrev main_call3_v4 : Ref sig .tc := ⟨.hbm, 168, rfl⟩
abbrev main_call3_v5 : Ref sig .tc := ⟨.hbm, 169, rfl⟩
abbrev main_call3_cst_2 : Ref sig .tc := ⟨.hbm, 170, rfl⟩
abbrev main_call3_v6 : Ref sig .tc := ⟨.hbm, 171, rfl⟩
abbrev main_call3_v7 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_c_23 : Ref sig .tc := ⟨.hbm, 178, rfl⟩
abbrev main_v106 : Ref sig .tc := ⟨.hbm, 179, rfl⟩
abbrev main_v107 : Ref sig .tc := ⟨.hbm, 180, rfl⟩
abbrev main_c_24 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_c_25 : Ref sig .tc := ⟨.hbm, 187, rfl⟩
abbrev main_v113 : Ref sig .tc := ⟨.hbm, 188, rfl⟩
abbrev main_v114 : Ref sig .tc := ⟨.hbm, 189, rfl⟩
abbrev main_c_26 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_call4_cst : Ref sig .tc := ⟨.hbm, 201, rfl⟩
abbrev main_call4_v0 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_call5_cst : Ref sig .tc := ⟨.hbm, 208, rfl⟩
abbrev main_call5_v0 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S800000x128_S800000x128_S800000x256_d1 : Shape.Concatenates [S800000x128, S800000x128] S800000x256 1
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  gather_S50000x128_S50000x1_S50000x128_1_0_n_n_0_1_1128_wf : GatherDims.WF S50000x128 S50000x1 S50000x128 [1] [0] [] [0] [] 1 ![1, 128]
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S800000x256_S256x128_S800000x128_1_0_0_1_n_n_wf : DotDims.WF S800000x256 S256x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf

class Facts : Prop extends Facts₀ where

variable [Facts]
-- ==== Proof.KRun.lean ====
/-
  The kernel program's run with its result named.

  @main is fifteen segments: stretches of host operations and three pipelined regions. The buffer contents at each
  segment boundary are a fold from the launch memory (a stretch applies its operations; a region replaces its
  arrays by what its write-backs leave). Every weakly fair execution terminates with every unscoped buffer at the last
  boundary's contents; read at the result buffer this names the result, and read at an argument buffer it gives back
  the launch contents, since nothing writes an argument.
-/
import proofs.«150106_j66537633350122_2_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v133) = W15 m ρ c (Proc.devRef .tc main_v133)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v133 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c)⟩)

end Cert.KernelIdeal.Hand

end
-- ==== Proof.RefOps.lean ====
/-
  The reference's host program as a line of operations, in program order, cut where the kernel program cuts its own
  line: before and after each selection by the sign of a degree, each linear map, each elu, and the decoder. The
  outlined functions are written out at their calls, over the calls' buffer records. That @main is the sequence of
  this line is proved where the line is run.
-/
import proofs.«150106_j66537633350122_2_alg».proof.ReferenceIdeal
import proofs.«150106_j66537633350122_2_alg».proof.Proof.Gen.ReferenceIdeal
import Idealize.ShloMosaic.Lib.StableHlo.Run

noncomputable section

namespace Cert.ReferenceIdeal.Hand

open Idealize.ShloMosaic Idealize.ShloMosaic.TcCoe Idealize.SL.Sem
open Cert.ReferenceIdeal Cert.ReferenceIdeal.Facts₀ Cert.ReferenceIdeal.Facts

variable {F : FTy → Type} [FloatOps F]

/-- The index column of the node ids, the embedding rows gathered, the rows and columns of the first edge list, the weighted in-degree of every node, its comparison with 0, its square root and the quotient 1 / that root. -/
abbrev r0 : List (HloOp τ sig (Elt F)) :=
  [ StableHlo.nullary main_c (constantI S_ 32 0#32),
    StableHlo.unary main_c main_v0 (broadcastInDim S50000 ![] bcast_S_S50000 : (⟨S_, .i32⟩ : BufTy).Contents (Elt F) → (⟨S50000, .i32⟩ : BufTy).Contents (Elt F)),
    StableHlo.binary main_arg0 main_v0 main_v1 (cmpi .slt : (⟨S50000, .i32⟩ : BufTy).Contents (Elt F) → (⟨S50000, .i32⟩ : BufTy).Contents (Elt F) → (⟨S50000, .i1⟩ : BufTy).Contents (Elt F)),
    StableHlo.nullary main_c_0 (constantI S_ 32 50000#32),
    StableHlo.unary main_c_0 main_v2 (broadcastInDim S50000 ![] bcast_S_S50000 : (⟨S_, .i32⟩ : BufTy).Contents (Elt F) → (⟨S50000, .i32⟩ : BufTy).Contents (Elt F)),
    StableHlo.binary main_arg0 main_v2 main_v3 (addi : (⟨S50000, .i32⟩ : BufTy).Contents (Elt F) → (⟨S50000, .i32⟩ : BufTy).Contents (Elt F) → (⟨S50000, .i32⟩ : BufTy).Contents (Elt F)),
    StableHlo.ternary main_v1 main_v3 main_arg0 main_v4 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v4 main_v5 (broadcastInDim S50000x1 ![0] bcast_S50000_S50000x1_0 : (⟨S50000, .i32⟩ : BufTy).Contents (Elt F) → (⟨S50000x1, .i32⟩ : BufTy).Contents (Elt F)),
    StableHlo.binary main_arg4 main_v5 main_v6 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg1 main_v7 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v7 main_v8 rfl shapeCasts_S1x800000_S800000,
    StableHlo.unary main_arg1 main_v9 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v9 main_v10 rfl shapeCasts_S1x800000_S800000,
    StableHlo.nullary main_cst (constant S_ .f32 0x00000000#32),
    StableHlo.unary main_cst main_v11 (broadcastInDim S50000 ![] bcast_S_S50000 : (⟨S_, .f32⟩ : BufTy).Contents (Elt F) → (⟨S50000, .f32⟩ : BufTy).Contents (Elt F)),
    StableHlo.unary main_v10 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_arg3 main_v13 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x00000000#32),
    StableHlo.unary main_cst_1 main_v14 (broadcastInDim S50000 ![] bcast_S_S50000 : (⟨S_, .f32⟩ : BufTy).Contents (Elt F) → (⟨S50000, .f32⟩ : BufTy).Contents (Elt F)),
    StableHlo.binary main_v13 main_v14 main_v15 (cmpf .ogt : (⟨S50000, .f32⟩ : BufTy).Contents (Elt F) → (⟨S50000, .f32⟩ : BufTy).Contents (Elt F) → (⟨S50000, .i1⟩ : BufTy).Contents (Elt F)),
    StableHlo.unary main_v13 main_v16 (Host.sqrt : (⟨S50000, .f32⟩ : BufTy).Contents (Elt F) → (⟨S50000, .f32⟩ : BufTy).Contents (Elt F)),
    StableHlo.nullary main_cst_2 (constant S_ .f32 0x3F800000#32),
    StableHlo.unary main_cst_2 main_v17 (broadcastInDim S50000 ![] bcast_S_S50000 : (⟨S_, .f32⟩ : BufTy).Contents (Elt F) → (⟨S50000, .f32⟩ : BufTy).Contents (Elt F)),
    StableHlo.binary main_v17 main_v16 main_v18 (Host.divf : (⟨S50000, .f32⟩ : BufTy).Contents (Elt F) → (⟨S50000, .f32⟩ : BufTy).Contents (Elt F) → (⟨S50000, .f32⟩ : BufTy).Contents (Elt F)),
    StableHlo.nullary main_cst_3 (constant S_ .f32 0x00000000#32) ]

/-- The first selection by the sign of the degree: the reciprocal root where the degree is positive, 0 elsewhere. -/
abbrev r1 : List (HloOp τ sig (Elt F)) :=
  [ StableHlo.TRef.unary (.of main_cst_3 : StableHlo.TRef sig ⟨S_, .f32⟩) main_call0.v0 id,
    StableHlo.TRef.unary main_call0.v0 main_call0.v1 (broadcastInDim S50000 ![] bcast_S_S50000),
    StableHlo.TRef.ternary (.of main_v15 : StableHlo.TRef sig ⟨S50000, .i1⟩) (.of main_v18 : StableHlo.TRef sig ⟨S50000, .f32⟩) main_call0.v1 main_call0.v2 select ]

/-- The edge weights normalised: the selected value at each edge's row, times the weight, times the selected value at its column. -/
abbrev r2 : List (HloOp τ sig (Elt F)) :=
  [ StableHlo.nullary main_c_4 (constantI S_ 32 0#32),
    StableHlo.unary main_c_4 main_v20 (broadcastInDim S800000 ![] bcast_S_S800000 : (⟨S_, .i32⟩ : BufTy).Contents (Elt F) → (⟨S800000, .i32⟩ : BufTy).Contents (Elt F)),
    StableHlo.binary main_v8 main_v20 main_v21 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v22 (broadcastInDim S800000 ![] bcast_S_S800000 : (⟨S_, .i32⟩ : BufTy).Contents (Elt F) → (⟨S800000, .i32⟩ : BufTy).Contents (Elt F)),
    StableHlo.binary main_v8 main_v22 main_v23 (addi : (⟨S800000, .i32⟩ : BufTy).Contents (Elt F) → (⟨S800000, .i32⟩ : BufTy).Contents (Elt F) → (⟨S800000, .i32⟩ : BufTy).Contents (Elt F)),
    StableHlo.ternary main_v21 main_v23 main_v8 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v24 main_v25 (broadcastInDim S800000x1 ![0] bcast_S800000_S800000x1_0 : (⟨S800000, .i32⟩ : BufTy).Contents (Elt F) → (⟨S800000x1, .i32⟩ : BufTy).Contents (Elt F)),
    StableHlo.binary main_v19 main_v25 main_v26 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v26 main_arg3 main_v27 (mulf : (⟨S800000, .f32⟩ : BufTy).Contents (Elt F) → (⟨S800000, .f32⟩ : BufTy).Contents (Elt F) → (⟨S800000, .f32⟩ : BufTy).Contents (Elt F)),
    StableHlo.nullary main_c_6 (constantI S_ 32 0#32),
    StableHlo.unary main_c_6 main_v28 (broadcastInDim S800000 ![] bcast_S_S800000 : (⟨S_, .i32⟩ : BufTy).Contents (Elt F) → (⟨S800000, .i32⟩ : BufTy).Contents (Elt F)),
    StableHlo.binary main_v10 main_v28 main_v29 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 50000#32),
    StableHlo.unary main_c_7 main_v30 (broadcastInDim S800000 ![] bcast_S_S800000 : (⟨S_, .i32⟩ : BufTy).Contents (Elt F) → (⟨S800000, .i32⟩ : BufTy).Contents (Elt F)),
    StableHlo.binary main_v10 main_v30 main_v31 (addi : (⟨S800000, .i32⟩ : BufTy).Contents (Elt F) → (⟨S800000, .i32⟩ : BufTy).Contents (Elt F) → (⟨S800000, .i32⟩ : BufTy).Contents (Elt F)),
    StableHlo.ternary main_v29 main_v31 main_v10 main_v32 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v32 main_v33 (broadcastInDim S800000x1 ![0] bcast_S800000_S800000x1_0 : (⟨S800000, .i32⟩ : BufTy).Contents (Elt F) → (⟨S800000x1, .i32⟩ : BufTy).Contents (Elt F)),
    StableHlo.binary main_v19 main_v33 main_v34 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v27 main_v34 main_v35 (mulf : (⟨S800000, .f32⟩ : BufTy).Contents (Elt F) → (⟨S800000, .f32⟩ : BufTy).Contents (Elt F) → (⟨S800000, .f32⟩ : BufTy).Contents (Elt F)) ]

/-- The first linear map, one whole matrix product. -/
abbrev r3 : List (HloOp τ sig (Elt F)) :=
  [ StableHlo.binary main_v6 main_arg5 main_v36 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)) ]

/-- The first aggregation: the product's rows gathered at the edges' rows, scaled by the normalised weights, summed into the edges' columns, the bias added. -/
abbrev r4 : List (HloOp τ sig (Elt F)) :=
  [ StableHlo.nullary main_c_8 (constantI S_ 32 0#32),
    StableHlo.unary main_c_8 main_v37 (broadcastInDim S800000 ![] bcast_S_S800000 : (⟨S_, .i32⟩ : BufTy).Contents (Elt F) → (⟨S800000, .i32⟩ : BufTy).Contents (Elt F)),
    StableHlo.binary main_v8 main_v37 main_v38 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v39 (broadcastInDim S800000 ![] bcast_S_S800000 : (⟨S_, .i32⟩ : BufTy).Contents (Elt F) → (⟨S800000, .i32⟩ : BufTy).Contents (Elt F)),
    StableHlo.binary main_v8 main_v39 main_v40 (addi : (⟨S800000, .i32⟩ : BufTy).Contents (Elt F) → (⟨S800000, .i32⟩ : BufTy).Contents (Elt F) → (⟨S800000, .i32⟩ : BufTy).Contents (Elt F)),
    StableHlo.ternary main_v38 main_v40 main_v8 main_v41 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v41 main_v42 (broadcastInDim S800000x1 ![0] bcast_S800000_S800000x1_0 : (⟨S800000, .i32⟩ : BufTy).Contents (Elt F) → (⟨S800000x1, .i32⟩ : BufTy).Contents (Elt F)),
    StableHlo.binary main_v36 main_v42 main_v43 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.unary main_v35 main_v44 (broadcastInDim S800000x1 ![0] bcast_S800000_S800000x1_0 : (⟨S800000, .f32⟩ : BufTy).Contents (Elt F) → (⟨S800000x1, .f32⟩ : BufTy).Contents (Elt F)),
    StableHlo.unary main_v44 main_v45 (broadcastInDim S800000x256 ![0, 1] bcast_S800000x1_S800000x256_0_1 : (⟨S800000x1, .f32⟩ : BufTy).Contents (Elt F) → (⟨S800000x256, .f32⟩ : BufTy).Contents (Elt F)),
    StableHlo.binary main_v43 main_v45 main_v46 (mulf : (⟨S800000x256, .f32⟩ : BufTy).Contents (Elt F) → (⟨S800000x256, .f32⟩ : BufTy).Contents (Elt F) → (⟨S800000x256, .f32⟩ : BufTy).Contents (Elt F)),
    StableHlo.nullary main_cst_10 (constant S_ .f32 0x00000000#32),
    StableHlo.unary main_cst_10 main_v47 (broadcastInDim S50000x256 ![] bcast_S_S50000x256 : (⟨S_, .f32⟩ : BufTy).Contents (Elt F) → (⟨S50000x256, .f32⟩ : BufTy).Contents (Elt F)),
    StableHlo.unary main_v10 main_v48 (broadcastInDim S800000x1 ![0] bcast_S800000_S800000x1_0 : (⟨S800000, .i32⟩ : BufTy).Contents (Elt F) → (⟨S800000x1, .i32⟩ : BufTy).Contents (Elt F)),
    StableHlo.ternary main_v47 main_v48 main_v46 main_v49 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.unary main_arg6 main_v50 (broadcastInDim S1x256 ![1] bcast_S256_S1x256_1 : (⟨S256, .f32⟩ : BufTy).Contents (Elt F) → (⟨S1x256, .f32⟩ : BufTy).Contents (Elt F)),
    StableHlo.unary main_v50 main_v51 (broadcastInDim S50000x256 ![0, 1] bcast_S1x256_S50000x256_0_1 : (⟨S1x256, .f32⟩ : BufTy).Contents (Elt F) → (⟨S50000x256, .f32⟩ : BufTy).Contents (Elt F)),
    StableHlo.binary main_v49 main_v51 main_v52 (addf : (⟨S50000x256, .f32⟩ : BufTy).Contents (Elt F) → (⟨S50000x256, .f32⟩ : BufTy).Contents (Elt F) → (⟨S50000x256, .f32⟩ : BufTy).Contents (Elt F)) ]

/-- The first elu. -/
abbrev r5 : List (HloOp τ sig (Elt F)) :=
  [ StableHlo.TRef.nullary main_call1.cst (constant S_ .f32 0x00000000#32),
    StableHlo.TRef.unary main_call1.cst main_call1.v0 (broadcastInDim S50000x256 ![] bcast_S_S50000x256),
    StableHlo.TRef.binary (.of main_v52 : StableHlo.TRef sig ⟨S50000x256, .f32⟩) main_call1.v0 main_call1.v1 (cmpf .ogt),
    StableHlo.TRef.nullary main_call1.cst_0 (constant S_ .f32 0x00000000#32),
    StableHlo.TRef.unary main_call1.cst_0 main_call1.v2 (broadcastInDim S50000x256 ![] bcast_S_S50000x256),
    StableHlo.TRef.binary (.of main_v52 : StableHlo.TRef sig ⟨S50000x256, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x256 ![] bcast_S_S50000x256),
    StableHlo.TRef.ternary main_call1.v3 main_call1.call0.v1 (.of main_v52 : StableHlo.TRef sig ⟨S50000x256, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x256 ![] bcast_S_S50000x256),
    StableHlo.TRef.binary main_call1.v6 main_call1.v5 main_call1.v7 mulf,
    StableHlo.TRef.ternary main_call1.v1 (.of main_v52 : StableHlo.TRef sig ⟨S50000x256, .f32⟩) main_call1.v7 main_call1.call1.v0 select ]

/-- The second edge list's rows and columns, the in-degree counted with unit weights, its comparison with 0, its root and the quotient. -/
abbrev r6 : List (HloOp τ sig (Elt F)) :=
  [ StableHlo.nullary main_cst_11 (constant S_ .f32 0x3F800000#32),
    StableHlo.unary main_cst_11 main_v54 (broadcastInDim S800000 ![] bcast_S_S800000 : (⟨S_, .f32⟩ : BufTy).Contents (Elt F) → (⟨S800000, .f32⟩ : BufTy).Contents (Elt F)),
    StableHlo.unary main_arg2 main_v55 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v55 main_v56 rfl shapeCasts_S1x800000_S800000,
    StableHlo.unary main_arg2 main_v57 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v57 main_v58 rfl shapeCasts_S1x800000_S800000,
    StableHlo.nullary main_cst_12 (constant S_ .f32 0x00000000#32),
    StableHlo.unary main_cst_12 main_v59 (broadcastInDim S50000 ![] bcast_S_S50000 : (⟨S_, .f32⟩ : BufTy).Contents (Elt F) → (⟨S50000, .f32⟩ : BufTy).Contents (Elt F)),
    StableHlo.unary main_v58 main_v60 (broadcastInDim S800000x1 ![0] bcast_S800000_S800000x1_0 : (⟨S800000, .i32⟩ : BufTy).Contents (Elt F) → (⟨S800000x1, .i32⟩ : BufTy).Contents (Elt F)),
    StableHlo.ternary main_v59 main_v60 main_v54 main_v61 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_13 (constant S_ .f32 0x00000000#32),
    StableHlo.unary main_cst_13 main_v62 (broadcastInDim S50000 ![] bcast_S_S50000 : (⟨S_, .f32⟩ : BufTy).Contents (Elt F) → (⟨S50000, .f32⟩ : BufTy).Contents (Elt F)),
    StableHlo.binary main_v61 main_v62 main_v63 (cmpf .ogt : (⟨S50000, .f32⟩ : BufTy).Contents (Elt F) → (⟨S50000, .f32⟩ : BufTy).Contents (Elt F) → (⟨S50000, .i1⟩ : BufTy).Contents (Elt F)),
    StableHlo.unary main_v61 main_v64 (Host.sqrt : (⟨S50000, .f32⟩ : BufTy).Contents (Elt F) → (⟨S50000, .f32⟩ : BufTy).Contents (Elt F)),
    StableHlo.nullary main_cst_14 (constant S_ .f32 0x3F800000#32),
    StableHlo.unary main_cst_14 main_v65 (broadcastInDim S50000 ![] bcast_S_S50000 : (⟨S_, .f32⟩ : BufTy).Contents (Elt F) → (⟨S50000, .f32⟩ : BufTy).Contents (Elt F)),
    StableHlo.binary main_v65 main_v64 main_v66 (Host.divf : (⟨S50000, .f32⟩ : BufTy).Contents (Elt F) → (⟨S50000, .f32⟩ : BufTy).Contents (Elt F) → (⟨S50000, .f32⟩ : BufTy).Contents (Elt F)),
    StableHlo.nullary main_cst_15 (constant S_ .f32 0x00000000#32) ]

/-- The second selection by the sign of the degree. -/
abbrev r7 : List (HloOp τ sig (Elt F)) :=
  [ StableHlo.TRef.unary (.of main_cst_15 : StableHlo.TRef sig ⟨S_, .f32⟩) main_call2.v0 id,
    StableHlo.TRef.unary main_call2.v0 main_call2.v1 (broadcastInDim S50000 ![] bcast_S_S50000),
    StableHlo.TRef.ternary (.of main_v63 : StableHlo.TRef sig ⟨S50000, .i1⟩) (.of main_v66 : StableHlo.TRef sig ⟨S50000, .f32⟩) main_call2.v1 main_call2.v2 select ]

/-- The unit weights normalised. -/
abbrev r8 : List (HloOp τ sig (Elt F)) :=
  [ StableHlo.nullary main_c_16 (constantI S_ 32 0#32),
    StableHlo.unary main_c_16 main_v68 (broadcastInDim S800000 ![] bcast_S_S800000 : (⟨S_, .i32⟩ : BufTy).Contents (Elt F) → (⟨S800000, .i32⟩ : BufTy).Contents (Elt F)),
    StableHlo.binary main_v56 main_v68 main_v69 (cmpi .slt : (⟨S800000, .i32⟩ : BufTy).Contents (Elt F) → (⟨S800000, .i32⟩ : BufTy).Contents (Elt F) → (⟨S800000, .i1⟩ : BufTy).Contents (Elt F)),
    StableHlo.nullary main_c_17 (constantI S_ 32 50000#32),
    StableHlo.unary main_c_17 main_v70 (broadcastInDim S800000 ![] bcast_S_S800000 : (⟨S_, .i32⟩ : BufTy).Contents (Elt F) → (⟨S800000, .i32⟩ : BufTy).Contents (Elt F)),
    StableHlo.binary main_v56 main_v70 main_v71 (addi : (⟨S800000, .i32⟩ : BufTy).Contents (Elt F) → (⟨S800000, .i32⟩ : BufTy).Contents (Elt F) → (⟨S800000, .i32⟩ : BufTy).Contents (Elt F)),
    StableHlo.ternary main_v69 main_v71 main_v56 main_v72 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v72 main_v73 (broadcastInDim S800000x1 ![0] bcast_S800000_S800000x1_0 : (⟨S800000, .i32⟩ : BufTy).Contents (Elt F) → (⟨S800000x1, .i32⟩ : BufTy).Contents (Elt F)),
    StableHlo.binary main_v67 main_v73 main_v74 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v74 main_v54 main_v75 (mulf : (⟨S800000, .f32⟩ : BufTy).Contents (Elt F) → (⟨S800000, .f32⟩ : BufTy).Contents (Elt F) → (⟨S800000, .f32⟩ : BufTy).Contents (Elt F)),
    StableHlo.nullary main_c_18 (constantI S_ 32 0#32),
    StableHlo.unary main_c_18 main_v76 (broadcastInDim S800000 ![] bcast_S_S800000 : (⟨S_, .i32⟩ : BufTy).Contents (Elt F) → (⟨S800000, .i32⟩ : BufTy).Contents (Elt F)),
    StableHlo.binary main_v58 main_v76 main_v77 (cmpi .slt : (⟨S800000, .i32⟩ : BufTy).Contents (Elt F) → (⟨S800000, .i32⟩ : BufTy).Contents (Elt F) → (⟨S800000, .i1⟩ : BufTy).Contents (Elt F)),
    StableHlo.nullary main_c_19 (constantI S_ 32 50000#32),
    StableHlo.unary main_c_19 main_v78 (broadcastInDim S800000 ![] bcast_S_S800000 : (⟨S_, .i32⟩ : BufTy).Contents (Elt F) → (⟨S800000, .i32⟩ : BufTy).Contents (Elt F)),
    StableHlo.binary main_v58 main_v78 main_v79 (addi : (⟨S800000, .i32⟩ : BufTy).Contents (Elt F) → (⟨S800000, .i32⟩ : BufTy).Contents (Elt F) → (⟨S800000, .i32⟩ : BufTy).Contents (Elt F)),
    StableHlo.ternary main_v77 main_v79 main_v58 main_v80 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v80 main_v81 (broadcastInDim S800000x1 ![0] bcast_S800000_S800000x1_0 : (⟨S800000, .i32⟩ : BufTy).Contents (Elt F) → (⟨S800000x1, .i32⟩ : BufTy).Contents (Elt F)),
    StableHlo.binary main_v67 main_v81 main_v82 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v75 main_v82 main_v83 (mulf : (⟨S800000, .f32⟩ : BufTy).Contents (Elt F) → (⟨S800000, .f32⟩ : BufTy).Contents (Elt F) → (⟨S800000, .f32⟩ : BufTy).Contents (Elt F)) ]

/-- The second linear map, one whole matrix product. -/
abbrev r9 : List (HloOp τ sig (Elt F)) :=
  [ StableHlo.binary main_v53 main_arg7 main_v84 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) ]

/-- The second aggregation. -/
abbrev r10 : List (HloOp τ sig (Elt F)) :=
  [ StableHlo.nullary main_c_20 (constantI S_ 32 0#32),
    StableHlo.unary main_c_20 main_v85 (broadcastInDim S800000 ![] bcast_S_S800000 : (⟨S_, .i32⟩ : BufTy).Contents (Elt F) → (⟨S800000, .i32⟩ : BufTy).Contents (Elt F)),
    StableHlo.binary main_v56 main_v85 main_v86 (cmpi .slt : (⟨S800000, .i32⟩ : BufTy).Contents (Elt F) → (⟨S800000, .i32⟩ : BufTy).Contents (Elt F) → (⟨S800000, .i1⟩ : BufTy).Contents (Elt F)),
    StableHlo.nullary main_c_21 (constantI S_ 32 50000#32),
    StableHlo.unary main_c_21 main_v87 (broadcastInDim S800000 ![] bcast_S_S800000 : (⟨S_, .i32⟩ : BufTy).Contents (Elt F) → (⟨S800000, .i32⟩ : BufTy).Contents (Elt F)),
    StableHlo.binary main_v56 main_v87 main_v88 (addi : (⟨S800000, .i32⟩ : BufTy).Contents (Elt F) → (⟨S800000, .i32⟩ : BufTy).Contents (Elt F) → (⟨S800000, .i32⟩ : BufTy).Contents (Elt F)),
    StableHlo.ternary main_v86 main_v88 main_v56 main_v89 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v89 main_v90 (broadcastInDim S800000x1 ![0] bcast_S800000_S800000x1_0 : (⟨S800000, .i32⟩ : BufTy).Contents (Elt F) → (⟨S800000x1, .i32⟩ : BufTy).Contents (Elt F)),
    StableHlo.binary main_v84 main_v90 main_v91 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v83 main_v92 (broadcastInDim S800000x1 ![0] bcast_S800000_S800000x1_0 : (⟨S800000, .f32⟩ : BufTy).Contents (Elt F) → (⟨S800000x1, .f32⟩ : BufTy).Contents (Elt F)),
    StableHlo.unary main_v92 main_v93 (broadcastInDim S800000x128 ![0, 1] bcast_S800000x1_S800000x128_0_1 : (⟨S800000x1, .f32⟩ : BufTy).Contents (Elt F) → (⟨S800000x128, .f32⟩ : BufTy).Contents (Elt F)),
    StableHlo.binary main_v91 main_v93 main_v94 (mulf : (⟨S800000x128, .f32⟩ : BufTy).Contents (Elt F) → (⟨S800000x128, .f32⟩ : BufTy).Contents (Elt F) → (⟨S800000x128, .f32⟩ : BufTy).Contents (Elt F)),
    StableHlo.nullary main_cst_22 (constant S_ .f32 0x00000000#32),
    StableHlo.unary main_cst_22 main_v95 (broadcastInDim S50000x128 ![] bcast_S_S50000x128 : (⟨S_, .f32⟩ : BufTy).Contents (Elt F) → (⟨S50000x128, .f32⟩ : BufTy).Contents (Elt F)),
    StableHlo.unary main_v58 main_v96 (broadcastInDim S800000x1 ![0] bcast_S800000_S800000x1_0 : (⟨S800000, .i32⟩ : BufTy).Contents (Elt F) → (⟨S800000x1, .i32⟩ : BufTy).Contents (Elt F)),
    StableHlo.ternary main_v95 main_v96 main_v94 main_v97 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg8 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S50000x128 ![0, 1] bcast_S1x128_S50000x128_0_1 : (⟨S1x128, .f32⟩ : BufTy).Contents (Elt F) → (⟨S50000x128, .f32⟩ : BufTy).Contents (Elt F)),
    StableHlo.binary main_v97 main_v99 main_v100 (addf : (⟨S50000x128, .f32⟩ : BufTy).Contents (Elt F) → (⟨S50000x128, .f32⟩ : BufTy).Contents (Elt F) → (⟨S50000x128, .f32⟩ : BufTy).Contents (Elt F)) ]

/-- The second elu. -/
abbrev r11 : List (HloOp τ sig (Elt F)) :=
  [ StableHlo.TRef.nullary main_call3.cst (constant S_ .f32 0x00000000#32),
    StableHlo.TRef.unary main_call3.cst main_call3.v0 (broadcastInDim S50000x128 ![] bcast_S_S50000x128),
    StableHlo.TRef.binary (.of main_v100 : StableHlo.TRef sig ⟨S50000x128, .f32⟩) main_call3.v0 main_call3.v1 (cmpf .ogt),
    StableHlo.TRef.nullary main_call3.cst_0 (constant S_ .f32 0x00000000#32),
    StableHlo.TRef.unary main_call3.cst_0 main_call3.v2 (broadcastInDim S50000x128 ![] bcast_S_S50000x128),
    StableHlo.TRef.binary (.of main_v100 : StableHlo.TRef sig ⟨S50000x128, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S50000x128 ![] bcast_S_S50000x128),
    StableHlo.TRef.ternary main_call3.v3 main_call3.call0.v1 (.of main_v100 : StableHlo.TRef sig ⟨S50000x128, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S50000x128 ![] bcast_S_S50000x128),
    StableHlo.TRef.binary main_call3.v6 main_call3.v5 main_call3.v7 mulf,
    StableHlo.TRef.ternary main_call3.v1 (.of main_v100 : StableHlo.TRef sig ⟨S50000x128, .f32⟩) main_call3.v7 main_call3.call1.v0 select ]

/-- The node features gathered at the sources and at the destinations of the first edge list. -/
abbrev r12 : List (HloOp τ sig (Elt F)) :=
  [ StableHlo.unary main_arg1 main_v102 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v102 main_v103 rfl shapeCasts_S1x800000_S800000,
    StableHlo.unary main_arg1 main_v104 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v104 main_v105 rfl shapeCasts_S1x800000_S800000,
    StableHlo.nullary main_c_23 (constantI S_ 32 0#32),
    StableHlo.unary main_c_23 main_v106 (broadcastInDim S800000 ![] bcast_S_S800000 : (⟨S_, .i32⟩ : BufTy).Contents (Elt F) → (⟨S800000, .i32⟩ : BufTy).Contents (Elt F)),
    StableHlo.binary main_v103 main_v106 main_v107 (cmpi .slt : (⟨S800000, .i32⟩ : BufTy).Contents (Elt F) → (⟨S800000, .i32⟩ : BufTy).Contents (Elt F) → (⟨S800000, .i1⟩ : BufTy).Contents (Elt F)),
    StableHlo.nullary main_c_24 (constantI S_ 32 50000#32),
    StableHlo.unary main_c_24 main_v108 (broadcastInDim S800000 ![] bcast_S_S800000 : (⟨S_, .i32⟩ : BufTy).Contents (Elt F) → (⟨S800000, .i32⟩ : BufTy).Contents (Elt F)),
    StableHlo.binary main_v103 main_v108 main_v109 (addi : (⟨S800000, .i32⟩ : BufTy).Contents (Elt F) → (⟨S800000, .i32⟩ : BufTy).Contents (Elt F) → (⟨S800000, .i32⟩ : BufTy).Contents (Elt F)),
    StableHlo.ternary main_v107 main_v109 main_v103 main_v110 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v110 main_v111 (broadcastInDim S800000x1 ![0] bcast_S800000_S800000x1_0 : (⟨S800000, .i32⟩ : BufTy).Contents (Elt F) → (⟨S800000x1, .i32⟩ : BufTy).Contents (Elt F)),
    StableHlo.binary main_v101 main_v111 main_v112 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_25 (constantI S_ 32 0#32),
    StableHlo.unary main_c_25 main_v113 (broadcastInDim S800000 ![] bcast_S_S800000 : (⟨S_, .i32⟩ : BufTy).Contents (Elt F) → (⟨S800000, .i32⟩ : BufTy).Contents (Elt F)),
    StableHlo.binary main_v105 main_v113 main_v114 (cmpi .slt : (⟨S800000, .i32⟩ : BufTy).Contents (Elt F) → (⟨S800000, .i32⟩ : BufTy).Contents (Elt F) → (⟨S800000, .i1⟩ : BufTy).Contents (Elt F)),
    StableHlo.nullary main_c_26 (constantI S_ 32 50000#32),
    StableHlo.unary main_c_26 main_v115 (broadcastInDim S800000 ![] bcast_S_S800000 : (⟨S_, .i32⟩ : BufTy).Contents (Elt F) → (⟨S800000, .i32⟩ : BufTy).Contents (Elt F)),
    StableHlo.binary main_v105 main_v115 main_v116 (addi : (⟨S800000, .i32⟩ : BufTy).Contents (Elt F) → (⟨S800000, .i32⟩ : BufTy).Contents (Elt F) → (⟨S800000, .i32⟩ : BufTy).Contents (Elt F)),
    StableHlo.ternary main_v114 main_v116 main_v105 main_v117 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v117 main_v118 (broadcastInDim S800000x1 ![0] bcast_S800000_S800000x1_0 : (⟨S800000, .i32⟩ : BufTy).Contents (Elt F) → (⟨S800000x1, .i32⟩ : BufTy).Contents (Elt F)),
    StableHlo.binary main_v101 main_v118 main_v119 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]

/-- The decoder: the two gathered halves side by side, three matrix products with their biases, the first two followed by the maximum with 0. -/
abbrev r13 : List (HloOp τ sig (Elt F)) :=
  [ StableHlo.binary main_v112 main_v119 main_v120 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    StableHlo.binary main_v120 main_arg9 main_v121 ((fun l r => Host.dotGeneral dot_S800000x256_S256x128_S800000x128_1_0_0_1_n_n none l r) : (⟨S800000x256, .f32⟩ : BufTy).Contents (Elt F) → (⟨S256x128, .f32⟩ : BufTy).Contents (Elt F) → (⟨S800000x128, .f32⟩ : BufTy).Contents (Elt F)),
    StableHlo.unary main_arg10 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S800000x128 ![0, 1] bcast_S1x128_S800000x128_0_1 : (⟨S1x128, .f32⟩ : BufTy).Contents (Elt F) → (⟨S800000x128, .f32⟩ : BufTy).Contents (Elt F)),
    StableHlo.binary main_v121 main_v123 main_v124 (addf : (⟨S800000x128, .f32⟩ : BufTy).Contents (Elt F) → (⟨S800000x128, .f32⟩ : BufTy).Contents (Elt F) → (⟨S800000x128, .f32⟩ : BufTy).Contents (Elt F)),
    StableHlo.TRef.nullary main_call4.cst (constant S_ .f32 0x00000000#32),
    StableHlo.TRef.unary main_call4.cst main_call4.v0 (broadcastInDim S800000x128 ![] bcast_S_S800000x128),
    StableHlo.TRef.binary (.of main_v124 : StableHlo.TRef sig ⟨S800000x128, .f32⟩) main_call4.v0 main_call4.v1 maximumf,
    StableHlo.binary main_v125 main_arg11 main_v126 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.unary main_arg12 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S800000x128 ![0, 1] bcast_S1x128_S800000x128_0_1 : (⟨S1x128, .f32⟩ : BufTy).Contents (Elt F) → (⟨S800000x128, .f32⟩ : BufTy).Contents (Elt F)),
    StableHlo.binary main_v126 main_v128 main_v129 (addf : (⟨S800000x128, .f32⟩ : BufTy).Contents (Elt F) → (⟨S800000x128, .f32⟩ : BufTy).Contents (Elt F) → (⟨S800000x128, .f32⟩ : BufTy).Contents (Elt F)),
    StableHlo.TRef.nullary main_call5.cst (constant S_ .f32 0x00000000#32),
    StableHlo.TRef.unary main_call5.cst main_call5.v0 (broadcastInDim S800000x128 ![] bcast_S_S800000x128),
    StableHlo.TRef.binary (.of main_v129 : StableHlo.TRef sig ⟨S800000x128, .f32⟩) main_call5.v0 main_call5.v1 maximumf,
    StableHlo.binary main_v130 main_arg13 main_v131 ((fun l r => Host.dotGeneral dot_S800000x128_S128x1_S800000x1_1_0_0_1_n_n none l r) : (⟨S800000x128, .f32⟩ : BufTy).Contents (Elt F) → (⟨S128x1, .f32⟩ : BufTy).Contents (Elt F) → (⟨S800000x1, .f32⟩ : BufTy).Contents (Elt F)),
    StableHlo.unary main_arg14 main_v132 (broadcastInDim S1x1 ![1] bcast_S1_S1x1_1 : (⟨S1, .f32⟩ : BufTy).Contents (Elt F) → (⟨S1x1, .f32⟩ : BufTy).Contents (Elt F)),
    StableHlo.unary main_v132 main_v133 (broadcastInDim S800000x1 ![0, 1] bcast_S1x1_S800000x1_0_1 : (⟨S1x1, .f32⟩ : BufTy).Contents (Elt F) → (⟨S800000x1, .f32⟩ : BufTy).Contents (Elt F)),
    StableHlo.binary main_v131 main_v133 main_v134 (addf : (⟨S800000x1, .f32⟩ : BufTy).Contents (Elt F) → (⟨S800000x1, .f32⟩ : BufTy).Contents (Elt F) → (⟨S800000x1, .f32⟩ : BufTy).Contents (Elt F)) ]

/-- The output column as a vector. -/
abbrev r14 : List (HloOp τ sig (Elt F)) :=
  [ StableHlo.reshape main_v134 main_v135 rfl shapeCasts_S800000x1_S800000 ]

end Cert.ReferenceIdeal.Hand

end
-- ==== Proof.LibAfter.lean ====
/-
  General facts about `StableHlo.after` over a line in single-assignment form: a line of host operations each of
  which writes exactly one reference, the written references pairwise distinct. For such a line the contents of a
  written reference after the whole line are the writing operation's result over the contents after the operations
  before it, and a reference written before position `k` (or never written) holds after the whole line what it holds
  after the first `k` operations. Hence the per-operation read equations `read_unary`, `read_binary`, … : the
  final contents of a result are the operation's function of the FINAL contents of its operands.
-/
import Idealize.ShloMosaic.Lib.StableHlo.Run

namespace Cert.LibAfter

open Idealize.ShloMosaic Idealize.ShloMosaic.StableHlo

variable {τ : Topo} {sig : RefSig} {Val : EltTy → Type}

/-- Operation by operation, the line writes exactly the references of the list. -/
abbrev Writes (ops : List (HloOp τ sig Val)) (wr : List (Ref sig .tc)) : Prop :=
  List.Forall₂ (fun op r => op.writes = {Proc.devRef (τ := τ) .tc r}) ops wr

/-- The fold over two lines in a row is the fold over the second from the fold over the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A reference the line never writes keeps its contents. -/
theorem after_of_not_written {ops : List (HloOp τ sig Val)} {wr : List (Ref sig .tc)} (hw : Writes ops wr)
    {r : Ref sig .tc} (hr : r ∉ wr) (V : Valuation τ sig Val) :
    after ops V (Proc.devRef .tc r) = V (Proc.devRef .tc r) := by
  induction hw generalizing V with
  | nil => rfl
  | @cons op r' ops wr hop _ ih =>
    rw [after_cons, ih (fun h => hr (List.mem_cons_of_mem _ h)),
      op.result_of_not_mem V (by
        rw [hop, Finset.mem_singleton]
        exact devRef_ne_of_ne (fun e => hr (e ▸ List.mem_cons_self)))]

theorem writes_drop {ops : List (HloOp τ sig Val)} {wr : List (Ref sig .tc)} (hw : Writes ops wr) (k : Nat) :
    Writes (ops.drop k) (wr.drop k) := List.forall₂_drop k hw

theorem writes_append {o₁ o₂ : List (HloOp τ sig Val)} {w₁ w₂ : List (Ref sig .tc)} (h₁ : Writes o₁ w₁) (h₂ : Writes o₂ w₂) :
    Writes (o₁ ++ o₂) (w₁ ++ w₂) := List.rel_append h₁ h₂

/-- In a list without repetition, the entry at a position is not among the entries from a later position on. -/
theorem not_mem_drop_of_lt {α : Type} {l : List α} (hnd : l.Nodup) {i k : Nat} (hik : i < k) {a : α}
    (ha : l[i]? = some a) : a ∉ l.drop k := by
  intro hmem
  obtain ⟨j, hj⟩ := List.mem_iff_getElem?.mp hmem
  rw [List.getElem?_drop] at hj
  have hlt : k + j < l.length := (List.getElem?_eq_some_iff.mp hj).1
  exact (List.nodup_iff_getElem?_ne_getElem?.mp hnd i (k + j) (by omega) hlt) (ha.trans hj.symm)

theorem not_mem_drop_of_not_mem {α : Type} {l : List α} {a : α} (ha : a ∉ l) (k : Nat) : a ∉ l.drop k :=
  fun h => ha (List.mem_of_mem_drop h)

/-- A reference not written from position `k` on holds after the line what it holds after the first `k` operations. -/
theorem after_keep {ops : List (HloOp τ sig Val)} {wr : List (Ref sig .tc)} (hw : Writes ops wr) (k : Nat)
    {a : Ref sig .tc} (ha : a ∉ wr.drop k) (V : Valuation τ sig Val) :
    after ops V (Proc.devRef .tc a) = after (ops.take k) V (Proc.devRef .tc a) := by
  conv_lhs => rw [← List.take_append_drop k ops]
  rw [after_append, after_of_not_written (writes_drop hw k) ha]

/-- The reference written at position `k` holds after the line the result of that operation over the contents after
    the first `k` operations. -/
theorem after_at {ops : List (HloOp τ sig Val)} {wr : List (Ref sig .tc)} (hw : Writes ops wr) (hnd : wr.Nodup) (k : Nat)
    {op : HloOp τ sig Val} {y : Ref sig .tc} (hop : ops[k]? = some op) (hy : wr[k]? = some y) (V : Valuation τ sig Val) :
    after ops V (Proc.devRef .tc y) = op.result (after (ops.take k) V) (Proc.devRef .tc y) := by
  obtain ⟨hk, hopk⟩ := List.getElem?_eq_some_iff.mp hop
  have e : ops = ops.take k ++ op :: ops.drop (k + 1) := by
    rw [← hopk, ← List.drop_eq_getElem_cons hk, List.take_append_drop]
  conv_lhs => rw [e]
  rw [after_append, after_cons,
    after_of_not_written (writes_drop hw (k + 1)) (not_mem_drop_of_lt hnd (Nat.lt_succ_self k) hy)]

section Reads

variable {ops : List (HloOp τ sig Val)} {wr : List (Ref sig .tc)} (hw : Writes ops wr) (hnd : wr.Nodup) (k : Nat)
include hw hnd

/-- A constant's buffer holds the constant. -/
theorem read_nullary {y : Ref sig .tc} {v : y.ty.Contents Val} {hy}
    (hop : ops[k]? = some (nullary (τ := τ) y v hy)) (hyk : wr[k]? = some y) (V : Valuation τ sig Val) :
    after ops V (Proc.devRef .tc y) = v := by
  rw [after_at hw hnd k hop hyk, nullary_result]

/-- A one-operand operation's result holds its function of the operand's final contents. -/
theorem read_unary {x y : Ref sig .tc} {f : x.ty.Contents Val → y.ty.Contents Val} {hx hy}
    (hop : ops[k]? = some (unary (τ := τ) x y f hx hy)) (hyk : wr[k]? = some y) (hxk : x ∉ wr.drop k)
    (V : Valuation τ sig Val) :
    after ops V (Proc.devRef .tc y) = f (after ops V (Proc.devRef .tc x)) := by
  rw [after_at hw hnd k hop hyk, unary_result, after_keep hw k hxk]

/-- A two-operand operation's result holds its function of the operands' final contents. -/
theorem read_binary {a b y : Ref sig .tc} {f : a.ty.Contents Val → b.ty.Contents Val → y.ty.Contents Val} {ha hb hy}
    (hop : ops[k]? = some (binary (τ := τ) a b y f ha hb hy)) (hyk : wr[k]? = some y)
    (hak : a ∉ wr.drop k) (hbk : b ∉ wr.drop k) (V : Valuation τ sig Val) :
    after ops V (Proc.devRef .tc y) = f (after ops V (Proc.devRef .tc a)) (after ops V (Proc.devRef .tc b)) := by
  rw [after_at hw hnd k hop hyk, binary_result, after_keep hw k hak, after_keep hw k hbk]

/-- A three-operand operation's result holds its function of the operands' final contents. -/
theorem read_ternary {c a b y : Ref sig .tc}
    {f : c.ty.Contents Val → a.ty.Contents Val → b.ty.Contents Val → y.ty.Contents Val} {hc ha hb hy}
    (hop : ops[k]? = some (ternary (τ := τ) c a b y f hc ha hb hy)) (hyk : wr[k]? = some y)
    (hck : c ∉ wr.drop k) (hak : a ∉ wr.drop k) (hbk : b ∉ wr.drop k) (V : Valuation τ sig Val) :
    after ops V (Proc.devRef .tc y)
      = f (after ops V (Proc.devRef .tc c)) (after ops V (Proc.devRef .tc a)) (after ops V (Proc.devRef .tc b)) := by
  rw [after_at hw hnd k hop hyk, ternary_result, after_keep hw k hck, after_keep hw k hak, after_keep hw k hbk]

/-- A reshape's result holds the operand's final contents, re-indexed row-major at the result's shape. -/
theorem read_reshape {x y : Ref sig .tc} {he : x.ty.elt = y.ty.elt} {hn : x.ty.shape.ShapeCasts y.ty.shape} {hx hy}
    (hop : ops[k]? = some (reshape (τ := τ) (Val := Val) x y he hn hx hy)) (hyk : wr[k]? = some y) (hxk : x ∉ wr.drop k)
    (V : Valuation τ sig Val) :
    after ops V (Proc.devRef .tc y) = fun i => he ▸ shapeCast y.ty.shape (after ops V (Proc.devRef .tc x)) hn i := by
  rw [after_at hw hnd k hop hyk, reshape_result, after_keep hw k hxk]

end Reads

end Cert.LibAfter
-- ==== Proof.RefRun.lean ====
/-
  The reference program's run.

  `@main` of the reference is a straight line of host operations in which outlined functions are called (`_where`
  twice, `elu`, `elu_2`, `relu` twice; `elu` and `elu_2` call two further `_where`s each). With every function's body
  written out at its call, over the buffers the call's record names, it is one line of 201 operations: the fifteen
  consecutive segments `r0 … r14` of the operations' table, grouped here as

    `opsA = r0 ++ r1 ++ r2`                          — everything before the first matrix product,
    `opsB = r3 ++ r4 ++ r5 ++ r6 ++ r7 ++ r8`        — from the first matrix product to just before the second,
    `opsC = r9 ++ r10 ++ r11 ++ r12 ++ r13 ++ r14`   — from the second matrix product to the end.

  `main_eq`: `@main` IS the straight line of `opsA ++ opsB ++ opsC` — both sides compute to the same chain of steps
  (sequencing in the program monad computes, so re-association and the functions' unfolding are definitional).
  `run`: hence every weakly fair execution terminates with each buffer at the fold of the operations over the launch
  contents. Each operation writes exactly one buffer, the 201 written buffers are pairwise distinct and none is an
  argument (`writes`, `wr_nodup`), so the fifteen arguments keep their contents (`argK_kept`, `frame`).
-/
import proofs.«150106_j66537633350122_2_alg».proof.Proof.RefOps
import proofs.«150106_j66537633350122_2_alg».proof.Proof.LibAfter
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The line, grouped -/

/-- Everything before the first matrix product. -/
abbrev opsA : List (HloOp τ sig (Elt F)) := r0 ++ r1 ++ r2
/-- From the first matrix product to just before the second. -/
abbrev opsB : List (HloOp τ sig (Elt F)) := r3 ++ r4 ++ r5 ++ r6 ++ r7 ++ r8
/-- From the second matrix product to the end. -/
abbrev opsC : List (HloOp τ sig (Elt F)) := r9 ++ r10 ++ r11 ++ r12 ++ r13 ++ r14

/-! ## `@main` is that straight line -/

/-- `@main` is the straight line of the 201 operations. Both sides are closed terms of the program monad, whose
    sequencing computes: unfolding `@main`'s three windows and each called function's body at its call, and the fold
    `seq` over the appended literal lists, yields the same chain of `hlo` steps ending in the return. The equation is
    therefore an instance of reflexivity, checked by that computation. -/
theorem main_eq (c : Dev nD) : main (F := F) c = seq (opsA ++ opsB ++ opsC) := by
  chain_rfl

theorem scopedRefs_eq : (Finset.univ.filter fun b : Ref sig .tc => b.isScoped) = ∅ := by decide
theorem scopedSems_eq : (Finset.univ.filter fun sm : SemLoc sig => sm.isScoped .tc) = ∅ := by decide

/-! ## Each operation touches TensorCore buffers only, and determines what it writes -/

theorem r0_sub : (r0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub ..⟩
theorem r1_sub : (r1 : List (HloOp τ sig (Elt F))).Forall fun op => op.bufs ⊆ tcRefs τ sig :=
  ⟨unary_bufs_sub .., unary_bufs_sub .., ternary_bufs_sub ..⟩
theorem r2_sub : (r2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem r3_sub : (r3 : List (HloOp τ sig (Elt F))).Forall fun op => op.bufs ⊆ tcRefs τ sig :=
  binary_bufs_sub ..
theorem r4_sub : (r4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem r5_sub : (r5 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem r6_sub : (r6 : List (HloOp τ sig (Elt F))).Forall fun op => op.bufs ⊆ tcRefs τ sig :=
  ⟨nullary_bufs_sub .., unary_bufs_sub .., unary_bufs_sub .., reshape_bufs_sub .., unary_bufs_sub .., reshape_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub ..⟩
theorem r7_sub : (r7 : List (HloOp τ sig (Elt F))).Forall fun op => op.bufs ⊆ tcRefs τ sig :=
  ⟨unary_bufs_sub .., unary_bufs_sub .., ternary_bufs_sub ..⟩
theorem r8_sub : (r8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem r9_sub : (r9 : List (HloOp τ sig (Elt F))).Forall fun op => op.bufs ⊆ tcRefs τ sig :=
  binary_bufs_sub ..
theorem r10_sub : (r10 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem r11_sub : (r11 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem r12_sub : (r12 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem r13_sub : (r13 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem r14_sub : (r14 : List (HloOp τ sig (Elt F))).Forall fun op => op.bufs ⊆ tcRefs τ sig :=
  reshape_bufs_sub ..

theorem r0_fresh : (r0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩
theorem r1_fresh : (r1 : List (HloOp τ sig (Elt F))).Forall fun op => op.fresh = ∅ :=
  ⟨rfl, rfl, rfl⟩
theorem r2_fresh : (r2 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem r3_fresh : (r3 : List (HloOp τ sig (Elt F))).Forall fun op => op.fresh = ∅ :=
  rfl
theorem r4_fresh : (r4 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem r5_fresh : (r5 : List (HloOp τ sig (Elt F))).Forall fun op => op.fresh = ∅ :=
  ⟨rfl, rfl, rfl, rfl, rfl, rfl, rfl, rfl, rfl, rfl, rfl, rfl, rfl, rfl, rfl⟩
theorem r6_fresh : (r6 : List (HloOp τ sig (Elt F))).Forall fun op => op.fresh = ∅ :=
  ⟨rfl, rfl, rfl, rfl, rfl, rfl, rfl, rfl, rfl, rfl, rfl, rfl, rfl, rfl, rfl, rfl, rfl, rfl⟩
theorem r7_fresh : (r7 : List (HloOp τ sig (Elt F))).Forall fun op => op.fresh = ∅ :=
  ⟨rfl, rfl, rfl⟩
theorem r8_fresh : (r8 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem r9_fresh : (r9 : List (HloOp τ sig (Elt F))).Forall fun op => op.fresh = ∅ :=
  rfl
theorem r10_fresh : (r10 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem r11_fresh : (r11 : List (HloOp τ sig (Elt F))).Forall fun op => op.fresh = ∅ :=
  ⟨rfl, rfl, rfl, rfl, rfl, rfl, rfl, rfl, rfl, rfl, rfl, rfl, rfl, rfl, rfl⟩
theorem r12_fresh : (r12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem r13_fresh : (r13 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem r14_fresh : (r14 : List (HloOp τ sig (Elt F))).Forall fun op => op.fresh = ∅ :=
  rfl

private theorem forall_app {α : Type} {p : α → Prop} {xs ys : List α} (h₁ : xs.Forall p) (h₂ : ys.Forall p) :
    (xs ++ ys).Forall p := List.forall_append.2 ⟨h₁, h₂⟩

theorem ops_sub : (opsA ++ opsB ++ opsC : List (HloOp τ sig (Elt F))).Forall fun op => op.bufs ⊆ tcRefs τ sig :=
  forall_app (forall_app (forall_app (forall_app (r0_sub) r1_sub) r2_sub) (forall_app (forall_app (forall_app (forall_app (forall_app (r3_sub) r4_sub) r5_sub) r6_sub) r7_sub) r8_sub))
    (forall_app (forall_app (forall_app (forall_app (forall_app (r9_sub) r10_sub) r11_sub) r12_sub) r13_sub) r14_sub)

theorem ops_fresh : ∀ op ∈ (opsA ++ opsB ++ opsC : List (HloOp τ sig (Elt F))), op.fresh = ∅ :=
  List.forall_iff_forall_mem.1 (forall_app (forall_app (forall_app (forall_app (r0_fresh) r1_fresh) r2_fresh) (forall_app (forall_app (forall_app (forall_app (forall_app (r3_fresh) r4_fresh) r5_fresh) r6_fresh) r7_fresh) r8_fresh))
    (forall_app (forall_app (forall_app (forall_app (forall_app (r9_fresh) r10_fresh) r11_fresh) r12_fresh) r13_fresh) r14_fresh))

/-! ## The run -/

/-- On every device, for any float values, from any memory with zero counters: every weakly fair execution of `@main`
    terminates, and every final state has each TensorCore buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after (opsA ++ opsB ++ opsC) (launchContents m c) (b : DevRef τ sig) :=
  run_seq scopedRefs_eq scopedSems_eq defs main (fun _ => opsA ++ opsB ++ opsC) main_eq (fun _ => ops_sub) m ρ (fun _ => ops_fresh)

/-! ## What each operation writes -/

/-- The buffers `r0`'s operations write, operation by operation. -/
abbrev w0 : List (Ref sig .tc) := [main_c, main_v0, main_v1, main_c_0, main_v2, main_v3, main_v4, main_v5, main_v6, main_v7, main_v8, main_v9, main_v10, main_cst, main_v11, main_v12, main_v13, main_cst_1, main_v14, main_v15, main_v16, main_cst_2, main_v17, main_v18, main_cst_3]
/-- The buffers `r1`'s operations write, operation by operation. -/
abbrev w1 : List (Ref sig .tc) := [main_call0_v0, main_call0_v1, main_v19]
/-- The buffers `r2`'s operations write, operation by operation. -/
abbrev w2 : List (Ref sig .tc) := [main_c_4, main_v20, main_v21, main_c_5, main_v22, main_v23, main_v24, main_v25, main_v26, main_v27, main_c_6, main_v28, main_v29, main_c_7, main_v30, main_v31, main_v32, main_v33, main_v34, main_v35]
/-- The buffers `r3`'s operations write, operation by operation. -/
abbrev w3 : List (Ref sig .tc) := [main_v36]
/-- The buffers `r4`'s operations write, operation by operation. -/
abbrev w4 : List (Ref sig .tc) := [main_c_8, main_v37, main_v38, main_c_9, main_v39, main_v40, main_v41, main_v42, main_v43, main_v44, main_v45, main_v46, main_cst_10, main_v47, main_v48, main_v49, main_v50, main_v51, main_v52]
/-- The buffers `r5`'s operations write, operation by operation. -/
abbrev w5 : List (Ref sig .tc) := [main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v53]
/-- The buffers `r6`'s operations write, operation by operation. -/
abbrev w6 : List (Ref sig .tc) := [main_cst_11, main_v54, main_v55, main_v56, main_v57, main_v58, main_cst_12, main_v59, main_v60, main_v61, main_cst_13, main_v62, main_v63, main_v64, main_cst_14, main_v65, main_v66, main_cst_15]
/-- The buffers `r7`'s operations write, operation by operation. -/
abbrev w7 : List (Ref sig .tc) := [main_call2_v0, main_call2_v1, main_v67]
/-- The buffers `r8`'s operations write, operation by operation. -/
abbrev w8 : List (Ref sig .tc) := [main_c_16, main_v68, main_v69, main_c_17, main_v70, main_v71, main_v72, main_v73, main_v74, main_v75, main_c_18, main_v76, main_v77, main_c_19, main_v78, main_v79, main_v80, main_v81, main_v82, main_v83]
/-- The buffers `r9`'s operations write, operation by operation. -/
abbrev w9 : List (Ref sig .tc) := [main_v84]
/-- The buffers `r10`'s operations write, operation by operation. -/
abbrev w10 : List (Ref sig .tc) := [main_c_20, main_v85, main_v86, main_c_21, main_v87, main_v88, main_v89, main_v90, main_v91, main_v92, main_v93, main_v94, main_cst_22, main_v95, main_v96, main_v97, main_v98, main_v99, main_v100]
/-- The buffers `r11`'s operations write, operation by operation. -/
abbrev w11 : List (Ref sig .tc) := [main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v101]
/-- The buffers `r12`'s operations write, operation by operation. -/
abbrev w12 : List (Ref sig .tc) := [main_v102, main_v103, main_v104, main_v105, main_c_23, main_v106, main_v107, main_c_24, main_v108, main_v109, main_v110, main_v111, main_v112, main_c_25, main_v113, main_v114, main_c_26, main_v115, main_v116, main_v117, main_v118, main_v119]
/-- The buffers `r13`'s operations write, operation by operation. -/
abbrev w13 : List (Ref sig .tc) := [main_v120, main_v121, main_v122, main_v123, main_v124, main_call4_cst, main_call4_v0, main_v125, main_v126, main_v127, main_v128, main_v129, main_call5_cst, main_call5_v0, main_v130, main_v131, main_v132, main_v133, main_v134]
/-- The buffers `r14`'s operations write, operation by operation. -/
abbrev w14 : List (Ref sig .tc) := [main_v135]

abbrev wrA : List (Ref sig .tc) := w0 ++ w1 ++ w2
abbrev wrB : List (Ref sig .tc) := w3 ++ w4 ++ w5 ++ w6 ++ w7 ++ w8
abbrev wrC : List (Ref sig .tc) := w9 ++ w10 ++ w11 ++ w12 ++ w13 ++ w14

theorem writes0 : Cert.LibAfter.Writes (r0 : List (HloOp τ sig (Elt F))) w0 := by
  repeat (first | exact List.Forall₂.nil | refine List.Forall₂.cons rfl ?_)
theorem writes1 : Cert.LibAfter.Writes (r1 : List (HloOp τ sig (Elt F))) w1 := by
  repeat (first | exact List.Forall₂.nil | refine List.Forall₂.cons rfl ?_)
theorem writes2 : Cert.LibAfter.Writes (r2 : List (HloOp τ sig (Elt F))) w2 := by
  repeat (first | exact List.Forall₂.nil | refine List.Forall₂.cons rfl ?_)
theorem writes3 : Cert.LibAfter.Writes (r3 : List (HloOp τ sig (Elt F))) w3 := by
  repeat (first | exact List.Forall₂.nil | refine List.Forall₂.cons rfl ?_)
theorem writes4 : Cert.LibAfter.Writes (r4 : List (HloOp τ sig (Elt F))) w4 := by
  repeat (first | exact List.Forall₂.nil | refine List.Forall₂.cons rfl ?_)
theorem writes5 : Cert.LibAfter.Writes (r5 : List (HloOp τ sig (Elt F))) w5 := by
  repeat (first | exact List.Forall₂.nil | refine List.Forall₂.cons rfl ?_)
theorem writes6 : Cert.LibAfter.Writes (r6 : List (HloOp τ sig (Elt F))) w6 := by
  repeat (first | exact List.Forall₂.nil | refine List.Forall₂.cons rfl ?_)
theorem writes7 : Cert.LibAfter.Writes (r7 : List (HloOp τ sig (Elt F))) w7 := by
  repeat (first | exact List.Forall₂.nil | refine List.Forall₂.cons rfl ?_)
theorem writes8 : Cert.LibAfter.Writes (r8 : List (HloOp τ sig (Elt F))) w8 := by
  repeat (first | exact List.Forall₂.nil | refine List.Forall₂.cons rfl ?_)
theorem writes9 : Cert.LibAfter.Writes (r9 : List (HloOp τ sig (Elt F))) w9 := by
  repeat (first | exact List.Forall₂.nil | refine List.Forall₂.cons rfl ?_)
theorem writes10 : Cert.LibAfter.Writes (r10 : List (HloOp τ sig (Elt F))) w10 := by
  repeat (first | exact List.Forall₂.nil | refine List.Forall₂.cons rfl ?_)
theorem writes11 : Cert.LibAfter.Writes (r11 : List (HloOp τ sig (Elt F))) w11 := by
  repeat (first | exact List.Forall₂.nil | refine List.Forall₂.cons rfl ?_)
theorem writes12 : Cert.LibAfter.Writes (r12 : List (HloOp τ sig (Elt F))) w12 := by
  repeat (first | exact List.Forall₂.nil | refine List.Forall₂.cons rfl ?_)
theorem writes13 : Cert.LibAfter.Writes (r13 : List (HloOp τ sig (Elt F))) w13 := by
  repeat (first | exact List.Forall₂.nil | refine List.Forall₂.cons rfl ?_)
theorem writes14 : Cert.LibAfter.Writes (r14 : List (HloOp τ sig (Elt F))) w14 := by
  repeat (first | exact List.Forall₂.nil | refine List.Forall₂.cons rfl ?_)

theorem writesA : Cert.LibAfter.Writes (opsA : List (HloOp τ sig (Elt F))) wrA :=
  Cert.LibAfter.writes_append (Cert.LibAfter.writes_append (writes0) writes1) writes2
theorem writesB : Cert.LibAfter.Writes (opsB : List (HloOp τ sig (Elt F))) wrB :=
  Cert.LibAfter.writes_append (Cert.LibAfter.writes_append (Cert.LibAfter.writes_append (Cert.LibAfter.writes_append (Cert.LibAfter.writes_append (writes3) writes4) writes5) writes6) writes7) writes8
theorem writesC : Cert.LibAfter.Writes (opsC : List (HloOp τ sig (Elt F))) wrC :=
  Cert.LibAfter.writes_append (Cert.LibAfter.writes_append (Cert.LibAfter.writes_append (Cert.LibAfter.writes_append (Cert.LibAfter.writes_append (writes9) writes10) writes11) writes12) writes13) writes14
/-- Operation by operation, the line writes exactly the buffers of `wrA ++ wrB ++ wrC`. -/
theorem writes : Cert.LibAfter.Writes (opsA ++ opsB ++ opsC : List (HloOp τ sig (Elt F))) (wrA ++ wrB ++ wrC) :=
  Cert.LibAfter.writes_append (Cert.LibAfter.writes_append writesA writesB) writesC

/-- No buffer is written twice. -/
theorem wr_nodup : (wrA ++ wrB ++ wrC).Nodup := by decide

/-! ## The arguments are kept -/

theorem arg0_kept (V : Valuation τ sig (Elt F)) :
    after (opsA ++ opsB ++ opsC) V (main_arg0 : DevRef τ sig) = V (main_arg0 : DevRef τ sig) :=
  Cert.LibAfter.after_of_not_written writes (by decide) V
theorem arg1_kept (V : Valuation τ sig (Elt F)) :
    after (opsA ++ opsB ++ opsC) V (main_arg1 : DevRef τ sig) = V (main_arg1 : DevRef τ sig) :=
  Cert.LibAfter.after_of_not_written writes (by decide) V
theorem arg2_kept (V : Valuation τ sig (Elt F)) :
    after (opsA ++ opsB ++ opsC) V (main_arg2 : DevRef τ sig) = V (main_arg2 : DevRef τ sig) :=
  Cert.LibAfter.after_of_not_written writes (by decide) V
theorem arg3_kept (V : Valuation τ sig (Elt F)) :
    after (opsA ++ opsB ++ opsC) V (main_arg3 : DevRef τ sig) = V (main_arg3 : DevRef τ sig) :=
  Cert.LibAfter.after_of_not_written writes (by decide) V
theorem arg4_kept (V : Valuation τ sig (Elt F)) :
    after (opsA ++ opsB ++ opsC) V (main_arg4 : DevRef τ sig) = V (main_arg4 : DevRef τ sig) :=
  Cert.LibAfter.after_of_not_written writes (by decide) V
theorem arg5_kept (V : Valuation τ sig (Elt F)) :
    after (opsA ++ opsB ++ opsC) V (main_arg5 : DevRef τ sig) = V (main_arg5 : DevRef τ sig) :=
  Cert.LibAfter.after_of_not_written writes (by decide) V
theorem arg6_kept (V : Valuation τ sig (Elt F)) :
    after (opsA ++ opsB ++ opsC) V (main_arg6 : DevRef τ sig) = V (main_arg6 : DevRef τ sig) :=
  Cert.LibAfter.after_of_not_written writes (by decide) V
theorem arg7_kept (V : Valuation τ sig (Elt F)) :
    after (opsA ++ opsB ++ opsC) V (main_arg7 : DevRef τ sig) = V (main_arg7 : DevRef τ sig) :=
  Cert.LibAfter.after_of_not_written writes (by decide) V
theorem arg8_kept (V : Valuation τ sig (Elt F)) :
    after (opsA ++ opsB ++ opsC) V (main_arg8 : DevRef τ sig) = V (main_arg8 : DevRef τ sig) :=
  Cert.LibAfter.after_of_not_written writes (by decide) V
theorem arg9_kept (V : Valuation τ sig (Elt F)) :
    after (opsA ++ opsB ++ opsC) V (main_arg9 : DevRef τ sig) = V (main_arg9 : DevRef τ sig) :=
  Cert.LibAfter.after_of_not_written writes (by decide) V
theorem arg10_kept (V : Valuation τ sig (Elt F)) :
    after (opsA ++ opsB ++ opsC) V (main_arg10 : DevRef τ sig) = V (main_arg10 : DevRef τ sig) :=
  Cert.LibAfter.after_of_not_written writes (by decide) V
theorem arg11_kept (V : Valuation τ sig (Elt F)) :
    after (opsA ++ opsB ++ opsC) V (main_arg11 : DevRef τ sig) = V (main_arg11 : DevRef τ sig) :=
  Cert.LibAfter.after_of_not_written writes (by decide) V
theorem arg12_kept (V : Valuation τ sig (Elt F)) :
    after (opsA ++ opsB ++ opsC) V (main_arg12 : DevRef τ sig) = V (main_arg12 : DevRef τ sig) :=
  Cert.LibAfter.after_of_not_written writes (by decide) V
theorem arg13_kept (V : Valuation τ sig (Elt F)) :
    after (opsA ++ opsB ++ opsC) V (main_arg13 : DevRef τ sig) = V (main_arg13 : DevRef τ sig) :=
  Cert.LibAfter.after_of_not_written writes (by decide) V
theorem arg14_kept (V : Valuation τ sig (Elt F)) :
    after (opsA ++ opsB ++ opsC) V (main_arg14 : DevRef τ sig) = V (main_arg14 : DevRef τ sig) :=
  Cert.LibAfter.after_of_not_written writes (by decide) V

/-- Every weakly fair execution of `@main` terminates with the fifteen arguments' buffers unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_arg0).trans (arg0_kept _),
      (h c main_arg1).trans (arg1_kept _),
      (h c main_arg2).trans (arg2_kept _),
      (h c main_arg3).trans (arg3_kept _),
      (h c main_arg4).trans (arg4_kept _),
      (h c main_arg5).trans (arg5_kept _),
      (h c main_arg6).trans (arg6_kept _),
      (h c main_arg7).trans (arg7_kept _),
      (h c main_arg8).trans (arg8_kept _),
      (h c main_arg9).trans (arg9_kept _),
      (h c main_arg10).trans (arg10_kept _),
      (h c main_arg11).trans (arg11_kept _),
      (h c main_arg12).trans (arg12_kept _),
      (h c main_arg13).trans (arg13_kept _),
      (h c main_arg14).trans (arg14_kept _)⟩)
    (run m ρ)

end Cert.ReferenceIdeal.Hand

end
-- ==== Proof.Vals.lean ====
/-
  Names for the two programs' buffer contents at the ideal instance, and for the stretches of host operations between
  the kernel program's regions (and the reference's segments that compute the same values).
-/
import proofs.«150106_j66537633350122_2_alg».proof.Proof.Gen.KernelIdeal.Launch
import proofs.«150106_j66537633350122_2_alg».proof.Proof.RefOps
import Idealize.ShloMosaic.Lib.StableHlo.Run
import Idealize.ShloMosaic.PureOps.Ideal

noncomputable section

namespace Cert.Bridge

open Idealize.ShloMosaic Idealize.ShloMosaic.StableHlo

/-- The contents of the kernel program's buffers, and of the reference's, on one core. -/
abbrev KV := Valuation Cert.KernelIdeal.τ Cert.KernelIdeal.sig (Elt Ideal)
abbrev RV := Valuation Cert.ReferenceIdeal.τ Cert.ReferenceIdeal.sig (Elt Ideal)
/-- A buffer of the kernel program, of the reference, as the valuations index it. -/
abbrev kd (b : Ref Cert.KernelIdeal.sig .tc) : DevRef Cert.KernelIdeal.τ Cert.KernelIdeal.sig := Proc.devRef .tc b
abbrev rd (b : Ref Cert.ReferenceIdeal.sig .tc) : DevRef Cert.ReferenceIdeal.τ Cert.ReferenceIdeal.sig := Proc.devRef .tc b

/-- The kernel program's host operations before its first region, between its first and second, and between its
    second and third: each the fold of the generated stretches in order. -/
abbrev stA (U : KV) : KV :=
  after Cert.KernelIdeal.Gen.hostOps0_2 (after Cert.KernelIdeal.Gen.hostOps0_1 (after Cert.KernelIdeal.Gen.hostOps0 U))
abbrev stB (U : KV) : KV :=
  after Cert.KernelIdeal.Gen.hostOps1_4 (after Cert.KernelIdeal.Gen.hostOps1_3 (after Cert.KernelIdeal.Gen.hostOps1_2
    (after Cert.KernelIdeal.Gen.hostOps1_1 (after Cert.KernelIdeal.Gen.hostOps1 U))))
abbrev stC (U : KV) : KV :=
  after Cert.KernelIdeal.Gen.hostOps2_2 (after Cert.KernelIdeal.Gen.hostOps2_1 (after Cert.KernelIdeal.Gen.hostOps2 U))

/-- The reference's segments that compute the same values: before its first matrix product, between the first and the
    second, and from the second up to the decoder. -/
abbrev rtA (X : RV) : RV :=
  after Cert.ReferenceIdeal.Hand.r2 (after Cert.ReferenceIdeal.Hand.r1 (after Cert.ReferenceIdeal.Hand.r0 X))
abbrev rtB (X : RV) : RV :=
  after Cert.ReferenceIdeal.Hand.r8 (after Cert.ReferenceIdeal.Hand.r7 (after Cert.ReferenceIdeal.Hand.r6
    (after Cert.ReferenceIdeal.Hand.r5 (after Cert.ReferenceIdeal.Hand.r4 X))))
abbrev rtC (X : RV) : RV :=
  after Cert.ReferenceIdeal.Hand.r12 (after Cert.ReferenceIdeal.Hand.r11 (after Cert.ReferenceIdeal.Hand.r10 X))

/-- The reference's contents after each of its segments, from launch contents `X`. -/
abbrev X1 (X : RV) : RV := after Cert.ReferenceIdeal.Hand.r0 X
abbrev X2 (X : RV) : RV := after Cert.ReferenceIdeal.Hand.r1 (X1 X)
abbrev X3 (X : RV) : RV := after Cert.ReferenceIdeal.Hand.r2 (X2 X)
abbrev X4 (X : RV) : RV := after Cert.ReferenceIdeal.Hand.r3 (X3 X)
abbrev X5 (X : RV) : RV := after Cert.ReferenceIdeal.Hand.r4 (X4 X)
abbrev X6 (X : RV) : RV := after Cert.ReferenceIdeal.Hand.r5 (X5 X)
abbrev X7 (X : RV) : RV := after Cert.ReferenceIdeal.Hand.r6 (X6 X)
abbrev X8 (X : RV) : RV := after Cert.ReferenceIdeal.Hand.r7 (X7 X)
abbrev X9 (X : RV) : RV := after Cert.ReferenceIdeal.Hand.r8 (X8 X)
abbrev X10 (X : RV) : RV := after Cert.ReferenceIdeal.Hand.r9 (X9 X)
abbrev X11 (X : RV) : RV := after Cert.ReferenceIdeal.Hand.r10 (X10 X)
abbrev X12 (X : RV) : RV := after Cert.ReferenceIdeal.Hand.r11 (X11 X)
abbrev X13 (X : RV) : RV := after Cert.ReferenceIdeal.Hand.r12 (X12 X)
abbrev X14 (X : RV) : RV := after Cert.ReferenceIdeal.Hand.r13 (X13 X)
abbrev X15 (X : RV) : RV := after Cert.ReferenceIdeal.Hand.r14 (X14 X)

end Cert.Bridge

end
-- ==== Proof.LibRsqrtSelect.lean ====
/-
  The reciprocal square root against one over the square root, under a selection by sign, on the extended reals.

  For a positive extended real d the reciprocal of the square root, rsqrt d, and the quotient 1 / sqrt d are one number:
  (√r)⁻¹ for a positive real r, and 0 at +∞ (rsqrt ⊤ = 0, and 1 · ⊤⁻¹ = 0). They differ only below 0 and at −∞. So an
  array that takes rsqrt d where d > 0 and some other value elsewhere equals the array that takes 1 / sqrt d where
  d > 0 and that other value elsewhere, at every extended real and with no finiteness assumed — the form in which a
  reciprocal root degree is taken only where the degree is positive.
-/
import Idealize.ShloMosaic.PureOps.Ideal
import Idealize.ShloMosaic.Lib.ValueIdx

noncomputable section

namespace Cert.Lib.RsqrtSelect

open Idealize.ShloMosaic Idealize.ShloMosaic.ValueIdx

/-- For a positive extended real, the reciprocal square root is 1 over the square root. -/
theorem rsqrt_eq_one_div_sqrt (x : EReal) (hx : 0 < x) : Ideal.rsqrt x = Ideal.div 1 (Ideal.sqrt x) := by
  induction x using EReal.rec with
  | bot => exact absurd hx (not_lt.mpr bot_le)
  | top =>
    show (0 : EReal) = Ideal.div 1 ⊤
    unfold Ideal.div
    rw [if_neg (by simp)]
    simp
  | coe r =>
    have hr : 0 < r := by exact_mod_cast hx
    have hs : 0 < Real.sqrt r := Real.sqrt_pos.mpr hr
    show (if r < 0 then (⊥ : EReal) else if r = 0 then ⊤ else (((Real.sqrt r)⁻¹ : ℝ) : EReal))
        = Ideal.div 1 (if r < 0 then (⊥ : EReal) else ((Real.sqrt r : ℝ) : EReal))
    rw [if_neg (not_lt.mpr hr.le), if_neg hr.ne', if_neg (not_lt.mpr hr.le)]
    unfold Ideal.div
    rw [if_neg (by exact_mod_cast hs.ne'), one_mul, ← EReal.coe_inv]

/-- The selection by the sign of the degree takes the same value from rsqrt d as from 1 / sqrt d, at every index: where the
    comparison d > 0 holds the two agree, and elsewhere neither is taken. -/
theorem select_rsqrt_eq {s : Shape} (d zero one zz : FVec Ideal s .f32)
    (hzero : ∀ i, zero i = 0) (hone : ∀ i, one i = 1) :
    select (cmpf .ogt d zero) (Host.rsqrt d) zz = select (cmpf .ogt d zero) (Host.divf one (Host.sqrt d)) zz := by
  funext i
  show Scalar.select (Ideal.cmp .ogt (d i) (zero i)) (Ideal.rsqrt (d i)) (zz i)
      = Scalar.select (Ideal.cmp .ogt (d i) (zero i)) (Ideal.div (one i) (Ideal.sqrt (d i))) (zz i)
  rw [hzero i, hone i]
  by_cases h : (0 : EReal) < d i
  · rw [rsqrt_eq_one_div_sqrt _ h]
  · have hc : Ideal.cmp .ogt (d i) 0 = 0#1 := by
      unfold Ideal.cmp
      simp [h]
    rw [hc, select_zero, select_zero]

end Cert.Lib.RsqrtSelect

end
-- ==== Proof.LibERealSums.lean ====
/-
  Finite sums over the extended reals: real-valued terms, and sums read block by block.

  Four general facts, none about a particular program.

  1. The inclusion of the reals in the extended reals commutes with finite sums.
  2. "Is a real number" (the value is the image of some real) is closed under +, *, finite sums, the logistic
     function, the cosine and the quotient by a nonzero real. These closure facts are what lets a law of the real field
     (distributivity) be used on extended reals, where it fails at the infinities.
  3. A sum over N = m * n consecutive indices is the sum over m blocks of the sums over the n indices of each block;
     this holds in every additive commutative monoid, the extended reals included, with no finiteness assumption.
  4. Moving a scalar out of a product with a matrix column: for reals s, v d, W d, b,
       sum_d (s + v d) * W d + b = sum_d v d * W d + (b + s * sum_d W d),
     stated on the images in the extended reals.
-/
import Idealize.ShloMosaic.PureOps.Ideal
import Mathlib.Data.EReal.Inv
import Mathlib.Logic.Equiv.Fin.Basic
import Mathlib.Algebra.BigOperators.Fin

noncomputable section

namespace Cert.Lib.ERealSums

open Idealize.ShloMosaic

/-! ## The coercion of a finite sum -/

/-- The image in the extended reals of a finite sum of reals is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_sum {ι : Type*} [Fintype ι] (f : ι → ℝ) : ((∑ i, f i : ℝ) : EReal) = ∑ i, (f i : EReal) :=
  coe_finset_sum Finset.univ f

/-! ## Real-valued extended reals -/

/-- An extended real that is (the image of) a real number. -/
def IsReal (x : EReal) : Prop := ∃ y : ℝ, x = (y : EReal)

theorem isReal_coe (y : ℝ) : IsReal (y : EReal) := ⟨y, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

/-- A finite sum of real-valued terms is real-valued. -/
theorem isReal_finset_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The same over a whole finite type. -/
theorem isReal_sum {ι : Type*} [Fintype ι] (f : ι → EReal) (h : ∀ i, IsReal (f i)) : IsReal (∑ i, f i) :=
  isReal_finset_sum Finset.univ f fun i _ => h i

/-- The logistic function of a real is a real. -/
theorem IsReal.logistic {x : EReal} (hx : IsReal x) : IsReal (Ideal.logistic x) := by
  obtain ⟨a, rfl⟩ := hx
  exact ⟨_, Ideal.logistic_coe a⟩

/-- The cosine of a real is a real. -/
theorem IsReal.cos {x : EReal} (hx : IsReal x) : IsReal (Ideal.cos x) := by
  obtain ⟨a, rfl⟩ := hx
  exact ⟨_, Ideal.cos_coe a⟩

/-- The quotient of a real by a nonzero real is a real. -/
theorem IsReal.div_coe {x : EReal} (hx : IsReal x) {y : ℝ} (hy : y ≠ 0) : IsReal (Ideal.div x (y : EReal)) := by
  rw [Ideal.div_coe hy]
  exact hx.mul (isReal_coe _)

/-! ## A sum read block by block -/

/-- A sum over `N = m * n` indices is the sum over `m` blocks of the sum over the `n` indices of a block, when
    `g t p` is index `t * n + p`. Holds in any additive commutative monoid. -/
theorem sum_blocks {M : Type*} [AddCommMonoid M] {N : ℕ} (m n : ℕ) (h : m * n = N) (f : Fin N → M)
    (g : Fin m → Fin n → Fin N) (hg : ∀ t p, (g t p).val = t.val * n + p.val) :
    ∑ e : Fin N, f e = ∑ t : Fin m, ∑ p : Fin n, f (g t p) := by
  subst h
  rw [← Equiv.sum_comp finProdFinEquiv f, Fintype.sum_prod_type]
  refine Finset.sum_congr rfl fun t _ => Finset.sum_congr rfl fun p _ => congrArg f (Fin.ext ?_)
  rw [hg t p]
  show p.val + n * t.val = t.val * n + p.val
  rw [Nat.mul_comm, Nat.add_comm]

/-- The blocked sum with the two inner sums exchanged: a family `f e d` summed over all `e` and a lane `d` is the
    sum over blocks and lanes of the per-block partial sums. -/
theorem sum_blocks_comm {M : Type*} [AddCommMonoid M] {N L : ℕ} (m n : ℕ) (h : m * n = N) (f : Fin N → Fin L → M)
    (g : Fin m → Fin n → Fin N) (hg : ∀ t p, (g t p).val = t.val * n + p.val) :
    ∑ t : Fin m, ∑ d : Fin L, ∑ p : Fin n, f (g t p) d = ∑ e : Fin N, ∑ d : Fin L, f e d := by
  rw [sum_blocks m n h (fun e => ∑ d : Fin L, f e d) g hg]
  exact Finset.sum_congr rfl fun t _ => Finset.sum_comm

/-! ## A scalar moved from the row into the bias -/

/-- For reals: adding `s` to every entry of a row before the product with a matrix column is adding `s` times
    the column's sum to the bias. False at the infinities of the extended reals, hence stated for images of reals. -/
theorem sum_add_mul_coe {ι : Type*} [Fintype ι] (s : ℝ) (v W : ι → ℝ) (b : ℝ) :
    (∑ d, ((s : EReal) + (v d : EReal)) * (W d : EReal)) + (b : EReal)
      = (∑ d, (v d : EReal) * (W d : EReal)) + ((b : EReal) + (s : EReal) * ∑ d, (W d : EReal)) := by
  have hL : (∑ d, ((s : EReal) + (v d : EReal)) * (W d : EReal)) = ((∑ d, (s + v d) * W d : ℝ) : EReal) := by
    rw [coe_sum]
    exact Finset.sum_congr rfl fun d _ => by rw [EReal.coe_mul, EReal.coe_add]
  have hR : (∑ d, (v d : EReal) * (W d : EReal)) = ((∑ d, v d * W d : ℝ) : EReal) := by
    rw [coe_sum]
    exact Finset.sum_congr rfl fun d _ => by rw [EReal.coe_mul]
  rw [hL, hR, ← coe_sum, ← EReal.coe_mul, ← EReal.coe_add, ← EReal.coe_add, ← EReal.coe_add]
  congr 1
  simp only [add_mul, Finset.sum_add_distrib, ← Finset.mul_sum]
  ring

end Cert.Lib.ERealSums

end
-- ==== Proof.LibRealNorm.lean ====
/-
  Real-valued maxima and degree norms on the extended reals.

  The binary32 word 0x3F800000 is the number one. The larger of two real numbers is a real number. For a real number d
  the quantity max d 1 is at least one, hence positive, so its reciprocal square root is a real number: the norm
  1 / sqrt (max deg 1) of a degree count is never an infinity.
-/
import proofs.«150106_j66537633350122_2_alg».proof.Proof.LibERealSums
import Idealize.ShloMosaic.PureOps.Ideal

noncomputable section

namespace Cert.Lib.ERealSums

open Idealize.ShloMosaic

/-- The word 0x3F800000 read as a binary32 number is the real number one. -/
theorem ofBits_one_f32 : Ideal.ofBits .f32 0x3F800000#32 = 1 := by
  simp [Ideal.ofBits, Ideal.ieee, -EReal.coe_mul]; norm_num

/-- The larger of two real numbers is a real number. -/
theorem IsReal.max {x y : EReal} (hx : IsReal x) (hy : IsReal y) : IsReal (max x y) := by
  rcases le_total x y with h | h
  · rw [max_eq_right h]; exact hy
  · rw [max_eq_left h]; exact hx

/-- For a real number d, the reciprocal square root of max d 1 is a real number: max d 1 ≥ 1 > 0. -/
theorem isReal_rsqrt_max_one {x : EReal} (hx : IsReal x) : IsReal (Ideal.rsqrt (max x 1)) := by
  obtain ⟨a, rfl⟩ := hx
  have h : max (a : EReal) 1 = ((max a 1 : ℝ) : EReal) := by
    rw [← EReal.coe_one]
    exact (EReal.coe_strictMono.monotone.map_max).symm
  have hpos : (0 : ℝ) < max a 1 := lt_of_lt_of_le one_pos (le_max_right a 1)
  rw [h, Ideal.rsqrt_coe, if_neg (not_lt.mpr hpos.le), if_neg (ne_of_gt hpos)]
  exact isReal_coe _

end Cert.Lib.ERealSums

end
-- ==== Proof.SimA.lean ====
/-
  The first stage, before the first linear map: from equal arguments the two programs compute the same gathered
  embedding rows, the same rows and columns of the first edge list, the same weighted in-degrees and — by the law that
  the reciprocal square root of a positive number is one over its square root — the same selected reciprocal roots,
  hence the same normalised edge weights. The kernel program's bf16 copies of the embedding rows and of the first
  weight matrix are, at the ideal instance, those arrays themselves.
-/
import proofs.«150106_j66537633350122_2_alg».proof.Proof.Vals
import proofs.«150106_j66537633350122_2_alg».proof.Proof.LibRsqrtSelect
import proofs.«150106_j66537633350122_2_alg».proof.Proof.LibRealNorm
import Idealize.ShloMosaic.Lib.StableHlo.Run
import Idealize.ShloMosaic.PureOps.Ideal
import Idealize.ShloMosaic.PureOps.Ideal.Laws

set_option maxRecDepth 65536

noncomputable section

namespace Cert.Bridge

open Idealize.ShloMosaic Idealize.ShloMosaic.StableHlo

/-! ## Before the selection -/

theorem s0_v6 (U : KV) (X : RV)
    (h0 : U (kd Cert.KernelIdeal.main_arg0) = X (rd Cert.ReferenceIdeal.main_arg0)) (h4 : U (kd Cert.KernelIdeal.main_arg4) = X (rd Cert.ReferenceIdeal.main_arg4)) :
    after (Cert.KernelIdeal.Gen.hostOps0 (F := Ideal)) U (kd Cert.KernelIdeal.main_v6) = after (Cert.ReferenceIdeal.Hand.r0 (F := Ideal)) X (rd Cert.ReferenceIdeal.main_v6) := by
  after_results_simp
  rw [h0, h4]
  rfl

theorem s0_v8 (U : KV) (X : RV) (h1 : U (kd Cert.KernelIdeal.main_arg1) = X (rd Cert.ReferenceIdeal.main_arg1)) :
    after (Cert.KernelIdeal.Gen.hostOps0 (F := Ideal)) U (kd Cert.KernelIdeal.main_v8) = after (Cert.ReferenceIdeal.Hand.r0 (F := Ideal)) X (rd Cert.ReferenceIdeal.main_v8) := by
  after_results_simp
  rw [h1]
  rfl

theorem s0_v10 (U : KV) (X : RV) (h1 : U (kd Cert.KernelIdeal.main_arg1) = X (rd Cert.ReferenceIdeal.main_arg1)) :
    after (Cert.KernelIdeal.Gen.hostOps0 (F := Ideal)) U (kd Cert.KernelIdeal.main_v10) = after (Cert.ReferenceIdeal.Hand.r0 (F := Ideal)) X (rd Cert.ReferenceIdeal.main_v10) := by
  after_results_simp
  rw [h1]
  rfl

/-- The weighted in-degree of every node. -/
theorem s0_v13 (U : KV) (X : RV)
    (h1 : U (kd Cert.KernelIdeal.main_arg1) = X (rd Cert.ReferenceIdeal.main_arg1)) (h3 : U (kd Cert.KernelIdeal.main_arg3) = X (rd Cert.ReferenceIdeal.main_arg3)) :
    after (Cert.KernelIdeal.Gen.hostOps0 (F := Ideal)) U (kd Cert.KernelIdeal.main_v13) = after (Cert.ReferenceIdeal.Hand.r0 (F := Ideal)) X (rd Cert.ReferenceIdeal.main_v13) := by
  after_results_simp
  rw [h1, h3]
  rfl

/-! ## The selection by the sign of the degree -/

/-- In the kernel program the comparison, the reciprocal root and the zero that the selection reads are these functions
    of the degree. -/
theorem k0_v15 (U : KV) : after (Cert.KernelIdeal.Gen.hostOps0 (F := Ideal)) U (kd Cert.KernelIdeal.main_v15)
    = cmpf .ogt (after (Cert.KernelIdeal.Gen.hostOps0 (F := Ideal)) U (kd Cert.KernelIdeal.main_v13))
        (broadcastInDim Cert.KernelIdeal.S50000 ![] Cert.KernelIdeal.Facts₀.bcast_S_S50000 (constant (F := Ideal) Cert.KernelIdeal.S_ .f32 0x00000000#32)) := by
  after_results_simp
theorem k0_v16 (U : KV) : after (Cert.KernelIdeal.Gen.hostOps0 (F := Ideal)) U (kd Cert.KernelIdeal.main_v16)
    = (Host.rsqrt (after (Cert.KernelIdeal.Gen.hostOps0 (F := Ideal)) U (kd Cert.KernelIdeal.main_v13) : FVec Ideal Cert.KernelIdeal.S50000 .f32) : FVec Ideal Cert.KernelIdeal.S50000 .f32) := by
  after_results_simp
theorem k0_cst2 (U : KV) : after (Cert.KernelIdeal.Gen.hostOps0 (F := Ideal)) U (kd Cert.KernelIdeal.main_cst_2)
    = constant (F := Ideal) Cert.KernelIdeal.S_ .f32 0x00000000#32 := by
  after_results_simp
theorem k1_v17 (W : KV) : after (Cert.KernelIdeal.Gen.hostOps0_1 (F := Ideal)) W (kd Cert.KernelIdeal.main_v17)
    = select (W (kd Cert.KernelIdeal.main_v15)) (W (kd Cert.KernelIdeal.main_v16))
        (broadcastInDim Cert.KernelIdeal.S50000 ![] Cert.KernelIdeal.Facts₀.bcast_S_S50000 (id (W (kd Cert.KernelIdeal.main_cst_2)))) := by
  after_results_simp
  rfl

/-- In the reference they are: the same comparison, one over the square root, the zero. -/
theorem x0_v15 (X : RV) : after (Cert.ReferenceIdeal.Hand.r0 (F := Ideal)) X (rd Cert.ReferenceIdeal.main_v15)
    = cmpf .ogt (after (Cert.ReferenceIdeal.Hand.r0 (F := Ideal)) X (rd Cert.ReferenceIdeal.main_v13))
        (broadcastInDim Cert.ReferenceIdeal.S50000 ![] Cert.ReferenceIdeal.Facts₀.bcast_S_S50000 (constant (F := Ideal) Cert.ReferenceIdeal.S_ .f32 0x00000000#32)) := by
  after_results_simp
theorem x0_v18 (X : RV) : after (Cert.ReferenceIdeal.Hand.r0 (F := Ideal)) X (rd Cert.ReferenceIdeal.main_v18)
    = Host.divf (broadcastInDim Cert.ReferenceIdeal.S50000 ![] Cert.ReferenceIdeal.Facts₀.bcast_S_S50000 (constant (F := Ideal) Cert.ReferenceIdeal.S_ .f32 0x3F800000#32))
        (Host.sqrt (after (Cert.ReferenceIdeal.Hand.r0 (F := Ideal)) X (rd Cert.ReferenceIdeal.main_v13))) := by
  after_results_simp
theorem x0_cst3 (X : RV) : after (Cert.ReferenceIdeal.Hand.r0 (F := Ideal)) X (rd Cert.ReferenceIdeal.main_cst_3)
    = constant (F := Ideal) Cert.ReferenceIdeal.S_ .f32 0x00000000#32 := by
  after_results_simp
theorem x1_v19 (Y : RV) : after (Cert.ReferenceIdeal.Hand.r1 (F := Ideal)) Y (rd Cert.ReferenceIdeal.main_v19)
    = select (Y (rd Cert.ReferenceIdeal.main_v15)) (Y (rd Cert.ReferenceIdeal.main_v18))
        (broadcastInDim Cert.ReferenceIdeal.S50000 ![] Cert.ReferenceIdeal.Facts₀.bcast_S_S50000 (id (Y (rd Cert.ReferenceIdeal.main_cst_3)))) := by
  after_results_simp
  rfl

/-- The selected reciprocal root degrees agree. -/
theorem s1_v17 (U : KV) (X : RV)
    (h1 : U (kd Cert.KernelIdeal.main_arg1) = X (rd Cert.ReferenceIdeal.main_arg1)) (h3 : U (kd Cert.KernelIdeal.main_arg3) = X (rd Cert.ReferenceIdeal.main_arg3)) :
    after (Cert.KernelIdeal.Gen.hostOps0_1 (F := Ideal)) (after Cert.KernelIdeal.Gen.hostOps0 U) (kd Cert.KernelIdeal.main_v17)
      = after (Cert.ReferenceIdeal.Hand.r1 (F := Ideal)) (after Cert.ReferenceIdeal.Hand.r0 X) (rd Cert.ReferenceIdeal.main_v19) := by
  rw [k1_v17, k0_v15, k0_v16, k0_cst2, x1_v19, x0_v15, x0_v18, x0_cst3, s0_v13 U X h1 h3]
  exact (Cert.Lib.RsqrtSelect.select_rsqrt_eq (after (Cert.ReferenceIdeal.Hand.r0 (F := Ideal)) X (rd Cert.ReferenceIdeal.main_v13)) _
    (broadcastInDim Cert.ReferenceIdeal.S50000 ![] Cert.ReferenceIdeal.Facts₀.bcast_S_S50000 (constant (F := Ideal) Cert.ReferenceIdeal.S_ .f32 0x3F800000#32)) _
    (fun _ => Ideal.ofBits_zero_f32) (fun _ => Cert.Lib.ERealSums.ofBits_one_f32)).trans rfl

/-! ## After the selection -/

/-- The normalised edge weights: the selected value at the edge's row, times the weight, times the selected value at
    its column. -/
theorem s2_v33 (U : KV) (X : RV)
    (h8 : U (kd Cert.KernelIdeal.main_v8) = X (rd Cert.ReferenceIdeal.main_v8)) (h10 : U (kd Cert.KernelIdeal.main_v10) = X (rd Cert.ReferenceIdeal.main_v10))
    (h17 : U (kd Cert.KernelIdeal.main_v17) = X (rd Cert.ReferenceIdeal.main_v19)) (h3 : U (kd Cert.KernelIdeal.main_arg3) = X (rd Cert.ReferenceIdeal.main_arg3)) :
    after (Cert.KernelIdeal.Gen.hostOps0_2 (F := Ideal)) U (kd Cert.KernelIdeal.main_v33) = after (Cert.ReferenceIdeal.Hand.r2 (F := Ideal)) X (rd Cert.ReferenceIdeal.main_v35) := by
  after_results_simp
  rw [h8, h10, h17, h3]
  rfl

/-- The kernel program's bf16 copy of the gathered embedding rows is those rows. -/
theorem s2_v34 (U : KV) (X : RV) (h6 : U (kd Cert.KernelIdeal.main_v6) = X (rd Cert.ReferenceIdeal.main_v6)) :
    after (Cert.KernelIdeal.Gen.hostOps0_2 (F := Ideal)) U (kd Cert.KernelIdeal.main_v34) = after (Cert.ReferenceIdeal.Hand.r2 (F := Ideal)) X (rd Cert.ReferenceIdeal.main_v6) := by
  after_results_simp
  rw [h6]
  rfl

/-- Its bf16 copy of the first weight matrix is that matrix. -/
theorem s2_v35 (U : KV) (X : RV) (h5 : U (kd Cert.KernelIdeal.main_arg5) = X (rd Cert.ReferenceIdeal.main_arg5)) :
    after (Cert.KernelIdeal.Gen.hostOps0_2 (F := Ideal)) U (kd Cert.KernelIdeal.main_v35) = after (Cert.ReferenceIdeal.Hand.r2 (F := Ideal)) X (rd Cert.ReferenceIdeal.main_arg5) := by
  after_results_simp
  rw [h5]
  rfl

end Cert.Bridge

end
-- ==== Proof.SimB.lean ====
/-
  Stage equalities between the two programs' host operations, from the first matrix product to the second, at the
  ideal instance: a stretch of the kernel program's host operations and the reference's segment that computes the
  same values leave equal contents in matching buffers, when the buffers they read hold equal contents on entry.
  Each is by unrolling both folds down to the reads of the entry contents, rewriting the reads by the hypotheses, and
  comparing the two terms: they are the same operations over the same literal shapes, and where the kernel program
  narrows to bf16 or widens back, that change of format is the identity on extended reals.
-/
import proofs.«150106_j66537633350122_2_alg».proof.Proof.Vals
import Idealize.ShloMosaic.Lib.StableHlo.Run
import Idealize.ShloMosaic.PureOps.Ideal

set_option maxRecDepth 65536

noncomputable section

namespace Cert.Bridge

open Idealize.ShloMosaic Idealize.ShloMosaic.StableHlo

/-- The first layer's aggregation: the projected rows gathered along the first edge list's first row, scaled by the normalised edge weights, summed into the nodes of its second row, plus the bias. -/
theorem s3_v53 (U : KV) (X : RV) (h8 : U (kd Cert.KernelIdeal.main_v8) = X (rd Cert.ReferenceIdeal.main_v8)) (h10 : U (kd Cert.KernelIdeal.main_v10) = X (rd Cert.ReferenceIdeal.main_v10)) (h36 : U (kd Cert.KernelIdeal.main_v36) = X (rd Cert.ReferenceIdeal.main_v36)) (h33 : U (kd Cert.KernelIdeal.main_v33) = X (rd Cert.ReferenceIdeal.main_v35)) (h6 : U (kd Cert.KernelIdeal.main_arg6) = X (rd Cert.ReferenceIdeal.main_arg6)) :
    after (Cert.KernelIdeal.Gen.hostOps1 (F := Ideal)) U (kd Cert.KernelIdeal.main_v53) = after (Cert.ReferenceIdeal.Hand.r4 (F := Ideal)) X (rd Cert.ReferenceIdeal.main_v52) := by
  after_results_simp
  rw [h8, h10, h36, h33, h6]
  rfl

/-- The first `elu`: the same selection of `x` and `exp x - 1` by the sign of `x`, from equal arguments. -/
theorem s4_v54 (U : KV) (X : RV) (h : U (kd Cert.KernelIdeal.main_v53) = X (rd Cert.ReferenceIdeal.main_v52)) :
    after (Cert.KernelIdeal.Gen.hostOps1_1 (F := Ideal)) U (kd Cert.KernelIdeal.main_v54) = after (Cert.ReferenceIdeal.Hand.r5 (F := Ideal)) X (rd Cert.ReferenceIdeal.main_v53) := by
  after_results_simp
  rw [h]

/-- The second edge list's first row. -/
theorem s5_v57 (U : KV) (X : RV) (h2 : U (kd Cert.KernelIdeal.main_arg2) = X (rd Cert.ReferenceIdeal.main_arg2)) :
    after (Cert.KernelIdeal.Gen.hostOps1_2 (F := Ideal)) U (kd Cert.KernelIdeal.main_v57) = after (Cert.ReferenceIdeal.Hand.r6 (F := Ideal)) X (rd Cert.ReferenceIdeal.main_v56) := by
  after_results_simp
  rw [h2]
  rfl

/-- The second edge list's second row. -/
theorem s5_v59 (U : KV) (X : RV) (h2 : U (kd Cert.KernelIdeal.main_arg2) = X (rd Cert.ReferenceIdeal.main_arg2)) :
    after (Cert.KernelIdeal.Gen.hostOps1_2 (F := Ideal)) U (kd Cert.KernelIdeal.main_v59) = after (Cert.ReferenceIdeal.Hand.r6 (F := Ideal)) X (rd Cert.ReferenceIdeal.main_v58) := by
  after_results_simp
  rw [h2]
  rfl

/-- The unit edge weights of the second edge list. -/
theorem s5_v55 (U : KV) (X : RV) :
    after (Cert.KernelIdeal.Gen.hostOps1_2 (F := Ideal)) U (kd Cert.KernelIdeal.main_v55) = after (Cert.ReferenceIdeal.Hand.r6 (F := Ideal)) X (rd Cert.ReferenceIdeal.main_v54) := by
  after_results_simp

/-- The second edge list's in-degrees: the unit weights summed into the nodes of its second row. -/
theorem s5_v62 (U : KV) (X : RV) (h2 : U (kd Cert.KernelIdeal.main_arg2) = X (rd Cert.ReferenceIdeal.main_arg2)) :
    after (Cert.KernelIdeal.Gen.hostOps1_2 (F := Ideal)) U (kd Cert.KernelIdeal.main_v62) = after (Cert.ReferenceIdeal.Hand.r6 (F := Ideal)) X (rd Cert.ReferenceIdeal.main_v61) := by
  after_results_simp
  rw [h2]
  rfl

/-- The second edge list's normalised weights: the unit weight times the normalising factor at each end of the edge. -/
theorem s7_v82 (U : KV) (X : RV) (h57 : U (kd Cert.KernelIdeal.main_v57) = X (rd Cert.ReferenceIdeal.main_v56)) (h59 : U (kd Cert.KernelIdeal.main_v59) = X (rd Cert.ReferenceIdeal.main_v58)) (h66 : U (kd Cert.KernelIdeal.main_v66) = X (rd Cert.ReferenceIdeal.main_v67)) (h55 : U (kd Cert.KernelIdeal.main_v55) = X (rd Cert.ReferenceIdeal.main_v54)) :
    after (Cert.KernelIdeal.Gen.hostOps1_4 (F := Ideal)) U (kd Cert.KernelIdeal.main_v82) = after (Cert.ReferenceIdeal.Hand.r8 (F := Ideal)) X (rd Cert.ReferenceIdeal.main_v83) := by
  after_results_simp
  rw [h57, h59, h66, h55]
  rfl

/-- The kernel program's narrowed copy of the first layer's features is the features themselves, which the reference's segment does not write. -/
theorem s7_v83 (U : KV) (X : RV) (h54 : U (kd Cert.KernelIdeal.main_v54) = X (rd Cert.ReferenceIdeal.main_v53)) :
    after (Cert.KernelIdeal.Gen.hostOps1_4 (F := Ideal)) U (kd Cert.KernelIdeal.main_v83) = after (Cert.ReferenceIdeal.Hand.r8 (F := Ideal)) X (rd Cert.ReferenceIdeal.main_v53) := by
  after_results_simp
  rw [h54]
  rfl

/-- The kernel program's narrowed copy of the second layer's weights is the weights themselves, which the reference's segment does not write. -/
theorem s7_v84 (U : KV) (X : RV) (h7 : U (kd Cert.KernelIdeal.main_arg7) = X (rd Cert.ReferenceIdeal.main_arg7)) :
    after (Cert.KernelIdeal.Gen.hostOps1_4 (F := Ideal)) U (kd Cert.KernelIdeal.main_v84) = after (Cert.ReferenceIdeal.Hand.r8 (F := Ideal)) X (rd Cert.ReferenceIdeal.main_arg7) := by
  after_results_simp
  rw [h7]
  rfl

/-- The reference's first matrix product, read off its one-operation segment. -/
theorem x4_v36 (X : RV) :
    after (Cert.ReferenceIdeal.Hand.r3 (F := Ideal)) X (rd Cert.ReferenceIdeal.main_v36)
      = Host.dotGeneral (F := Ideal) (φ₁ := .f32) (φ₂ := .f32) Cert.ReferenceIdeal.dot_S50000x128_S128x256_S50000x256_1_0_0_1_n_n none
          (X (rd Cert.ReferenceIdeal.main_v6)) (X (rd Cert.ReferenceIdeal.main_arg5)) := by
  after_results_simp

/-- The reference's second matrix product, read off its one-operation segment. -/
theorem x10_v84 (X : RV) :
    after (Cert.ReferenceIdeal.Hand.r9 (F := Ideal)) X (rd Cert.ReferenceIdeal.main_v84)
      = Host.dotGeneral (F := Ideal) (φ₁ := .f32) (φ₂ := .f32) Cert.ReferenceIdeal.dot_S50000x256_S256x128_S50000x128_1_0_0_1_n_n none
          (X (rd Cert.ReferenceIdeal.main_v53)) (X (rd Cert.ReferenceIdeal.main_arg7)) := by
  after_results_simp

end Cert.Bridge

end
-- ==== Proof.Spec.lean ====
/-
  The two pure functions the bridge is stated with, on the extended reals.

  * `mat x w`: the product of an [a, K] matrix with a [K, b] matrix, entry (p, q) the sum over k of x (p, k) · w (k, q).
  * `decW`: the three-layer edge decoder row by row. For row e, with the two gathered halves xs, xd of the
    concatenated feature vector and the first weight matrix split accordingly into w1a, w1b:
      h1 j = max (Σ_l xs (e, l) · w1a (l, j) + Σ_l xd (e, l) · w1b (l, j) + b1 (0, j)) z
      h2 k = max (Σ_j h1 j · w2 (j, k) + b2 (0, k)) z
      out  = Σ_k h2 k · w3 (k, 0) + b3 (0, 0)
    where z is the value of the float word 0 (kept as the word: both programs carry the same word).
-/
import Idealize.ShloMosaic.PureOps.Ideal
import Idealize.ShloMosaic.Lib.ValueIdx

noncomputable section

namespace Cert.Spec

open Idealize.ShloMosaic Idealize.ShloMosaic.ValueIdx

/-- Entry (p, q) of the product of an [a, K] matrix with a [K, b] matrix. -/
def mat {a K b : Nat} (x : (⟨2, ![a, K]⟩ : Shape).Idx → EReal) (w : (⟨2, ![K, b]⟩ : Shape).Idx → EReal) :
    (⟨2, ![a, b]⟩ : Shape).Idx → EReal :=
  fun i => ∑ k : Fin K, x (ix2 (n0 := a) (i 0) k) * w (ix2 (n1 := b) k (i 1))

theorem mat_apply {a K b : Nat} (x : (⟨2, ![a, K]⟩ : Shape).Idx → EReal) (w : (⟨2, ![K, b]⟩ : Shape).Idx → EReal)
    (p : Fin a) (q : Fin b) : mat x w (ix2 p q) = ∑ k : Fin K, x (ix2 p k) * w (ix2 k q) := rfl

/-- The value of the float word 0, as both programs carry it. -/
abbrev z : EReal := Ideal.ofBits .f32 0x00000000#32

/-- The first hidden layer of the decoder at row e, unit j. -/
def hid1 {n : Nat} (xs xd : (⟨2, ![n, 128]⟩ : Shape).Idx → EReal) (w1a w1b : (⟨2, ![128, 128]⟩ : Shape).Idx → EReal)
    (b1 : (⟨2, ![1, 128]⟩ : Shape).Idx → EReal) (e : Fin n) (j : Fin 128) : EReal :=
  max (((∑ l : Fin 128, xs (ix2 e l) * w1a (ix2 l j)) + (∑ l : Fin 128, xd (ix2 e l) * w1b (ix2 l j))) + b1 (ix2 (0 : Fin 1) j)) z

/-- The second hidden layer of the decoder at row e, unit k. -/
def hid2 {n : Nat} (xs xd : (⟨2, ![n, 128]⟩ : Shape).Idx → EReal) (w1a w1b : (⟨2, ![128, 128]⟩ : Shape).Idx → EReal)
    (b1 : (⟨2, ![1, 128]⟩ : Shape).Idx → EReal) (w2 : (⟨2, ![128, 128]⟩ : Shape).Idx → EReal)
    (b2 : (⟨2, ![1, 128]⟩ : Shape).Idx → EReal) (e : Fin n) (k : Fin 128) : EReal :=
  max ((∑ j : Fin 128, hid1 xs xd w1a w1b b1 e j * w2 (ix2 j k)) + b2 (ix2 (0 : Fin 1) k)) z

/-- The decoder's output column, row by row. -/
def decW {n : Nat} (xs xd : (⟨2, ![n, 128]⟩ : Shape).Idx → EReal) (w1a w1b : (⟨2, ![128, 128]⟩ : Shape).Idx → EReal)
    (b1 : (⟨2, ![1, 128]⟩ : Shape).Idx → EReal) (w2 : (⟨2, ![128, 128]⟩ : Shape).Idx → EReal)
    (b2 : (⟨2, ![1, 128]⟩ : Shape).Idx → EReal) (w3 : (⟨2, ![128, 1]⟩ : Shape).Idx → EReal)
    (b3 : (⟨2, ![1, 1]⟩ : Shape).Idx → EReal) : (⟨2, ![n, 1]⟩ : Shape).Idx → EReal :=
  fun i => (∑ k : Fin 128, hid2 xs xd w1a w1b b1 w2 b2 (i 0) k * w3 (ix2 k (0 : Fin 1))) + b3 (ix2 (0 : Fin 1) (0 : Fin 1))

theorem decW_apply {n : Nat} (xs xd : (⟨2, ![n, 128]⟩ : Shape).Idx → EReal) (w1a w1b : (⟨2, ![128, 128]⟩ : Shape).Idx → EReal)
    (b1 : (⟨2, ![1, 128]⟩ : Shape).Idx → EReal) (w2 : (⟨2, ![128, 128]⟩ : Shape).Idx → EReal)
    (b2 : (⟨2, ![1, 128]⟩ : Shape).Idx → EReal) (w3 : (⟨2, ![128, 1]⟩ : Shape).Idx → EReal)
    (b3 : (⟨2, ![1, 1]⟩ : Shape).Idx → EReal) (e : Fin n) (u : Fin 1) :
    decW xs xd w1a w1b b1 w2 b2 w3 b3 (ix2 e u)
      = (∑ k : Fin 128, hid2 xs xd w1a w1b b1 w2 b2 e k * w3 (ix2 k (0 : Fin 1))) + b3 (ix2 (0 : Fin 1) (0 : Fin 1)) := rfl

end Cert.Spec

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.RefDec.lean ====
/-
  The reference's three-layer edge decoder, read at the extended reals, is the specification's row-by-row decoder
  (Cert.Spec.decW) applied to the weight and bias arrays as the kernel program's host operations prepare them.

  The reference concatenates the two gathered feature halves into one [n, 256] array and multiplies it with the whole
  [256, 128] first weight matrix; the kernel program cuts that matrix into its upper and lower [128, 128] halves and
  multiplies each half with one feature half. Entry (e, j) of the reference's product is a sum over 256 terms; its first
  128 terms are the products of the first feature half with the upper half of the matrix, its last 128 terms those of the
  second feature half with the lower half: a finite sum over Fin (128 + 128) split in two, which needs no finiteness.
  Everything else (biases broadcast over rows, the maximum with the float word 0, the two further layers) is term by term
  the same on both sides; a change of float format is the identity at the extended reals, and a [128] bias reshaped to
  [1, 128] reads, at (0, j), the bias at j.
-/
import proofs.«150106_j66537633350122_2_alg».proof.KernelIdeal
import proofs.«150106_j66537633350122_2_alg».proof.ReferenceIdeal
import proofs.«150106_j66537633350122_2_alg».proof.Proof.Spec
import proofs.«150106_j66537633350122_2_alg».proof.Proof.LibPlainDot
import Idealize.ShloMosaic.Lib.ValueIdx
import Idealize.ShloMosaic.Lib.ValueLayout
import Idealize.ShloMosaic.Lib.Pipeline.Value

noncomputable section

namespace Cert.Bridge

open Idealize.ShloMosaic Idealize.ShloMosaic.ValueIdx

variable [Cert.ReferenceIdeal.Facts₀] [Cert.KernelIdeal.Facts₀]

/-- The reference's relu: the maximum with the float word 0 broadcast over the array. -/
abbrev refRelu (x : FVec Ideal Cert.ReferenceIdeal.S800000x128 .f32) : FVec Ideal Cert.ReferenceIdeal.S800000x128 .f32 :=
  maximumf x (broadcastInDim Cert.ReferenceIdeal.S800000x128 ![] Cert.ReferenceIdeal.Facts₀.bcast_S_S800000x128
    (constant (F := Ideal) Cert.ReferenceIdeal.S_ .f32 0x00000000#32))

/-- The reference's decoder: its operations from the concatenation of the two feature halves to the last addition. -/
def refDec (xs xd : FVec Ideal Cert.ReferenceIdeal.S800000x128 .f32)
    (W1 : FVec Ideal Cert.ReferenceIdeal.S256x128 .f32) (b1 : FVec Ideal Cert.ReferenceIdeal.S128 .f32)
    (W2 : FVec Ideal Cert.ReferenceIdeal.S128x128 .f32) (b2 : FVec Ideal Cert.ReferenceIdeal.S128 .f32)
    (W3 : FVec Ideal Cert.ReferenceIdeal.S128x1 .f32) (b3 : FVec Ideal Cert.ReferenceIdeal.S1 .f32) :
    FVec Ideal Cert.ReferenceIdeal.S800000x1 .f32 :=
  addf
    (Host.dotGeneral (F := Ideal) Cert.ReferenceIdeal.dot_S800000x128_S128x1_S800000x1_1_0_0_1_n_n none
      (refRelu (addf
        (Host.dotGeneral (F := Ideal) Cert.ReferenceIdeal.dot_S800000x128_S128x128_S800000x128_1_0_0_1_n_n none
          (refRelu (addf
            (Host.dotGeneral (F := Ideal) Cert.ReferenceIdeal.dot_S800000x256_S256x128_S800000x128_1_0_0_1_n_n none
              (concatenate Cert.ReferenceIdeal.S800000x256 1 [⟨Cert.ReferenceIdeal.S800000x128, xs⟩, ⟨Cert.ReferenceIdeal.S800000x128, xd⟩]
                Cert.ReferenceIdeal.Facts₀.concatenates_S800000x128_S800000x128_S800000x256_d1)
              W1)
            (broadcastInDim Cert.ReferenceIdeal.S800000x128 ![0, 1] Cert.ReferenceIdeal.Facts₀.bcast_S1x128_S800000x128_0_1
              (broadcastInDim Cert.ReferenceIdeal.S1x128 ![1] Cert.ReferenceIdeal.Facts₀.bcast_S128_S1x128_1 b1))))
          W2)
        (broadcastInDim Cert.ReferenceIdeal.S800000x128 ![0, 1] Cert.ReferenceIdeal.Facts₀.bcast_S1x128_S800000x128_0_1
          (broadcastInDim Cert.ReferenceIdeal.S1x128 ![1] Cert.ReferenceIdeal.Facts₀.bcast_S128_S1x128_1 b2))))
      W3)
    (broadcastInDim Cert.ReferenceIdeal.S800000x1 ![0, 1] Cert.ReferenceIdeal.Facts₀.bcast_S1x1_S800000x1_0_1
      (broadcastInDim Cert.ReferenceIdeal.S1x1 ![1] Cert.ReferenceIdeal.Facts₀.bcast_S1_S1x1_1 b3))

/-- The kernel program's upper half of the first weight matrix (rows 0 … 127), in the kernel's format. -/
def w1a (W1 : FVec Ideal Cert.KernelIdeal.S256x128 .f32) : FVec Ideal Cert.KernelIdeal.S128x128 .bf16 :=
  truncf .bf16 (extractStridedSlice Cert.KernelIdeal.S128x128 ![0, 0] W1 Cert.KernelIdeal.Facts₀.slices_S256x128_S128x128_0_0)
    Cert.KernelIdeal.Facts₀.bitsLt_bf16_f32

/-- The kernel program's lower half of the first weight matrix (rows 128 … 255), in the kernel's format. -/
def w1b (W1 : FVec Ideal Cert.KernelIdeal.S256x128 .f32) : FVec Ideal Cert.KernelIdeal.S128x128 .bf16 :=
  truncf .bf16 (extractStridedSlice Cert.KernelIdeal.S128x128 ![128, 0] W1 Cert.KernelIdeal.Facts₀.slices_S256x128_S128x128_128_0)
    Cert.KernelIdeal.Facts₀.bitsLt_bf16_f32

/-- The kernel program's second weight matrix, in the kernel's format. -/
def w2k (W2 : FVec Ideal Cert.KernelIdeal.S128x128 .f32) : FVec Ideal Cert.KernelIdeal.S128x128 .bf16 :=
  truncf .bf16 W2 Cert.KernelIdeal.Facts₀.bitsLt_bf16_f32

/-- The kernel program's third weight matrix, in the kernel's format. -/
def w3k (W3 : FVec Ideal Cert.KernelIdeal.S128x1 .f32) : FVec Ideal Cert.KernelIdeal.S128x1 .bf16 :=
  truncf .bf16 W3 Cert.KernelIdeal.Facts₀.bitsLt_bf16_f32

/-- The kernel program's first bias as one row. -/
def b1r (b1 : FVec Ideal Cert.KernelIdeal.S128 .f32) : FVec Ideal Cert.KernelIdeal.S1x128 .f32 :=
  shapeCast Cert.KernelIdeal.S1x128 b1 Cert.KernelIdeal.Facts₀.shapeCasts_S128_S1x128

/-- The kernel program's second bias as one row. -/
def b2r (b2 : FVec Ideal Cert.KernelIdeal.S128 .f32) : FVec Ideal Cert.KernelIdeal.S1x128 .f32 :=
  shapeCast Cert.KernelIdeal.S1x128 b2 Cert.KernelIdeal.Facts₀.shapeCasts_S128_S1x128

/-- The kernel program's third bias as a one-by-one array. -/
def b3r (b3 : FVec Ideal Cert.KernelIdeal.S1 .f32) : FVec Ideal Cert.KernelIdeal.S1x1 .f32 :=
  shapeCast Cert.KernelIdeal.S1x1 b3 Cert.KernelIdeal.Facts₀.shapeCasts_S1_S1x1

/-! ## The reference's operations read at an index -/

/-- The relu at an index: the maximum with the value of the float word 0. -/
theorem refRelu_apply (x : FVec Ideal Cert.ReferenceIdeal.S800000x128 .f32) (i : Cert.ReferenceIdeal.S800000x128.Idx) :
    refRelu x i = max (x i) Cert.Spec.z := rfl

/-- The first layer's product at (p, q): a sum over the 256 columns of the concatenated features. -/
theorem dot1_apply (l : FVec Ideal Cert.ReferenceIdeal.S800000x256 .f32) (r : FVec Ideal Cert.ReferenceIdeal.S256x128 .f32)
    (p : Fin 800000) (q : Fin 128) :
    Host.dotGeneral (F := Ideal) Cert.ReferenceIdeal.dot_S800000x256_S256x128_S800000x128_1_0_0_1_n_n none l r (ix2 p q)
      = ∑ k : Fin 256, l (ix2 p k) * r (ix2 k q) :=
  Cert.Lib.PlainDot.dotGeneral_apply Cert.ReferenceIdeal.dot_S800000x256_S256x128_S800000x128_1_0_0_1_n_n rfl rfl
    (fun _ _ => rfl) (fun i k => DotDims.lhsIdx_val_of_single _ rfl i k) (fun i k => DotDims.rhsIdx_val_of_single _ rfl i k)
    (fun _ _ => rfl) none l r p q

/-- The second layer's product at (p, q). -/
theorem dot2_apply (l : FVec Ideal Cert.ReferenceIdeal.S800000x128 .f32) (r : FVec Ideal Cert.ReferenceIdeal.S128x128 .f32)
    (p : Fin 800000) (q : Fin 128) :
    Host.dotGeneral (F := Ideal) Cert.ReferenceIdeal.dot_S800000x128_S128x128_S800000x128_1_0_0_1_n_n none l r (ix2 p q)
      = ∑ k : Fin 128, l (ix2 p k) * r (ix2 k q) :=
  Cert.Lib.PlainDot.dotGeneral_apply Cert.ReferenceIdeal.dot_S800000x128_S128x128_S800000x128_1_0_0_1_n_n rfl rfl
    (fun _ _ => rfl) (fun i k => DotDims.lhsIdx_val_of_single _ rfl i k) (fun i k => DotDims.rhsIdx_val_of_single _ rfl i k)
    (fun _ _ => rfl) none l r p q

/-- The third layer's product at (p, q). -/
theorem dot3_apply (l : FVec Ideal Cert.ReferenceIdeal.S800000x128 .f32) (r : FVec Ideal Cert.ReferenceIdeal.S128x1 .f32)
    (p : Fin 800000) (q : Fin 1) :
    Host.dotGeneral (F := Ideal) Cert.ReferenceIdeal.dot_S800000x128_S128x1_S800000x1_1_0_0_1_n_n none l r (ix2 p q)
      = ∑ k : Fin 128, l (ix2 p k) * r (ix2 k q) :=
  Cert.Lib.PlainDot.dotGeneral_apply Cert.ReferenceIdeal.dot_S800000x128_S128x1_S800000x1_1_0_0_1_n_n rfl rfl
    (fun _ _ => rfl) (fun i k => DotDims.lhsIdx_val_of_single _ rfl i k) (fun i k => DotDims.rhsIdx_val_of_single _ rfl i k)
    (fun _ _ => rfl) none l r p q

/-- The concatenated features at (p, k), k among the first 128 columns: the first half at (p, k). -/
theorem concat_left (xs xd : FVec Ideal Cert.ReferenceIdeal.S800000x128 .f32) (p : Fin 800000) (k : Fin 256) (l : Fin 128)
    (h : k.val = l.val) :
    concatenate Cert.ReferenceIdeal.S800000x256 1 [⟨Cert.ReferenceIdeal.S800000x128, xs⟩, ⟨Cert.ReferenceIdeal.S800000x128, xd⟩]
      Cert.ReferenceIdeal.Facts₀.concatenates_S800000x128_S800000x128_S800000x256_d1 (ix2 p k) = xs (ix2 p l) :=
  concatenate_pair_apply_left 1 xs xd _ (ix2 p k) rfl (ix2 p l) fun b => by
    match b with
    | ⟨0, _⟩ => rfl
    | ⟨1, _⟩ => exact h.symm

/-- The concatenated features at (p, k), k among the last 128 columns: the second half at (p, k − 128). -/
theorem concat_right (xs xd : FVec Ideal Cert.ReferenceIdeal.S800000x128 .f32) (p : Fin 800000) (k : Fin 256) (l : Fin 128)
    (h : k.val = 128 + l.val) :
    concatenate Cert.ReferenceIdeal.S800000x256 1 [⟨Cert.ReferenceIdeal.S800000x128, xs⟩, ⟨Cert.ReferenceIdeal.S800000x128, xd⟩]
      Cert.ReferenceIdeal.Facts₀.concatenates_S800000x128_S800000x128_S800000x256_d1 (ix2 p k) = xd (ix2 p l) :=
  concatenate_pair_apply_right 1 xs xd _ (ix2 p k) rfl rfl (ix2 p l)
    (fun b hb => by
      match b with
      | ⟨0, _⟩ => rfl
      | ⟨1, _⟩ => exact absurd rfl hb)
    (by show l.val + 128 = k.val; omega)

/-- A [128] bias broadcast to one row and then over all rows reads, at (p, q), the bias at q. -/
theorem bias_apply (b : FVec Ideal Cert.ReferenceIdeal.S128 .f32) (p : Fin 800000) (q : Fin 128) :
    broadcastInDim Cert.ReferenceIdeal.S800000x128 ![0, 1] Cert.ReferenceIdeal.Facts₀.bcast_S1x128_S800000x128_0_1
      (broadcastInDim Cert.ReferenceIdeal.S1x128 ![1] Cert.ReferenceIdeal.Facts₀.bcast_S128_S1x128_1 b) (ix2 p q) = b (ix1 q) := by
  refine (broadcastInDim_apply _ _ _ (ix2 p q) (ix2 (0 : Fin 1) q) fun a => ?_).trans
    (broadcastInDim_apply _ _ b (ix2 (0 : Fin 1) q) (ix1 q) fun a => ?_)
  · match a with
    | ⟨0, _⟩ => rfl
    | ⟨1, _⟩ => rfl
  · match a with
    | ⟨0, _⟩ => rfl

/-- The [1] bias broadcast to [1, 1] and then over all rows reads, everywhere, its one entry. -/
theorem bias3_apply (b : FVec Ideal Cert.ReferenceIdeal.S1 .f32) (p : Fin 800000) (u : Fin 1) :
    broadcastInDim Cert.ReferenceIdeal.S800000x1 ![0, 1] Cert.ReferenceIdeal.Facts₀.bcast_S1x1_S800000x1_0_1
      (broadcastInDim Cert.ReferenceIdeal.S1x1 ![1] Cert.ReferenceIdeal.Facts₀.bcast_S1_S1x1_1 b) (ix2 p u) = b (ix1 (0 : Fin 1)) := by
  refine (broadcastInDim_apply _ _ _ (ix2 p u) (ix2 (0 : Fin 1) (0 : Fin 1)) fun a => ?_).trans
    (broadcastInDim_apply _ _ b (ix2 (0 : Fin 1) (0 : Fin 1)) (ix1 (0 : Fin 1)) fun a => ?_)
  · match a with
    | ⟨0, _⟩ => rfl
    | ⟨1, _⟩ => rfl
  · match a with
    | ⟨0, _⟩ => rfl

/-! ## The kernel program's prepared arrays read at an index -/

/-- The upper half of the first weight matrix at (l, j): the matrix at row l. -/
theorem w1a_apply (W1 : FVec Ideal Cert.KernelIdeal.S256x128 .f32) (l j : Fin 128) (k : Fin 256) (h : k.val = l.val) :
    w1a W1 (ix2 l j) = W1 (ix2 k j) :=
  slice2_axis0_apply 0 W1 Cert.KernelIdeal.Facts₀.slices_S256x128_S128x128_0_0 l j k (by omega)

/-- The lower half of the first weight matrix at (l, j): the matrix at row 128 + l. -/
theorem w1b_apply (W1 : FVec Ideal Cert.KernelIdeal.S256x128 .f32) (l j : Fin 128) (k : Fin 256) (h : k.val = 128 + l.val) :
    w1b W1 (ix2 l j) = W1 (ix2 k j) :=
  slice2_axis0_apply 128 W1 Cert.KernelIdeal.Facts₀.slices_S256x128_S128x128_128_0 l j k h

/-- A [128] bias reshaped to one row reads, at (0, j), the bias at j. -/
theorem b1r_apply (b : FVec Ideal Cert.KernelIdeal.S128 .f32) (j : Fin 128) : b1r b (ix2 (0 : Fin 1) j) = b (ix1 j) :=
  shapeCast_a_1a_apply b _ 0 j

theorem b2r_apply (b : FVec Ideal Cert.KernelIdeal.S128 .f32) (j : Fin 128) : b2r b (ix2 (0 : Fin 1) j) = b (ix1 j) :=
  shapeCast_a_1a_apply b _ 0 j

/-- The [1] bias reshaped to [1, 1] reads its one entry. -/
theorem b3r_apply (b : FVec Ideal Cert.KernelIdeal.S1 .f32) : b3r b (ix2 (0 : Fin 1) (0 : Fin 1)) = b (ix1 (0 : Fin 1)) :=
  shapeCast_a_1a_apply b _ 0 0

/-! ## The layers -/

/-- The one mathematical step: row p of the concatenated features against column j of the whole first weight matrix is
    the first feature half against the matrix's upper half plus the second feature half against its lower half (a sum
    over Fin (128 + 128) split into its first 128 and its last 128 terms). -/
theorem layer1_sum (xs xd : FVec Ideal Cert.ReferenceIdeal.S800000x128 .f32) (W1 : FVec Ideal Cert.ReferenceIdeal.S256x128 .f32)
    (p : Fin 800000) (j : Fin 128) :
    (∑ k : Fin 256,
        concatenate Cert.ReferenceIdeal.S800000x256 1 [⟨Cert.ReferenceIdeal.S800000x128, xs⟩, ⟨Cert.ReferenceIdeal.S800000x128, xd⟩]
          Cert.ReferenceIdeal.Facts₀.concatenates_S800000x128_S800000x128_S800000x256_d1 (ix2 p k) * W1 (ix2 k j))
      = (∑ l : Fin 128, xs (ix2 p l) * w1a W1 (ix2 l j)) + ∑ l : Fin 128, xd (ix2 p l) * w1b W1 (ix2 l j) := by
  refine (Fin.sum_univ_add (a := 128) (b := 128) (fun k : Fin (128 + 128) =>
      concatenate Cert.ReferenceIdeal.S800000x256 1 [⟨Cert.ReferenceIdeal.S800000x128, xs⟩, ⟨Cert.ReferenceIdeal.S800000x128, xd⟩]
        Cert.ReferenceIdeal.Facts₀.concatenates_S800000x128_S800000x128_S800000x256_d1 (ix2 p k) * W1 (ix2 k j))).trans ?_
  congr 1
  · refine Finset.sum_congr rfl fun l _ => ?_
    rw [concat_left xs xd p (Fin.castAdd 128 l) l rfl, w1a_apply W1 l j (Fin.castAdd 128 l) rfl]
  · refine Finset.sum_congr rfl fun l _ => ?_
    rw [concat_right xs xd p (Fin.natAdd 128 l) l rfl, w1b_apply W1 l j (Fin.natAdd 128 l) rfl]

/-- The reference's first hidden layer at (e, j) is the specification's. -/
theorem layer1 (xs xd : FVec Ideal Cert.ReferenceIdeal.S800000x128 .f32) (W1 : FVec Ideal Cert.ReferenceIdeal.S256x128 .f32)
    (b1 : FVec Ideal Cert.ReferenceIdeal.S128 .f32) (e : Fin 800000) (j : Fin 128) :
    refRelu (addf
        (Host.dotGeneral (F := Ideal) Cert.ReferenceIdeal.dot_S800000x256_S256x128_S800000x128_1_0_0_1_n_n none
          (concatenate Cert.ReferenceIdeal.S800000x256 1 [⟨Cert.ReferenceIdeal.S800000x128, xs⟩, ⟨Cert.ReferenceIdeal.S800000x128, xd⟩]
            Cert.ReferenceIdeal.Facts₀.concatenates_S800000x128_S800000x128_S800000x256_d1)
          W1)
        (broadcastInDim Cert.ReferenceIdeal.S800000x128 ![0, 1] Cert.ReferenceIdeal.Facts₀.bcast_S1x128_S800000x128_0_1
          (broadcastInDim Cert.ReferenceIdeal.S1x128 ![1] Cert.ReferenceIdeal.Facts₀.bcast_S128_S1x128_1 b1))) (ix2 e j)
      = Cert.Spec.hid1 xs xd (w1a W1) (w1b W1) (b1r b1) e j := by
  rw [refRelu_apply, addf_apply, dot1_apply, bias_apply, layer1_sum]
  unfold Cert.Spec.hid1
  rw [b1r_apply]

/-- The reference's second hidden layer at (e, k), over any first hidden layer that is the specification's. -/
theorem layer2 (xs xd : FVec Ideal Cert.ReferenceIdeal.S800000x128 .f32) (w1a' w1b' : FVec Ideal Cert.ReferenceIdeal.S128x128 .f32)
    (b1' : FVec Ideal Cert.ReferenceIdeal.S1x128 .f32) (h1 : FVec Ideal Cert.ReferenceIdeal.S800000x128 .f32)
    (hh : ∀ (e : Fin 800000) (j : Fin 128), h1 (ix2 e j) = Cert.Spec.hid1 xs xd w1a' w1b' b1' e j)
    (W2 : FVec Ideal Cert.ReferenceIdeal.S128x128 .f32) (b2 : FVec Ideal Cert.ReferenceIdeal.S128 .f32) (e : Fin 800000) (k : Fin 128) :
    refRelu (addf
        (Host.dotGeneral (F := Ideal) Cert.ReferenceIdeal.dot_S800000x128_S128x128_S800000x128_1_0_0_1_n_n none h1 W2)
        (broadcastInDim Cert.ReferenceIdeal.S800000x128 ![0, 1] Cert.ReferenceIdeal.Facts₀.bcast_S1x128_S800000x128_0_1
          (broadcastInDim Cert.ReferenceIdeal.S1x128 ![1] Cert.ReferenceIdeal.Facts₀.bcast_S128_S1x128_1 b2))) (ix2 e k)
      = Cert.Spec.hid2 xs xd w1a' w1b' b1' (w2k W2) (b2r b2) e k := by
  rw [refRelu_apply, addf_apply, dot2_apply, bias_apply]
  unfold Cert.Spec.hid2
  rw [b2r_apply]
  congr 2
  refine Finset.sum_congr rfl fun j _ => ?_
  rw [hh e j]
  rfl

/-- The reference's output at (e, u), over any second hidden layer that is the specification's. -/
theorem layer3 (xs xd : FVec Ideal Cert.ReferenceIdeal.S800000x128 .f32) (w1a' w1b' : FVec Ideal Cert.ReferenceIdeal.S128x128 .f32)
    (b1' : FVec Ideal Cert.ReferenceIdeal.S1x128 .f32) (w2' : FVec Ideal Cert.ReferenceIdeal.S128x128 .f32)
    (b2' : FVec Ideal Cert.ReferenceIdeal.S1x128 .f32) (h2 : FVec Ideal Cert.ReferenceIdeal.S800000x128 .f32)
    (hh : ∀ (e : Fin 800000) (k : Fin 128), h2 (ix2 e k) = Cert.Spec.hid2 xs xd w1a' w1b' b1' w2' b2' e k)
    (W3 : FVec Ideal Cert.ReferenceIdeal.S128x1 .f32) (b3 : FVec Ideal Cert.ReferenceIdeal.S1 .f32) (e : Fin 800000) (u : Fin 1) :
    addf
        (Host.dotGeneral (F := Ideal) Cert.ReferenceIdeal.dot_S800000x128_S128x1_S800000x1_1_0_0_1_n_n none h2 W3)
        (broadcastInDim Cert.ReferenceIdeal.S800000x1 ![0, 1] Cert.ReferenceIdeal.Facts₀.bcast_S1x1_S800000x1_0_1
          (broadcastInDim Cert.ReferenceIdeal.S1x1 ![1] Cert.ReferenceIdeal.Facts₀.bcast_S1_S1x1_1 b3)) (ix2 e u)
      = Cert.Spec.decW xs xd w1a' w1b' b1' w2' b2' (w3k W3) (b3r b3) (ix2 e u) := by
  rw [addf_apply, dot3_apply, bias3_apply, Cert.Spec.decW_apply, b3r_apply]
  have hu : u = 0 := Subsingleton.elim _ _
  subst hu
  congr 1
  refine Finset.sum_congr rfl fun k _ => ?_
  rw [hh e k]
  rfl

theorem refDec_eq (xs xd : FVec Ideal Cert.ReferenceIdeal.S800000x128 .f32)
    (W1 : FVec Ideal Cert.ReferenceIdeal.S256x128 .f32) (b1 : FVec Ideal Cert.ReferenceIdeal.S128 .f32)
    (W2 : FVec Ideal Cert.ReferenceIdeal.S128x128 .f32) (b2 : FVec Ideal Cert.ReferenceIdeal.S128 .f32)
    (W3 : FVec Ideal Cert.ReferenceIdeal.S128x1 .f32) (b3 : FVec Ideal Cert.ReferenceIdeal.S1 .f32) :
    refDec xs xd W1 b1 W2 b2 W3 b3
      = Cert.Spec.decW xs xd (w1a W1) (w1b W1) (b1r b1) (w2k W2) (b2r b2) (w3k W3) (b3r b3) := by
  funext i
  obtain ⟨e, u, rfl⟩ : ∃ (e : Fin 800000) (u : Fin 1), i = ix2 e u := ⟨i 0, i 1, eq_ix2 i⟩
  exact layer3 xs xd (w1a W1) (w1b W1) (b1r b1) (w2k W2) (b2r b2) _
    (fun e k => layer2 xs xd (w1a W1) (w1b W1) (b1r b1) _ (fun e j => layer1 xs xd W1 b1 e j) W2 b2 e k) W3 b3 e u

end Cert.Bridge

end
-- ==== Proof.SimC.lean ====
/-
  The host operations between the second and the third region of the kernel program, and the last reshape, against the
  reference's segments that compute the same values.

  From equal inputs the two programs apply the same operations in the same order: the second aggregation (gather the
  projected node features at the edge sources, scale by the edge weights, scatter-add at the destinations, add the bias),
  the second elu, and the gathers of the node features at the two ends of the first edge list. The kernel program keeps
  some arrays in a narrower float format and widens or narrows them on the way; on the extended reals a change of format
  is the identity, so each pair of results is one term. The decoder's weight and bias windows are slices, format changes
  and reshapes of the arguments; the reference's decoder is its printed chain of operations; the final reshape is the same
  on both sides.
-/
import proofs.«150106_j66537633350122_2_alg».proof.Proof.Vals
import proofs.«150106_j66537633350122_2_alg».proof.Proof.RefDec
import Idealize.ShloMosaic.Lib.StableHlo.Run
import Idealize.ShloMosaic.PureOps.Ideal

set_option maxRecDepth 65536

noncomputable section

namespace Cert.Bridge

open Idealize.ShloMosaic Idealize.ShloMosaic.StableHlo

/-! ## The second aggregation -/

/-- The aggregated, biased node features before the second elu. -/
theorem s8_v102 (U : KV) (X : RV)
    (h57 : U (kd Cert.KernelIdeal.main_v57) = X (rd Cert.ReferenceIdeal.main_v56))
    (h59 : U (kd Cert.KernelIdeal.main_v59) = X (rd Cert.ReferenceIdeal.main_v58))
    (h85 : U (kd Cert.KernelIdeal.main_v85) = X (rd Cert.ReferenceIdeal.main_v84))
    (h82 : U (kd Cert.KernelIdeal.main_v82) = X (rd Cert.ReferenceIdeal.main_v83))
    (h8 : U (kd Cert.KernelIdeal.main_arg8) = X (rd Cert.ReferenceIdeal.main_arg8)) :
    after (Cert.KernelIdeal.Gen.hostOps2 (F := Ideal)) U (kd Cert.KernelIdeal.main_v102)
      = after (Cert.ReferenceIdeal.Hand.r10 (F := Ideal)) X (rd Cert.ReferenceIdeal.main_v100) := by
  after_results_simp
  rw [h57, h59, h85, h82, h8]
  rfl

/-! ## The second elu -/

/-- The node features after the second elu. -/
theorem s9_v103 (U : KV) (X : RV)
    (h : U (kd Cert.KernelIdeal.main_v102) = X (rd Cert.ReferenceIdeal.main_v100)) :
    after (Cert.KernelIdeal.Gen.hostOps2_1 (F := Ideal)) U (kd Cert.KernelIdeal.main_v103)
      = after (Cert.ReferenceIdeal.Hand.r11 (F := Ideal)) X (rd Cert.ReferenceIdeal.main_v101) := by
  after_results_simp
  rw [h]

/-! ## The decoder's inputs -/

/-- The node features gathered at the sources of the first edge list. -/
theorem s10_v115 (U : KV) (X : RV)
    (h1 : U (kd Cert.KernelIdeal.main_arg1) = X (rd Cert.ReferenceIdeal.main_arg1))
    (h103 : U (kd Cert.KernelIdeal.main_v103) = X (rd Cert.ReferenceIdeal.main_v101)) :
    after (Cert.KernelIdeal.Gen.hostOps2_2 (F := Ideal)) U (kd Cert.KernelIdeal.main_v115)
      = after (Cert.ReferenceIdeal.Hand.r12 (F := Ideal)) X (rd Cert.ReferenceIdeal.main_v112) := by
  after_results_simp
  rw [h1, h103]
  rfl

/-- The node features gathered at the destinations of the first edge list. -/
theorem s10_v122 (U : KV) (X : RV)
    (h1 : U (kd Cert.KernelIdeal.main_arg1) = X (rd Cert.ReferenceIdeal.main_arg1))
    (h103 : U (kd Cert.KernelIdeal.main_v103) = X (rd Cert.ReferenceIdeal.main_v101)) :
    after (Cert.KernelIdeal.Gen.hostOps2_2 (F := Ideal)) U (kd Cert.KernelIdeal.main_v122)
      = after (Cert.ReferenceIdeal.Hand.r12 (F := Ideal)) X (rd Cert.ReferenceIdeal.main_v119) := by
  after_results_simp
  rw [h1, h103]
  rfl

/-- The upper half of the first weight matrix, narrowed. -/
theorem s10_v125 (U : KV) :
    after (Cert.KernelIdeal.Gen.hostOps2_2 (F := Ideal)) U (kd Cert.KernelIdeal.main_v125) = w1a (U (kd Cert.KernelIdeal.main_arg9)) := by
  after_results_simp
  rfl

/-- The lower half of the first weight matrix, narrowed. -/
theorem s10_v126 (U : KV) :
    after (Cert.KernelIdeal.Gen.hostOps2_2 (F := Ideal)) U (kd Cert.KernelIdeal.main_v126) = w1b (U (kd Cert.KernelIdeal.main_arg9)) := by
  after_results_simp
  rfl

/-- The second weight matrix, narrowed. -/
theorem s10_v127 (U : KV) :
    after (Cert.KernelIdeal.Gen.hostOps2_2 (F := Ideal)) U (kd Cert.KernelIdeal.main_v127) = w2k (U (kd Cert.KernelIdeal.main_arg11)) := by
  after_results_simp
  rfl

/-- The third weight matrix, narrowed. -/
theorem s10_v128 (U : KV) :
    after (Cert.KernelIdeal.Gen.hostOps2_2 (F := Ideal)) U (kd Cert.KernelIdeal.main_v128) = w3k (U (kd Cert.KernelIdeal.main_arg13)) := by
  after_results_simp
  rfl

/-- The first bias as one row. -/
theorem s10_v129 (U : KV) :
    after (Cert.KernelIdeal.Gen.hostOps2_2 (F := Ideal)) U (kd Cert.KernelIdeal.main_v129) = b1r (U (kd Cert.KernelIdeal.main_arg10)) := by
  after_results_simp
  rfl

/-- The second bias as one row. -/
theorem s10_v130 (U : KV) :
    after (Cert.KernelIdeal.Gen.hostOps2_2 (F := Ideal)) U (kd Cert.KernelIdeal.main_v130) = b2r (U (kd Cert.KernelIdeal.main_arg12)) := by
  after_results_simp
  rfl

/-- The third bias as a one-by-one array. -/
theorem s10_v131 (U : KV) :
    after (Cert.KernelIdeal.Gen.hostOps2_2 (F := Ideal)) U (kd Cert.KernelIdeal.main_v131) = b3r (U (kd Cert.KernelIdeal.main_arg14)) := by
  after_results_simp
  rfl

/-! ## The reference's decoder, and the last reshape -/

/-- The reference's decoder segment leaves its printed chain of operations of the two gathered halves and the six
    weight and bias arguments. -/
theorem x14_v134 (X : RV) :
    after (Cert.ReferenceIdeal.Hand.r13 (F := Ideal)) X (rd Cert.ReferenceIdeal.main_v134)
      = refDec (X (rd Cert.ReferenceIdeal.main_v112)) (X (rd Cert.ReferenceIdeal.main_v119)) (X (rd Cert.ReferenceIdeal.main_arg9))
          (X (rd Cert.ReferenceIdeal.main_arg10)) (X (rd Cert.ReferenceIdeal.main_arg11)) (X (rd Cert.ReferenceIdeal.main_arg12))
          (X (rd Cert.ReferenceIdeal.main_arg13)) (X (rd Cert.ReferenceIdeal.main_arg14)) := by
  after_results_simp
  rfl

/-- The output column reshaped to a vector, on both sides. -/
theorem s11_out (U : KV) (X : RV)
    (h : U (kd Cert.KernelIdeal.main_v132) = X (rd Cert.ReferenceIdeal.main_v134)) :
    after (Cert.KernelIdeal.Gen.hostOps3 (F := Ideal)) U (kd Cert.KernelIdeal.main_v133)
      = after (Cert.ReferenceIdeal.Hand.r14 (F := Ideal)) X (rd Cert.ReferenceIdeal.main_v135) := by
  after_results_simp
  rw [h]
  rfl

end Cert.Bridge

end
-- ==== Proof.SimD.lean ====
/-
  The second selection by the sign of a degree, between the two linear maps. The second edge list is counted with
  unit weights; the kernel program takes the reciprocal square root of each node's count where it is positive, the
  reference one over its square root, and 0 elsewhere: the same values, by the same law as for the first edge list.
-/
import proofs.«150106_j66537633350122_2_alg».proof.Proof.Vals
import proofs.«150106_j66537633350122_2_alg».proof.Proof.LibRsqrtSelect
import proofs.«150106_j66537633350122_2_alg».proof.Proof.LibRealNorm
import Idealize.ShloMosaic.Lib.StableHlo.Run
import Idealize.ShloMosaic.PureOps.Ideal
import Idealize.ShloMosaic.PureOps.Ideal.Laws

set_option maxRecDepth 65536

noncomputable section

namespace Cert.Bridge

open Idealize.ShloMosaic Idealize.ShloMosaic.StableHlo

/-- Each node's count over the second edge list. -/
theorem s5_deg (U : KV) (X : RV) (h2 : U (kd Cert.KernelIdeal.main_arg2) = X (rd Cert.ReferenceIdeal.main_arg2)) :
    after (Cert.KernelIdeal.Gen.hostOps1_2 (F := Ideal)) U (kd Cert.KernelIdeal.main_v62) = after (Cert.ReferenceIdeal.Hand.r6 (F := Ideal)) X (rd Cert.ReferenceIdeal.main_v61) := by
  after_results_simp
  rw [h2]
  rfl

theorem k5_v64 (U : KV) : after (Cert.KernelIdeal.Gen.hostOps1_2 (F := Ideal)) U (kd Cert.KernelIdeal.main_v64)
    = cmpf .ogt (after (Cert.KernelIdeal.Gen.hostOps1_2 (F := Ideal)) U (kd Cert.KernelIdeal.main_v62))
        (broadcastInDim Cert.KernelIdeal.S50000 ![] Cert.KernelIdeal.Facts₀.bcast_S_S50000 (constant (F := Ideal) Cert.KernelIdeal.S_ .f32 0x00000000#32)) := by
  after_results_simp
theorem k5_v65 (U : KV) : after (Cert.KernelIdeal.Gen.hostOps1_2 (F := Ideal)) U (kd Cert.KernelIdeal.main_v65)
    = (Host.rsqrt (after (Cert.KernelIdeal.Gen.hostOps1_2 (F := Ideal)) U (kd Cert.KernelIdeal.main_v62) : FVec Ideal Cert.KernelIdeal.S50000 .f32) : FVec Ideal Cert.KernelIdeal.S50000 .f32) := by
  after_results_simp
theorem k5_cst13 (U : KV) : after (Cert.KernelIdeal.Gen.hostOps1_2 (F := Ideal)) U (kd Cert.KernelIdeal.main_cst_13)
    = constant (F := Ideal) Cert.KernelIdeal.S_ .f32 0x00000000#32 := by
  after_results_simp
theorem k6_v66 (W : KV) : after (Cert.KernelIdeal.Gen.hostOps1_3 (F := Ideal)) W (kd Cert.KernelIdeal.main_v66)
    = select (W (kd Cert.KernelIdeal.main_v64)) (W (kd Cert.KernelIdeal.main_v65))
        (broadcastInDim Cert.KernelIdeal.S50000 ![] Cert.KernelIdeal.Facts₀.bcast_S_S50000 (id (W (kd Cert.KernelIdeal.main_cst_13)))) := by
  after_results_simp
  rfl

theorem x6_v63 (X : RV) : after (Cert.ReferenceIdeal.Hand.r6 (F := Ideal)) X (rd Cert.ReferenceIdeal.main_v63)
    = cmpf .ogt (after (Cert.ReferenceIdeal.Hand.r6 (F := Ideal)) X (rd Cert.ReferenceIdeal.main_v61))
        (broadcastInDim Cert.ReferenceIdeal.S50000 ![] Cert.ReferenceIdeal.Facts₀.bcast_S_S50000 (constant (F := Ideal) Cert.ReferenceIdeal.S_ .f32 0x00000000#32)) := by
  after_results_simp
theorem x6_v66 (X : RV) : after (Cert.ReferenceIdeal.Hand.r6 (F := Ideal)) X (rd Cert.ReferenceIdeal.main_v66)
    = Host.divf (broadcastInDim Cert.ReferenceIdeal.S50000 ![] Cert.ReferenceIdeal.Facts₀.bcast_S_S50000 (constant (F := Ideal) Cert.ReferenceIdeal.S_ .f32 0x3F800000#32))
        (Host.sqrt (after (Cert.ReferenceIdeal.Hand.r6 (F := Ideal)) X (rd Cert.ReferenceIdeal.main_v61))) := by
  after_results_simp
theorem x6_cst15 (X : RV) : after (Cert.ReferenceIdeal.Hand.r6 (F := Ideal)) X (rd Cert.ReferenceIdeal.main_cst_15)
    = constant (F := Ideal) Cert.ReferenceIdeal.S_ .f32 0x00000000#32 := by
  after_results_simp
theorem x7_v67 (Y : RV) : after (Cert.ReferenceIdeal.Hand.r7 (F := Ideal)) Y (rd Cert.ReferenceIdeal.main_v67)
    = select (Y (rd Cert.ReferenceIdeal.main_v63)) (Y (rd Cert.ReferenceIdeal.main_v66))
        (broadcastInDim Cert.ReferenceIdeal.S50000 ![] Cert.ReferenceIdeal.Facts₀.bcast_S_S50000 (id (Y (rd Cert.ReferenceIdeal.main_cst_15)))) := by
  after_results_simp
  rfl

/-- The selected reciprocal root counts agree. -/
theorem s6_v66 (U : KV) (X : RV) (h2 : U (kd Cert.KernelIdeal.main_arg2) = X (rd Cert.ReferenceIdeal.main_arg2)) :
    after (Cert.KernelIdeal.Gen.hostOps1_3 (F := Ideal)) (after Cert.KernelIdeal.Gen.hostOps1_2 U) (kd Cert.KernelIdeal.main_v66)
      = after (Cert.ReferenceIdeal.Hand.r7 (F := Ideal)) (after Cert.ReferenceIdeal.Hand.r6 X) (rd Cert.ReferenceIdeal.main_v67) := by
  rw [k6_v66, k5_v64, k5_v65, k5_cst13, x7_v67, x6_v63, x6_v66, x6_cst15, s5_deg U X h2]
  exact (Cert.Lib.RsqrtSelect.select_rsqrt_eq (after (Cert.ReferenceIdeal.Hand.r6 (F := Ideal)) X (rd Cert.ReferenceIdeal.main_v61)) _
    (broadcastInDim Cert.ReferenceIdeal.S50000 ![] Cert.ReferenceIdeal.Facts₀.bcast_S_S50000 (constant (F := Ideal) Cert.ReferenceIdeal.S_ .f32 0x3F800000#32)) _
    (fun _ => Ideal.ofBits_zero_f32) (fun _ => Cert.Lib.ERealSums.ofBits_one_f32)).trans rfl

end Cert.Bridge

end
-- ==== Proof.KeepK.lean ====
/-
  Which buffers each stretch of the kernel program's host operations, and each of its first two matrix-product regions,
  leaves as it found them.

  Every host operation writes exactly one buffer, so a stretch leaves a buffer alone as soon as the buffer is not in the
  list of the stretch's results; a region leaves alone every buffer that is not one of its three arrays. The program's
  arguments are no operation's result and no region's array, so they hold their launch contents at every boundary.
-/
import proofs.«150106_j66537633350122_2_alg».proof.Proof.Vals
import proofs.«150106_j66537633350122_2_alg».proof.Proof.LibAfter
import proofs.«150106_j66537633350122_2_alg».proof.Proof.Gen.KernelIdeal.Frame

noncomputable section

namespace Cert.Bridge

open Idealize.ShloMosaic Idealize.ShloMosaic.StableHlo
open Cert.KernelIdeal Cert.KernelIdeal.Gen Cert.LibAfter

/-! ## What each stretch writes, operation by operation -/

/-- The results of the 22 operations of this stretch, in order. -/
abbrev wl0 : List (Ref sig .tc) :=
  [main_c, main_v0, main_v1, main_c_0, main_v2, main_v3, main_v4, main_v5, main_v6, main_v7, main_v8, main_v9,
   main_v10, main_cst, main_v11, main_v12, main_v13, main_cst_1, main_v14, main_v15, main_v16, main_cst_2]
theorem wr0 : Writes (τ := τ) (hostOps0 (F := Ideal)) wl0 := by
  repeat (first | exact List.Forall₂.nil | refine List.Forall₂.cons rfl ?_)
/-- A buffer that is none of them is left alone. -/
theorem keep0 {r : Ref sig .tc} (hr : r ∉ wl0) (V : KV) : after (hostOps0 (F := Ideal)) V (kd r) = V (kd r) :=
  after_of_not_written wr0 hr V

/-- The results of the 3 operations of this stretch, in order. -/
abbrev wl0_1 : List (Ref sig .tc) :=
  [main_call0_v0, main_call0_v1, main_v17]
theorem wr0_1 : Writes (τ := τ) (hostOps0_1 (F := Ideal)) wl0_1 := by
  repeat (first | exact List.Forall₂.nil | refine List.Forall₂.cons rfl ?_)
/-- A buffer that is none of them is left alone. -/
theorem keep0_1 {r : Ref sig .tc} (hr : r ∉ wl0_1) (V : KV) : after (hostOps0_1 (F := Ideal)) V (kd r) = V (kd r) :=
  after_of_not_written wr0_1 hr V

/-- The results of the 22 operations of this stretch, in order. -/
abbrev wl0_2 : List (Ref sig .tc) :=
  [main_c_3, main_v18, main_v19, main_c_4, main_v20, main_v21, main_v22, main_v23, main_v24, main_v25, main_c_5,
   main_v26, main_v27, main_c_6, main_v28, main_v29, main_v30, main_v31, main_v32, main_v33, main_v34, main_v35]
theorem wr0_2 : Writes (τ := τ) (hostOps0_2 (F := Ideal)) wl0_2 := by
  repeat (first | exact List.Forall₂.nil | refine List.Forall₂.cons rfl ?_)
/-- A buffer that is none of them is left alone. -/
theorem keep0_2 {r : Ref sig .tc} (hr : r ∉ wl0_2) (V : KV) : after (hostOps0_2 (F := Ideal)) V (kd r) = V (kd r) :=
  after_of_not_written wr0_2 hr V

/-- The results of the 20 operations of this stretch, in order. -/
abbrev wl1 : List (Ref sig .tc) :=
  [main_c_7, main_v37, main_v38, main_c_8, main_v39, main_v40, main_v41, main_v42, main_v43, main_v44, main_v45,
   main_v46, main_v47, main_cst_9, main_v48, main_v49, main_v50, main_v51, main_v52, main_v53]
theorem wr1 : Writes (τ := τ) (hostOps1 (F := Ideal)) wl1 := by
  repeat (first | exact List.Forall₂.nil | refine List.Forall₂.cons rfl ?_)
/-- A buffer that is none of them is left alone. -/
theorem keep1 {r : Ref sig .tc} (hr : r ∉ wl1) (V : KV) : after (hostOps1 (F := Ideal)) V (kd r) = V (kd r) :=
  after_of_not_written wr1 hr V

/-- The results of the 15 operations of this stretch, in order. -/
abbrev wl1_1 : List (Ref sig .tc) :=
  [main_call1_cst, main_call1_v0, main_call1_v1, main_call1_cst_0, main_call1_v2, main_call1_v3, main_call1_cst_1,
   main_call1_call0_v0, main_call1_call0_v1, main_call1_v4, main_call1_v5, main_call1_cst_2, main_call1_v6,
   main_call1_v7, main_v54]
theorem wr1_1 : Writes (τ := τ) (hostOps1_1 (F := Ideal)) wl1_1 := by
  repeat (first | exact List.Forall₂.nil | refine List.Forall₂.cons rfl ?_)
/-- A buffer that is none of them is left alone. -/
theorem keep1_1 {r : Ref sig .tc} (hr : r ∉ wl1_1) (V : KV) : after (hostOps1_1 (F := Ideal)) V (kd r) = V (kd r) :=
  after_of_not_written wr1_1 hr V

/-- The results of the 15 operations of this stretch, in order. -/
abbrev wl1_2 : List (Ref sig .tc) :=
  [main_cst_10, main_v55, main_v56, main_v57, main_v58, main_v59, main_cst_11, main_v60, main_v61, main_v62,
   main_cst_12, main_v63, main_v64, main_v65, main_cst_13]
theorem wr1_2 : Writes (τ := τ) (hostOps1_2 (F := Ideal)) wl1_2 := by
  repeat (first | exact List.Forall₂.nil | refine List.Forall₂.cons rfl ?_)
/-- A buffer that is none of them is left alone. -/
theorem keep1_2 {r : Ref sig .tc} (hr : r ∉ wl1_2) (V : KV) : after (hostOps1_2 (F := Ideal)) V (kd r) = V (kd r) :=
  after_of_not_written wr1_2 hr V

/-- The results of the 3 operations of this stretch, in order. -/
abbrev wl1_3 : List (Ref sig .tc) :=
  [main_call2_v0, main_call2_v1, main_v66]
theorem wr1_3 : Writes (τ := τ) (hostOps1_3 (F := Ideal)) wl1_3 := by
  repeat (first | exact List.Forall₂.nil | refine List.Forall₂.cons rfl ?_)
/-- A buffer that is none of them is left alone. -/
theorem keep1_3 {r : Ref sig .tc} (hr : r ∉ wl1_3) (V : KV) : after (hostOps1_3 (F := Ideal)) V (kd r) = V (kd r) :=
  after_of_not_written wr1_3 hr V

/-- The results of the 22 operations of this stretch, in order. -/
abbrev wl1_4 : List (Ref sig .tc) :=
  [main_c_14, main_v67, main_v68, main_c_15, main_v69, main_v70, main_v71, main_v72, main_v73, main_v74, main_c_16,
   main_v75, main_v76, main_c_17, main_v77, main_v78, main_v79, main_v80, main_v81, main_v82, main_v83, main_v84]
theorem wr1_4 : Writes (τ := τ) (hostOps1_4 (F := Ideal)) wl1_4 := by
  repeat (first | exact List.Forall₂.nil | refine List.Forall₂.cons rfl ?_)
/-- A buffer that is none of them is left alone. -/
theorem keep1_4 {r : Ref sig .tc} (hr : r ∉ wl1_4) (V : KV) : after (hostOps1_4 (F := Ideal)) V (kd r) = V (kd r) :=
  after_of_not_written wr1_4 hr V

/-- The results of the 20 operations of this stretch, in order. -/
abbrev wl2 : List (Ref sig .tc) :=
  [main_c_18, main_v86, main_v87, main_c_19, main_v88, main_v89, main_v90, main_v91, main_v92, main_v93, main_v94,
   main_v95, main_v96, main_cst_20, main_v97, main_v98, main_v99, main_v100, main_v101, main_v102]
theorem wr2 : Writes (τ := τ) (hostOps2 (F := Ideal)) wl2 := by
  repeat (first | exact List.Forall₂.nil | refine List.Forall₂.cons rfl ?_)
/-- A buffer that is none of them is left alone. -/
theorem keep2 {r : Ref sig .tc} (hr : r ∉ wl2) (V : KV) : after (hostOps2 (F := Ideal)) V (kd r) = V (kd r) :=
  after_of_not_written wr2 hr V

/-- The results of the 15 operations of this stretch, in order. -/
abbrev wl2_1 : List (Ref sig .tc) :=
  [main_call3_cst, main_call3_v0, main_call3_v1, main_call3_cst_0, main_call3_v2, main_call3_v3, main_call3_cst_1,
   main_call3_call0_v0, main_call3_call0_v1, main_call3_v4, main_call3_v5, main_call3_cst_2, main_call3_v6,
   main_call3_v7, main_v103]
theorem wr2_1 : Writes (τ := τ) (hostOps2_1 (F := Ideal)) wl2_1 := by
  repeat (first | exact List.Forall₂.nil | refine List.Forall₂.cons rfl ?_)
/-- A buffer that is none of them is left alone. -/
theorem keep2_1 {r : Ref sig .tc} (hr : r ∉ wl2_1) (V : KV) : after (hostOps2_1 (F := Ideal)) V (kd r) = V (kd r) :=
  after_of_not_written wr2_1 hr V

/-! ## The regions' arrays -/

/-- Region 0's arrays, region 1's arrays. -/
abbrev ar0 : List (Ref sig .tc) := [main_v34, main_v35, main_v36]
abbrev ar1 : List (Ref sig .tc) := [main_v83, main_v84, main_v85]
theorem ar0_mem : ∀ w : Fin cfg0.W, Pipeline.arrRef spec0 w ∈ ar0 := by decide
theorem ar1_mem : ∀ w : Fin cfg1.W, Pipeline.arrRef spec1 w ∈ ar1 := by decide

section Run
variable (m : (ℓ : Loc nD τ sig) → Buf (Elt Ideal) ℓ) (ρ : Dev nD → PrngReg) (c : Dev nD)

/-- A region leaves alone every buffer that is not one of its arrays. -/
theorem keepR0 {r : Ref sig .tc} (hr : r ∉ ar0) : W4 (F := Ideal) m ρ c (kd r) = W3 (F := Ideal) m ρ c (kd r) :=
  W4_of_ne m ρ c r fun w e => hr (e ▸ ar0_mem w)
theorem keepR1 {r : Ref sig .tc} (hr : r ∉ ar1) : W10 (F := Ideal) m ρ c (kd r) = W9 (F := Ideal) m ρ c (kd r) :=
  W10_of_ne m ρ c r fun w e => hr (e ▸ ar1_mem w)

/-! ## A buffer nothing writes holds its launch contents at every boundary -/

/-- No stretch up to the third region's entry has it among its results, and it is no array of the first two regions. -/
abbrev Unw (r : Ref sig .tc) : Prop :=
  r ∉ wl0 ∧ r ∉ wl0_1 ∧ r ∉ wl0_2 ∧ r ∉ ar0 ∧ r ∉ wl1 ∧ r ∉ wl1_1 ∧ r ∉ wl1_2 ∧ r ∉ wl1_3 ∧ r ∉ wl1_4 ∧ r ∉ ar1
    ∧ r ∉ wl2 ∧ r ∉ wl2_1

theorem toW1 {r : Ref sig .tc} (h : Unw r) : W1 (F := Ideal) m ρ c (kd r) = W0 (F := Ideal) m ρ c (kd r) :=
  keep0 h.1 _
theorem toW2 {r : Ref sig .tc} (h : Unw r) : W2 (F := Ideal) m ρ c (kd r) = W0 (F := Ideal) m ρ c (kd r) :=
  (keep0_1 h.2.1 _).trans (toW1 m ρ c h)
theorem toW3 {r : Ref sig .tc} (h : Unw r) : W3 (F := Ideal) m ρ c (kd r) = W0 (F := Ideal) m ρ c (kd r) :=
  (keep0_2 h.2.2.1 _).trans (toW2 m ρ c h)
theorem toW4 {r : Ref sig .tc} (h : Unw r) : W4 (F := Ideal) m ρ c (kd r) = W0 (F := Ideal) m ρ c (kd r) :=
  (keepR0 m ρ c h.2.2.2.1).trans (toW3 m ρ c h)
theorem toW5 {r : Ref sig .tc} (h : Unw r) : W5 (F := Ideal) m ρ c (kd r) = W0 (F := Ideal) m ρ c (kd r) :=
  (keep1 h.2.2.2.2.1 _).trans (toW4 m ρ c h)
theorem toW6 {r : Ref sig .tc} (h : Unw r) : W6 (F := Ideal) m ρ c (kd r) = W0 (F := Ideal) m ρ c (kd r) :=
  (keep1_1 h.2.2.2.2.2.1 _).trans (toW5 m ρ c h)
theorem toW7 {r : Ref sig .tc} (h : Unw r) : W7 (F := Ideal) m ρ c (kd r) = W0 (F := Ideal) m ρ c (kd r) :=
  (keep1_2 h.2.2.2.2.2.2.1 _).trans (toW6 m ρ c h)
theorem toW8 {r : Ref sig .tc} (h : Unw r) : W8 (F := Ideal) m ρ c (kd r) = W0 (F := Ideal) m ρ c (kd r) :=
  (keep1_3 h.2.2.2.2.2.2.2.1 _).trans (toW7 m ρ c h)
theorem toW9 {r : Ref sig .tc} (h : Unw r) : W9 (F := Ideal) m ρ c (kd r) = W0 (F := Ideal) m ρ c (kd r) :=
  (keep1_4 h.2.2.2.2.2.2.2.2.1 _).trans (toW8 m ρ c h)
theorem toW10 {r : Ref sig .tc} (h : Unw r) : W10 (F := Ideal) m ρ c (kd r) = W0 (F := Ideal) m ρ c (kd r) :=
  (keepR1 m ρ c h.2.2.2.2.2.2.2.2.2.1).trans (toW9 m ρ c h)
theorem toW11 {r : Ref sig .tc} (h : Unw r) : W11 (F := Ideal) m ρ c (kd r) = W0 (F := Ideal) m ρ c (kd r) :=
  (keep2 h.2.2.2.2.2.2.2.2.2.2.1 _).trans (toW10 m ρ c h)
theorem toW12 {r : Ref sig .tc} (h : Unw r) : W12 (F := Ideal) m ρ c (kd r) = W0 (F := Ideal) m ρ c (kd r) :=
  (keep2_1 h.2.2.2.2.2.2.2.2.2.2.2 _).trans (toW11 m ρ c h)

/-! ## The list -/

/-! The stretch between the first stretch and the first region's entry -/
theorem kk1_v8 : W2 (F := Ideal) m ρ c (kd main_v8) = W1 (F := Ideal) m ρ c (kd main_v8) :=
  keep0_1 (by decide) _
theorem kk1_v10 : W2 (F := Ideal) m ρ c (kd main_v10) = W1 (F := Ideal) m ρ c (kd main_v10) :=
  keep0_1 (by decide) _
theorem kk1_v6 : W2 (F := Ideal) m ρ c (kd main_v6) = W1 (F := Ideal) m ρ c (kd main_v6) :=
  keep0_1 (by decide) _
theorem kk1_arg3 : W2 (F := Ideal) m ρ c (kd main_arg3) = W0 (F := Ideal) m ρ c (kd main_arg3) :=
  toW2 m ρ c (by decide)
theorem kk1_arg5 : W2 (F := Ideal) m ρ c (kd main_arg5) = W0 (F := Ideal) m ρ c (kd main_arg5) :=
  toW2 m ρ c (by decide)

/-! Up to the first region's exit -/
theorem kk2_v8 : W4 (F := Ideal) m ρ c (kd main_v8) = W1 (F := Ideal) m ρ c (kd main_v8) :=
  (keepR0 m ρ c (by decide)).trans ((keep0_2 (by decide) _).trans (keep0_1 (by decide) _))
theorem kk2_v10 : W4 (F := Ideal) m ρ c (kd main_v10) = W1 (F := Ideal) m ρ c (kd main_v10) :=
  (keepR0 m ρ c (by decide)).trans ((keep0_2 (by decide) _).trans (keep0_1 (by decide) _))
theorem kk2_v33 : W4 (F := Ideal) m ρ c (kd main_v33) = W3 (F := Ideal) m ρ c (kd main_v33) :=
  keepR0 m ρ c (by decide)
theorem kk2_arg6 : W4 (F := Ideal) m ρ c (kd main_arg6) = W0 (F := Ideal) m ρ c (kd main_arg6) :=
  toW4 m ρ c (by decide)

/-! Up to the end of the second stretch after the first region -/
theorem kk3_arg2 : W6 (F := Ideal) m ρ c (kd main_arg2) = W0 (F := Ideal) m ρ c (kd main_arg2) :=
  toW6 m ρ c (by decide)

/-! Up to the end of the fourth stretch after the first region -/
theorem kk4_v57 : W8 (F := Ideal) m ρ c (kd main_v57) = W7 (F := Ideal) m ρ c (kd main_v57) :=
  keep1_3 (by decide) _
theorem kk4_v59 : W8 (F := Ideal) m ρ c (kd main_v59) = W7 (F := Ideal) m ρ c (kd main_v59) :=
  keep1_3 (by decide) _
theorem kk4_v55 : W8 (F := Ideal) m ρ c (kd main_v55) = W7 (F := Ideal) m ρ c (kd main_v55) :=
  keep1_3 (by decide) _
theorem kk4_v54 : W8 (F := Ideal) m ρ c (kd main_v54) = W6 (F := Ideal) m ρ c (kd main_v54) :=
  (keep1_3 (by decide) _).trans (keep1_2 (by decide) _)
theorem kk4_arg7 : W8 (F := Ideal) m ρ c (kd main_arg7) = W0 (F := Ideal) m ρ c (kd main_arg7) :=
  toW8 m ρ c (by decide)

/-! Up to the second region's exit -/
theorem kk5_v57 : W10 (F := Ideal) m ρ c (kd main_v57) = W7 (F := Ideal) m ρ c (kd main_v57) :=
  (keepR1 m ρ c (by decide)).trans ((keep1_4 (by decide) _).trans (keep1_3 (by decide) _))
theorem kk5_v59 : W10 (F := Ideal) m ρ c (kd main_v59) = W7 (F := Ideal) m ρ c (kd main_v59) :=
  (keepR1 m ρ c (by decide)).trans ((keep1_4 (by decide) _).trans (keep1_3 (by decide) _))
theorem kk5_v82 : W10 (F := Ideal) m ρ c (kd main_v82) = W9 (F := Ideal) m ρ c (kd main_v82) :=
  keepR1 m ρ c (by decide)
theorem kk5_arg8 : W10 (F := Ideal) m ρ c (kd main_arg8) = W0 (F := Ideal) m ρ c (kd main_arg8) :=
  toW10 m ρ c (by decide)

/-! Up to the end of the second stretch after the second region -/
theorem kk6_arg1 : W12 (F := Ideal) m ρ c (kd main_arg1) = W0 (F := Ideal) m ρ c (kd main_arg1) :=
  toW12 m ρ c (by decide)
theorem kk6_arg9 : W12 (F := Ideal) m ρ c (kd main_arg9) = W0 (F := Ideal) m ρ c (kd main_arg9) :=
  toW12 m ρ c (by decide)
theorem kk6_arg10 : W12 (F := Ideal) m ρ c (kd main_arg10) = W0 (F := Ideal) m ρ c (kd main_arg10) :=
  toW12 m ρ c (by decide)
theorem kk6_arg11 : W12 (F := Ideal) m ρ c (kd main_arg11) = W0 (F := Ideal) m ρ c (kd main_arg11) :=
  toW12 m ρ c (by decide)
theorem kk6_arg12 : W12 (F := Ideal) m ρ c (kd main_arg12) = W0 (F := Ideal) m ρ c (kd main_arg12) :=
  toW12 m ρ c (by decide)
theorem kk6_arg13 : W12 (F := Ideal) m ρ c (kd main_arg13) = W0 (F := Ideal) m ρ c (kd main_arg13) :=
  toW12 m ρ c (by decide)
theorem kk6_arg14 : W12 (F := Ideal) m ρ c (kd main_arg14) = W0 (F := Ideal) m ρ c (kd main_arg14) :=
  toW12 m ρ c (by decide)

end Run

end Cert.Bridge

end
-- ==== Proof.KeepR.lean ====
/-
  Which buffers each segment of the reference's line of host operations leaves untouched.

  Every operation of the line writes exactly one buffer, its result. A buffer that is the result of no operation of a
  segment holds after the segment what it held before it; over several segments in a row the equations chain. The
  program's arguments are the result of no operation at all, so they hold their launch contents throughout; an
  intermediate result holds, after the later segments that do not write it, what the segment that computed it left.
  Last, the fold over the whole line, cut into three stretches of segments, is the fold segment by segment.
-/
import proofs.«150106_j66537633350122_2_alg».proof.Proof.Vals
import proofs.«150106_j66537633350122_2_alg».proof.Proof.LibAfter
import proofs.«150106_j66537633350122_2_alg».proof.Proof.RefOps

noncomputable section

namespace Cert.Bridge

open Idealize.ShloMosaic Idealize.ShloMosaic.StableHlo
open Cert.ReferenceIdeal Cert.ReferenceIdeal.Hand

/-! ## What each segment writes, operation by operation -/

/-- The buffers segment 0 writes, in the order of its operations. -/
def rwr0 : List (Ref Cert.ReferenceIdeal.sig .tc) :=
  [main_c, main_v0, main_v1, main_c_0, main_v2, main_v3, main_v4, main_v5, main_v6, main_v7, main_v8, main_v9, main_v10, main_cst, main_v11, main_v12, main_v13, main_cst_1, main_v14, main_v15, main_v16, main_cst_2, main_v17, main_v18, main_cst_3]

theorem rwrites0 : Cert.LibAfter.Writes (r0 (F := Ideal)) rwr0 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))

/-- A buffer segment 0 does not write holds after it what it held before. -/
theorem rkeep0 (b : Ref Cert.ReferenceIdeal.sig .tc) (hb : b ∉ rwr0) (V : RV) : after (r0 (F := Ideal)) V (rd b) = V (rd b) :=
  Cert.LibAfter.after_of_not_written rwrites0 hb V

/-- The buffers segment 1 writes, in the order of its operations. -/
def rwr1 : List (Ref Cert.ReferenceIdeal.sig .tc) :=
  [main_call0.v0.ref, main_call0.v1.ref, main_call0.v2.ref]

theorem rwrites1 : Cert.LibAfter.Writes (r1 (F := Ideal)) rwr1 :=
  .cons rfl (.cons rfl (.cons rfl (.nil)))

/-- A buffer segment 1 does not write holds after it what it held before. -/
theorem rkeep1 (b : Ref Cert.ReferenceIdeal.sig .tc) (hb : b ∉ rwr1) (V : RV) : after (r1 (F := Ideal)) V (rd b) = V (rd b) :=
  Cert.LibAfter.after_of_not_written rwrites1 hb V

/-- The buffers segment 2 writes, in the order of its operations. -/
def rwr2 : List (Ref Cert.ReferenceIdeal.sig .tc) :=
  [main_c_4, main_v20, main_v21, main_c_5, main_v22, main_v23, main_v24, main_v25, main_v26, main_v27, main_c_6, main_v28, main_v29, main_c_7, main_v30, main_v31, main_v32, main_v33, main_v34, main_v35]

theorem rwrites2 : Cert.LibAfter.Writes (r2 (F := Ideal)) rwr2 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))

/-- A buffer segment 2 does not write holds after it what it held before. -/
theorem rkeep2 (b : Ref Cert.ReferenceIdeal.sig .tc) (hb : b ∉ rwr2) (V : RV) : after (r2 (F := Ideal)) V (rd b) = V (rd b) :=
  Cert.LibAfter.after_of_not_written rwrites2 hb V

/-- The buffers segment 3 writes, in the order of its operations. -/
def rwr3 : List (Ref Cert.ReferenceIdeal.sig .tc) :=
  [main_v36]

theorem rwrites3 : Cert.LibAfter.Writes (r3 (F := Ideal)) rwr3 :=
  .cons rfl (.nil)

/-- A buffer segment 3 does not write holds after it what it held before. -/
theorem rkeep3 (b : Ref Cert.ReferenceIdeal.sig .tc) (hb : b ∉ rwr3) (V : RV) : after (r3 (F := Ideal)) V (rd b) = V (rd b) :=
  Cert.LibAfter.after_of_not_written rwrites3 hb V

/-- The buffers segment 4 writes, in the order of its operations. -/
def rwr4 : List (Ref Cert.ReferenceIdeal.sig .tc) :=
  [main_c_8, main_v37, main_v38, main_c_9, main_v39, main_v40, main_v41, main_v42, main_v43, main_v44, main_v45, main_v46, main_cst_10, main_v47, main_v48, main_v49, main_v50, main_v51, main_v52]

theorem rwrites4 : Cert.LibAfter.Writes (r4 (F := Ideal)) rwr4 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))

/-- A buffer segment 4 does not write holds after it what it held before. -/
theorem rkeep4 (b : Ref Cert.ReferenceIdeal.sig .tc) (hb : b ∉ rwr4) (V : RV) : after (r4 (F := Ideal)) V (rd b) = V (rd b) :=
  Cert.LibAfter.after_of_not_written rwrites4 hb V

/-- The buffers segment 5 writes, in the order of its operations. -/
def rwr5 : List (Ref Cert.ReferenceIdeal.sig .tc) :=
  [main_call1.cst.ref, main_call1.v0.ref, main_call1.v1.ref, main_call1.cst_0.ref, main_call1.v2.ref, main_call1.v3.ref, main_call1.cst_1.ref, main_call1.call0.v0.ref, main_call1.call0.v1.ref, main_call1.call0.v2.ref, main_call1.v5.ref, main_call1.cst_2.ref, main_call1.v6.ref, main_call1.v7.ref, main_call1.call1.v0.ref]

theorem rwrites5 : Cert.LibAfter.Writes (r5 (F := Ideal)) rwr5 :=
  .cons rfl (.cons rfl (.cons rfl (.cons rfl (.cons rfl (.cons rfl (.cons rfl (.cons rfl (.cons rfl (.cons rfl (.cons rfl (.cons rfl (.cons rfl (.cons rfl (.cons rfl (.nil)))))))))))))))

/-- A buffer segment 5 does not write holds after it what it held before. -/
theorem rkeep5 (b : Ref Cert.ReferenceIdeal.sig .tc) (hb : b ∉ rwr5) (V : RV) : after (r5 (F := Ideal)) V (rd b) = V (rd b) :=
  Cert.LibAfter.after_of_not_written rwrites5 hb V

/-- The buffers segment 6 writes, in the order of its operations. -/
def rwr6 : List (Ref Cert.ReferenceIdeal.sig .tc) :=
  [main_cst_11, main_v54, main_v55, main_v56, main_v57, main_v58, main_cst_12, main_v59, main_v60, main_v61, main_cst_13, main_v62, main_v63, main_v64, main_cst_14, main_v65, main_v66, main_cst_15]

theorem rwrites6 : Cert.LibAfter.Writes (r6 (F := Ideal)) rwr6 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))

/-- A buffer segment 6 does not write holds after it what it held before. -/
theorem rkeep6 (b : Ref Cert.ReferenceIdeal.sig .tc) (hb : b ∉ rwr6) (V : RV) : after (r6 (F := Ideal)) V (rd b) = V (rd b) :=
  Cert.LibAfter.after_of_not_written rwrites6 hb V

/-- The buffers segment 7 writes, in the order of its operations. -/
def rwr7 : List (Ref Cert.ReferenceIdeal.sig .tc) :=
  [main_call2.v0.ref, main_call2.v1.ref, main_call2.v2.ref]

theorem rwrites7 : Cert.LibAfter.Writes (r7 (F := Ideal)) rwr7 :=
  .cons rfl (.cons rfl (.cons rfl (.nil)))

/-- A buffer segment 7 does not write holds after it what it held before. -/
theorem rkeep7 (b : Ref Cert.ReferenceIdeal.sig .tc) (hb : b ∉ rwr7) (V : RV) : after (r7 (F := Ideal)) V (rd b) = V (rd b) :=
  Cert.LibAfter.after_of_not_written rwrites7 hb V

/-- The buffers segment 8 writes, in the order of its operations. -/
def rwr8 : List (Ref Cert.ReferenceIdeal.sig .tc) :=
  [main_c_16, main_v68, main_v69, main_c_17, main_v70, main_v71, main_v72, main_v73, main_v74, main_v75, main_c_18, main_v76, main_v77, main_c_19, main_v78, main_v79, main_v80, main_v81, main_v82, main_v83]

theorem rwrites8 : Cert.LibAfter.Writes (r8 (F := Ideal)) rwr8 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))

/-- A buffer segment 8 does not write holds after it what it held before. -/
theorem rkeep8 (b : Ref Cert.ReferenceIdeal.sig .tc) (hb : b ∉ rwr8) (V : RV) : after (r8 (F := Ideal)) V (rd b) = V (rd b) :=
  Cert.LibAfter.after_of_not_written rwrites8 hb V

/-- The buffers segment 9 writes, in the order of its operations. -/
def rwr9 : List (Ref Cert.ReferenceIdeal.sig .tc) :=
  [main_v84]

theorem rwrites9 : Cert.LibAfter.Writes (r9 (F := Ideal)) rwr9 :=
  .cons rfl (.nil)

/-- A buffer segment 9 does not write holds after it what it held before. -/
theorem rkeep9 (b : Ref Cert.ReferenceIdeal.sig .tc) (hb : b ∉ rwr9) (V : RV) : after (r9 (F := Ideal)) V (rd b) = V (rd b) :=
  Cert.LibAfter.after_of_not_written rwrites9 hb V

/-- The buffers segment 10 writes, in the order of its operations. -/
def rwr10 : List (Ref Cert.ReferenceIdeal.sig .tc) :=
  [main_c_20, main_v85, main_v86, main_c_21, main_v87, main_v88, main_v89, main_v90, main_v91, main_v92, main_v93, main_v94, main_cst_22, main_v95, main_v96, main_v97, main_v98, main_v99, main_v100]

theorem rwrites10 : Cert.LibAfter.Writes (r10 (F := Ideal)) rwr10 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))

/-- A buffer segment 10 does not write holds after it what it held before. -/
theorem rkeep10 (b : Ref Cert.ReferenceIdeal.sig .tc) (hb : b ∉ rwr10) (V : RV) : after (r10 (F := Ideal)) V (rd b) = V (rd b) :=
  Cert.LibAfter.after_of_not_written rwrites10 hb V

/-- The buffers segment 11 writes, in the order of its operations. -/
def rwr11 : List (Ref Cert.ReferenceIdeal.sig .tc) :=
  [main_call3.cst.ref, main_call3.v0.ref, main_call3.v1.ref, main_call3.cst_0.ref, main_call3.v2.ref, main_call3.v3.ref, main_call3.cst_1.ref, main_call3.call0.v0.ref, main_call3.call0.v1.ref, main_call3.call0.v2.ref, main_call3.v5.ref, main_call3.cst_2.ref, main_call3.v6.ref, main_call3.v7.ref, main_call3.call1.v0.ref]

theorem rwrites11 : Cert.LibAfter.Writes (r11 (F := Ideal)) rwr11 :=
  .cons rfl (.cons rfl (.cons rfl (.cons rfl (.cons rfl (.cons rfl (.cons rfl (.cons rfl (.cons rfl (.cons rfl (.cons rfl (.cons rfl (.cons rfl (.cons rfl (.cons rfl (.nil)))))))))))))))

/-- A buffer segment 11 does not write holds after it what it held before. -/
theorem rkeep11 (b : Ref Cert.ReferenceIdeal.sig .tc) (hb : b ∉ rwr11) (V : RV) : after (r11 (F := Ideal)) V (rd b) = V (rd b) :=
  Cert.LibAfter.after_of_not_written rwrites11 hb V

/-- The buffers segment 12 writes, in the order of its operations. -/
def rwr12 : List (Ref Cert.ReferenceIdeal.sig .tc) :=
  [main_v102, main_v103, main_v104, main_v105, main_c_23, main_v106, main_v107, main_c_24, main_v108, main_v109, main_v110, main_v111, main_v112, main_c_25, main_v113, main_v114, main_c_26, main_v115, main_v116, main_v117, main_v118, main_v119]

theorem rwrites12 : Cert.LibAfter.Writes (r12 (F := Ideal)) rwr12 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))

/-- A buffer segment 12 does not write holds after it what it held before. -/
theorem rkeep12 (b : Ref Cert.ReferenceIdeal.sig .tc) (hb : b ∉ rwr12) (V : RV) : after (r12 (F := Ideal)) V (rd b) = V (rd b) :=
  Cert.LibAfter.after_of_not_written rwrites12 hb V

/-! ## The buffers the bridge reads later than they were written -/

variable (X : RV)

theorem rk1_v8 : X2 X (rd main_v8) = X1 X (rd main_v8) :=
  (rkeep1 main_v8 (by decide) (X1 X))

theorem rk1_v10 : X2 X (rd main_v10) = X1 X (rd main_v10) :=
  (rkeep1 main_v10 (by decide) (X1 X))

theorem rk1_v6 : X2 X (rd main_v6) = X1 X (rd main_v6) :=
  (rkeep1 main_v6 (by decide) (X1 X))

theorem rk1_arg3 : X2 X (rd main_arg3) = X (rd main_arg3) :=
  ((rkeep1 main_arg3 (by decide) (X1 X)).trans (rkeep0 main_arg3 (by decide) X))

theorem rk1_arg5 : X2 X (rd main_arg5) = X (rd main_arg5) :=
  ((rkeep1 main_arg5 (by decide) (X1 X)).trans (rkeep0 main_arg5 (by decide) X))

theorem rk2_v8 : X4 X (rd main_v8) = X1 X (rd main_v8) :=
  ((rkeep3 main_v8 (by decide) (X3 X)).trans ((rkeep2 main_v8 (by decide) (X2 X)).trans (rkeep1 main_v8 (by decide) (X1 X))))

theorem rk2_v10 : X4 X (rd main_v10) = X1 X (rd main_v10) :=
  ((rkeep3 main_v10 (by decide) (X3 X)).trans ((rkeep2 main_v10 (by decide) (X2 X)).trans (rkeep1 main_v10 (by decide) (X1 X))))

theorem rk2_v35 : X4 X (rd main_v35) = X3 X (rd main_v35) :=
  (rkeep3 main_v35 (by decide) (X3 X))

theorem rk2_arg6 : X4 X (rd main_arg6) = X (rd main_arg6) :=
  ((rkeep3 main_arg6 (by decide) (X3 X)).trans ((rkeep2 main_arg6 (by decide) (X2 X)).trans ((rkeep1 main_arg6 (by decide) (X1 X)).trans (rkeep0 main_arg6 (by decide) X))))

theorem rk2_arg5 : X3 X (rd main_arg5) = X (rd main_arg5) :=
  ((rkeep2 main_arg5 (by decide) (X2 X)).trans ((rkeep1 main_arg5 (by decide) (X1 X)).trans (rkeep0 main_arg5 (by decide) X)))

theorem rk3_arg2 : X6 X (rd main_arg2) = X (rd main_arg2) :=
  ((rkeep5 main_arg2 (by decide) (X5 X)).trans ((rkeep4 main_arg2 (by decide) (X4 X)).trans ((rkeep3 main_arg2 (by decide) (X3 X)).trans ((rkeep2 main_arg2 (by decide) (X2 X)).trans ((rkeep1 main_arg2 (by decide) (X1 X)).trans (rkeep0 main_arg2 (by decide) X))))))

theorem rk4_v56 : X8 X (rd main_v56) = X7 X (rd main_v56) :=
  (rkeep7 main_v56 (by decide) (X7 X))

theorem rk4_v58 : X8 X (rd main_v58) = X7 X (rd main_v58) :=
  (rkeep7 main_v58 (by decide) (X7 X))

theorem rk4_v54 : X8 X (rd main_v54) = X7 X (rd main_v54) :=
  (rkeep7 main_v54 (by decide) (X7 X))

theorem rk4_v53 : X8 X (rd main_v53) = X6 X (rd main_v53) :=
  ((rkeep7 main_v53 (by decide) (X7 X)).trans (rkeep6 main_v53 (by decide) (X6 X)))

theorem rk4_arg7 : X8 X (rd main_arg7) = X (rd main_arg7) :=
  ((rkeep7 main_arg7 (by decide) (X7 X)).trans ((rkeep6 main_arg7 (by decide) (X6 X)).trans ((rkeep5 main_arg7 (by decide) (X5 X)).trans ((rkeep4 main_arg7 (by decide) (X4 X)).trans ((rkeep3 main_arg7 (by decide) (X3 X)).trans ((rkeep2 main_arg7 (by decide) (X2 X)).trans ((rkeep1 main_arg7 (by decide) (X1 X)).trans (rkeep0 main_arg7 (by decide) X))))))))

theorem rk4_arg7' : X9 X (rd main_arg7) = X (rd main_arg7) :=
  ((rkeep8 main_arg7 (by decide) (X8 X)).trans ((rkeep7 main_arg7 (by decide) (X7 X)).trans ((rkeep6 main_arg7 (by decide) (X6 X)).trans ((rkeep5 main_arg7 (by decide) (X5 X)).trans ((rkeep4 main_arg7 (by decide) (X4 X)).trans ((rkeep3 main_arg7 (by decide) (X3 X)).trans ((rkeep2 main_arg7 (by decide) (X2 X)).trans ((rkeep1 main_arg7 (by decide) (X1 X)).trans (rkeep0 main_arg7 (by decide) X)))))))))

theorem rk5_v56 : X10 X (rd main_v56) = X7 X (rd main_v56) :=
  ((rkeep9 main_v56 (by decide) (X9 X)).trans ((rkeep8 main_v56 (by decide) (X8 X)).trans (rkeep7 main_v56 (by decide) (X7 X))))

theorem rk5_v58 : X10 X (rd main_v58) = X7 X (rd main_v58) :=
  ((rkeep9 main_v58 (by decide) (X9 X)).trans ((rkeep8 main_v58 (by decide) (X8 X)).trans (rkeep7 main_v58 (by decide) (X7 X))))

theorem rk5_v83 : X10 X (rd main_v83) = X9 X (rd main_v83) :=
  (rkeep9 main_v83 (by decide) (X9 X))

theorem rk5_arg8 : X10 X (rd main_arg8) = X (rd main_arg8) :=
  ((rkeep9 main_arg8 (by decide) (X9 X)).trans ((rkeep8 main_arg8 (by decide) (X8 X)).trans ((rkeep7 main_arg8 (by decide) (X7 X)).trans ((rkeep6 main_arg8 (by decide) (X6 X)).trans ((rkeep5 main_arg8 (by decide) (X5 X)).trans ((rkeep4 main_arg8 (by decide) (X4 X)).trans ((rkeep3 main_arg8 (by decide) (X3 X)).trans ((rkeep2 main_arg8 (by decide) (X2 X)).trans ((rkeep1 main_arg8 (by decide) (X1 X)).trans (rkeep0 main_arg8 (by decide) X))))))))))

theorem rk6_arg1 : X12 X (rd main_arg1) = X (rd main_arg1) :=
  ((rkeep11 main_arg1 (by decide) (X11 X)).trans ((rkeep10 main_arg1 (by decide) (X10 X)).trans ((rkeep9 main_arg1 (by decide) (X9 X)).trans ((rkeep8 main_arg1 (by decide) (X8 X)).trans ((rkeep7 main_arg1 (by decide) (X7 X)).trans ((rkeep6 main_arg1 (by decide) (X6 X)).trans ((rkeep5 main_arg1 (by decide) (X5 X)).trans ((rkeep4 main_arg1 (by decide) (X4 X)).trans ((rkeep3 main_arg1 (by decide) (X3 X)).trans ((rkeep2 main_arg1 (by decide) (X2 X)).trans ((rkeep1 main_arg1 (by decide) (X1 X)).trans (rkeep0 main_arg1 (by decide) X))))))))))))

theorem rk6_arg9 : X12 X (rd main_arg9) = X (rd main_arg9) :=
  ((rkeep11 main_arg9 (by decide) (X11 X)).trans ((rkeep10 main_arg9 (by decide) (X10 X)).trans ((rkeep9 main_arg9 (by decide) (X9 X)).trans ((rkeep8 main_arg9 (by decide) (X8 X)).trans ((rkeep7 main_arg9 (by decide) (X7 X)).trans ((rkeep6 main_arg9 (by decide) (X6 X)).trans ((rkeep5 main_arg9 (by decide) (X5 X)).trans ((rkeep4 main_arg9 (by decide) (X4 X)).trans ((rkeep3 main_arg9 (by decide) (X3 X)).trans ((rkeep2 main_arg9 (by decide) (X2 X)).trans ((rkeep1 main_arg9 (by decide) (X1 X)).trans (rkeep0 main_arg9 (by decide) X))))))))))))

theorem rk6_arg10 : X12 X (rd main_arg10) = X (rd main_arg10) :=
  ((rkeep11 main_arg10 (by decide) (X11 X)).trans ((rkeep10 main_arg10 (by decide) (X10 X)).trans ((rkeep9 main_arg10 (by decide) (X9 X)).trans ((rkeep8 main_arg10 (by decide) (X8 X)).trans ((rkeep7 main_arg10 (by decide) (X7 X)).trans ((rkeep6 main_arg10 (by decide) (X6 X)).trans ((rkeep5 main_arg10 (by decide) (X5 X)).trans ((rkeep4 main_arg10 (by decide) (X4 X)).trans ((rkeep3 main_arg10 (by decide) (X3 X)).trans ((rkeep2 main_arg10 (by decide) (X2 X)).trans ((rkeep1 main_arg10 (by decide) (X1 X)).trans (rkeep0 main_arg10 (by decide) X))))))))))))

theorem rk6_arg11 : X12 X (rd main_arg11) = X (rd main_arg11) :=
  ((rkeep11 main_arg11 (by decide) (X11 X)).trans ((rkeep10 main_arg11 (by decide) (X10 X)).trans ((rkeep9 main_arg11 (by decide) (X9 X)).trans ((rkeep8 main_arg11 (by decide) (X8 X)).trans ((rkeep7 main_arg11 (by decide) (X7 X)).trans ((rkeep6 main_arg11 (by decide) (X6 X)).trans ((rkeep5 main_arg11 (by decide) (X5 X)).trans ((rkeep4 main_arg11 (by decide) (X4 X)).trans ((rkeep3 main_arg11 (by decide) (X3 X)).trans ((rkeep2 main_arg11 (by decide) (X2 X)).trans ((rkeep1 main_arg11 (by decide) (X1 X)).trans (rkeep0 main_arg11 (by decide) X))))))))))))

theorem rk6_arg12 : X12 X (rd main_arg12) = X (rd main_arg12) :=
  ((rkeep11 main_arg12 (by decide) (X11 X)).trans ((rkeep10 main_arg12 (by decide) (X10 X)).trans ((rkeep9 main_arg12 (by decide) (X9 X)).trans ((rkeep8 main_arg12 (by decide) (X8 X)).trans ((rkeep7 main_arg12 (by decide) (X7 X)).trans ((rkeep6 main_arg12 (by decide) (X6 X)).trans ((rkeep5 main_arg12 (by decide) (X5 X)).trans ((rkeep4 main_arg12 (by decide) (X4 X)).trans ((rkeep3 main_arg12 (by decide) (X3 X)).trans ((rkeep2 main_arg12 (by decide) (X2 X)).trans ((rkeep1 main_arg12 (by decide) (X1 X)).trans (rkeep0 main_arg12 (by decide) X))))))))))))

theorem rk6_arg13 : X12 X (rd main_arg13) = X (rd main_arg13) :=
  ((rkeep11 main_arg13 (by decide) (X11 X)).trans ((rkeep10 main_arg13 (by decide) (X10 X)).trans ((rkeep9 main_arg13 (by decide) (X9 X)).trans ((rkeep8 main_arg13 (by decide) (X8 X)).trans ((rkeep7 main_arg13 (by decide) (X7 X)).trans ((rkeep6 main_arg13 (by decide) (X6 X)).trans ((rkeep5 main_arg13 (by decide) (X5 X)).trans ((rkeep4 main_arg13 (by decide) (X4 X)).trans ((rkeep3 main_arg13 (by decide) (X3 X)).trans ((rkeep2 main_arg13 (by decide) (X2 X)).trans ((rkeep1 main_arg13 (by decide) (X1 X)).trans (rkeep0 main_arg13 (by decide) X))))))))))))

theorem rk6_arg14 : X12 X (rd main_arg14) = X (rd main_arg14) :=
  ((rkeep11 main_arg14 (by decide) (X11 X)).trans ((rkeep10 main_arg14 (by decide) (X10 X)).trans ((rkeep9 main_arg14 (by decide) (X9 X)).trans ((rkeep8 main_arg14 (by decide) (X8 X)).trans ((rkeep7 main_arg14 (by decide) (X7 X)).trans ((rkeep6 main_arg14 (by decide) (X6 X)).trans ((rkeep5 main_arg14 (by decide) (X5 X)).trans ((rkeep4 main_arg14 (by decide) (X4 X)).trans ((rkeep3 main_arg14 (by decide) (X3 X)).trans ((rkeep2 main_arg14 (by decide) (X2 X)).trans ((rkeep1 main_arg14 (by decide) (X1 X)).trans (rkeep0 main_arg14 (by decide) X))))))))))))

theorem rk7_arg9 : X13 X (rd main_arg9) = X (rd main_arg9) :=
  ((rkeep12 main_arg9 (by decide) (X12 X)).trans ((rkeep11 main_arg9 (by decide) (X11 X)).trans ((rkeep10 main_arg9 (by decide) (X10 X)).trans ((rkeep9 main_arg9 (by decide) (X9 X)).trans ((rkeep8 main_arg9 (by decide) (X8 X)).trans ((rkeep7 main_arg9 (by decide) (X7 X)).trans ((rkeep6 main_arg9 (by decide) (X6 X)).trans ((rkeep5 main_arg9 (by decide) (X5 X)).trans ((rkeep4 main_arg9 (by decide) (X4 X)).trans ((rkeep3 main_arg9 (by decide) (X3 X)).trans ((rkeep2 main_arg9 (by decide) (X2 X)).trans ((rkeep1 main_arg9 (by decide) (X1 X)).trans (rkeep0 main_arg9 (by decide) X)))))))))))))

theorem rk7_arg10 : X13 X (rd main_arg10) = X (rd main_arg10) :=
  ((rkeep12 main_arg10 (by decide) (X12 X)).trans ((rkeep11 main_arg10 (by decide) (X11 X)).trans ((rkeep10 main_arg10 (by decide) (X10 X)).trans ((rkeep9 main_arg10 (by decide) (X9 X)).trans ((rkeep8 main_arg10 (by decide) (X8 X)).trans ((rkeep7 main_arg10 (by decide) (X7 X)).trans ((rkeep6 main_arg10 (by decide) (X6 X)).trans ((rkeep5 main_arg10 (by decide) (X5 X)).trans ((rkeep4 main_arg10 (by decide) (X4 X)).trans ((rkeep3 main_arg10 (by decide) (X3 X)).trans ((rkeep2 main_arg10 (by decide) (X2 X)).trans ((rkeep1 main_arg10 (by decide) (X1 X)).trans (rkeep0 main_arg10 (by decide) X)))))))))))))

theorem rk7_arg11 : X13 X (rd main_arg11) = X (rd main_arg11) :=
  ((rkeep12 main_arg11 (by decide) (X12 X)).trans ((rkeep11 main_arg11 (by decide) (X11 X)).trans ((rkeep10 main_arg11 (by decide) (X10 X)).trans ((rkeep9 main_arg11 (by decide) (X9 X)).trans ((rkeep8 main_arg11 (by decide) (X8 X)).trans ((rkeep7 main_arg11 (by decide) (X7 X)).trans ((rkeep6 main_arg11 (by decide) (X6 X)).trans ((rkeep5 main_arg11 (by decide) (X5 X)).trans ((rkeep4 main_arg11 (by decide) (X4 X)).trans ((rkeep3 main_arg11 (by decide) (X3 X)).trans ((rkeep2 main_arg11 (by decide) (X2 X)).trans ((rkeep1 main_arg11 (by decide) (X1 X)).trans (rkeep0 main_arg11 (by decide) X)))))))))))))

theorem rk7_arg12 : X13 X (rd main_arg12) = X (rd main_arg12) :=
  ((rkeep12 main_arg12 (by decide) (X12 X)).trans ((rkeep11 main_arg12 (by decide) (X11 X)).trans ((rkeep10 main_arg12 (by decide) (X10 X)).trans ((rkeep9 main_arg12 (by decide) (X9 X)).trans ((rkeep8 main_arg12 (by decide) (X8 X)).trans ((rkeep7 main_arg12 (by decide) (X7 X)).trans ((rkeep6 main_arg12 (by decide) (X6 X)).trans ((rkeep5 main_arg12 (by decide) (X5 X)).trans ((rkeep4 main_arg12 (by decide) (X4 X)).trans ((rkeep3 main_arg12 (by decide) (X3 X)).trans ((rkeep2 main_arg12 (by decide) (X2 X)).trans ((rkeep1 main_arg12 (by decide) (X1 X)).trans (rkeep0 main_arg12 (by decide) X)))))))))))))

theorem rk7_arg13 : X13 X (rd main_arg13) = X (rd main_arg13) :=
  ((rkeep12 main_arg13 (by decide) (X12 X)).trans ((rkeep11 main_arg13 (by decide) (X11 X)).trans ((rkeep10 main_arg13 (by decide) (X10 X)).trans ((rkeep9 main_arg13 (by decide) (X9 X)).trans ((rkeep8 main_arg13 (by decide) (X8 X)).trans ((rkeep7 main_arg13 (by decide) (X7 X)).trans ((rkeep6 main_arg13 (by decide) (X6 X)).trans ((rkeep5 main_arg13 (by decide) (X5 X)).trans ((rkeep4 main_arg13 (by decide) (X4 X)).trans ((rkeep3 main_arg13 (by decide) (X3 X)).trans ((rkeep2 main_arg13 (by decide) (X2 X)).trans ((rkeep1 main_arg13 (by decide) (X1 X)).trans (rkeep0 main_arg13 (by decide) X)))))))))))))

theorem rk7_arg14 : X13 X (rd main_arg14) = X (rd main_arg14) :=
  ((rkeep12 main_arg14 (by decide) (X12 X)).trans ((rkeep11 main_arg14 (by decide) (X11 X)).trans ((rkeep10 main_arg14 (by decide) (X10 X)).trans ((rkeep9 main_arg14 (by decide) (X9 X)).trans ((rkeep8 main_arg14 (by decide) (X8 X)).trans ((rkeep7 main_arg14 (by decide) (X7 X)).trans ((rkeep6 main_arg14 (by decide) (X6 X)).trans ((rkeep5 main_arg14 (by decide) (X5 X)).trans ((rkeep4 main_arg14 (by decide) (X4 X)).trans ((rkeep3 main_arg14 (by decide) (X3 X)).trans ((rkeep2 main_arg14 (by decide) (X2 X)).trans ((rkeep1 main_arg14 (by decide) (X1 X)).trans (rkeep0 main_arg14 (by decide) X)))))))))))))

/-! ## The whole line -/

/-- The fold over the whole line, cut into three stretches of segments, is the fold segment by segment. -/
theorem after_all (X : RV) :
    after ((r0 (F := Ideal)) ++ r1 ++ r2 ++ (r3 ++ r4 ++ r5 ++ r6 ++ r7 ++ r8) ++ (r9 ++ r10 ++ r11 ++ r12 ++ r13 ++ r14)) X = X15 X := by
  simp only [Cert.LibAfter.after_append]

end Cert.Bridge

end
-- ==== Proof.LibMatmulAt.lean ====
/-
  A plain matrix product accumulated into the zero splat, read at an index, for operands of any float formats; and the zero
  offsets of a rank-2 rectangle as a constant function.

  For a rank-2 contraction [a, K] · [K, b] → [a, b] (the left operand's axis 1 against the right operand's axis 0, no batch
  axis), the accumulate-into-zero matrix product is, at the result index (p, q), the sum over k < K of
  lhs (p, k) · rhs (k, q). At the ideal instance a float of every format is an extended real, so the statement does not
  depend on the operands' formats: it is the f32 statement with the two formats left as parameters. The four coordinate
  facts about a given dimension record (hl0, hl1, hr0, hr1) are taken as hypotheses: for a literal record each is a
  computation.
-/
import proofs.«150106_j66537633350122_2_alg».proof.Proof.LibPlainDot

noncomputable section

namespace Cert.Lib.MatmulAt

open Idealize.ShloMosaic Idealize.ShloMosaic.ValueIdx

/-- The offset vector (0, 0) of a rank-2 rectangle is the constant function 0: the form in which the lemmas about a
    load or a store through a whole buffer at zero offsets take the offsets. -/
theorem hz : (![0, 0] : Fin 2 → Nat) = fun _ => 0 := funext fun a => by fin_cases a <;> rfl

/-- The matrix product of an [a, K] operand of format φ₁ with a [K, b] operand of format φ₂, accumulated into the zero
    splat, is at (p, q) the sum over k < K of lhs (p, k) · rhs (k, q) — for any dimension record D that contracts the
    left operand's axis 1 against the right operand's axis 0 (hr, hs: one contracted axis, of extent K; hl0 … hr1: at
    the result index i and the contraction index k the record names the operand indices (i 0, k) and (k, i 1)). -/
theorem matmul_zero_apply {a K b : Nat} {φ₁ φ₂ : FTy}
    (D : DotDims (⟨2, ![a, K]⟩ : Shape) (⟨2, ![K, b]⟩ : Shape) (⟨2, ![a, b]⟩ : Shape))
    (hr : D.contr.rank = 1) (hs : D.contr.size ⟨0, by omega⟩ = K)
    (hl0 : ∀ (i : (⟨2, ![a, b]⟩ : Shape).Idx) (q : D.contr.Idx), (D.lhsIdx i q 0).val = (i 0).val)
    (hl1 : ∀ (i : (⟨2, ![a, b]⟩ : Shape).Idx) (q : D.contr.Idx), (D.lhsIdx i q 1).val = (q ⟨0, by omega⟩).val)
    (hr0 : ∀ (i : (⟨2, ![a, b]⟩ : Shape).Idx) (q : D.contr.Idx), (D.rhsIdx i q 0).val = (q ⟨0, by omega⟩).val)
    (hr1 : ∀ (i : (⟨2, ![a, b]⟩ : Shape).Idx) (q : D.contr.Idx), (D.rhsIdx i q 1).val = (i 1).val)
    (prec : Option ContractPrecision) (lhs : FVec Ideal (⟨2, ![a, K]⟩ : Shape) φ₁) (rhs : FVec Ideal (⟨2, ![K, b]⟩ : Shape) φ₂)
    (p : Fin a) (q : Fin b) :
    matmul D prec lhs rhs (constant (F := Ideal) (⟨2, ![a, b]⟩ : Shape) .f32 0x00000000#32) (ix2 p q)
      = ∑ k : Fin K, lhs (ix2 p k) * rhs (ix2 k q) :=
  (Ideal.matmul_constant_zero_apply D prec lhs rhs (ix2 p q)).trans
    (Cert.Lib.PlainDot.sum_contr D hr hs hl0 hl1 hr0 hr1 lhs rhs p q)

end Cert.Lib.MatmulAt

end
-- ==== Proof.Val0.lean ====
/-
  The value of matrix-product region 0 of the kernel's program: its output array after the region is the specification's
  matrix product of the two arrays the region reads.

  The region runs over 10 grid points. At point t the left operand's window holds rows 5000 t … 5000 t + 4999 of the
  [50000, 128] array, the right operand's window holds the whole [128, 256] array, and the body stores, into the output's
  window, the product of the two blocks accumulated into zero: entry (p, q) of the block is the sum over k of
  left (5000 t + p, k) · right (k, q), which is entry (5000 t + p, q) of the product of the whole arrays. So what point t
  writes back is block t of that one whole-array function; row r of the output is covered by point r / 5000; hence the
  output array ends holding the product.
-/
import proofs.«150106_j66537633350122_2_alg».proof.Proof.Gen.KernelIdeal.Frame
import proofs.«150106_j66537633350122_2_alg».proof.Proof.LibMatmulAt
import proofs.«150106_j66537633350122_2_alg».proof.Proof.Spec
import Idealize.ShloMosaic.Lib.Pipeline.Value

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/-! ## The body's payload at an index -/

/-- The body's payload at (p, q): the two casts to the same shape and the change of format are the identity, and the product
    accumulated into zero is the sum over k of x0 (p, k) · x1 (k, q). -/
theorem pay0_apply (x0 : Vec Ideal S5000x128 .bf16) (x1 : Vec Ideal S128x256 .bf16) (p : Fin 5000) (q : Fin 256) :
    k0_pay1 (F := Ideal) x0 x1 (ix2 p q) = ∑ k : Fin 128, x0 (ix2 p k) * x1 (ix2 k q) := by
  unfold k0_pay1
  show matmul dot_S5000x128_S128x256_S5000x256_1_0_0_1_n_n none (shapeCast S5000x128 x0 shapeCasts_S5000x128_S5000x128) (shapeCast S128x256 x1 shapeCasts_S128x256_S128x256)
    (constant (F := Ideal) S5000x256 .f32 0x00000000#32) (ix2 p q) = _
  rw [shapeCast_self, shapeCast_self]
  refine Cert.Lib.MatmulAt.matmul_zero_apply (a := 5000) (K := 128) (b := 256) dot_S5000x128_S128x256_S5000x256_1_0_0_1_n_n rfl rfl ?_ ?_ ?_ ?_ none x0 x1 p q
  · intro i k; simp [DotDims.lhsIdx, dot_S5000x128_S128x256_S5000x256_1_0_0_1_n_n]; rfl
  · intro i k; simp [DotDims.lhsIdx, dot_S5000x128_S128x256_S5000x256_1_0_0_1_n_n]; rfl
  · intro i k; simp [DotDims.rhsIdx, dot_S5000x128_S128x256_S5000x256_1_0_0_1_n_n]; rfl
  · intro i k; simp [DotDims.rhsIdx, dot_S5000x128_S128x256_S5000x256_1_0_0_1_n_n]; rfl

/-- The payload of two blocks, the left one rows 5000 n … of an array A and the right one a whole array B, at a block index y
    that sits at the array index i (row 5000 n + y's row, the same column), is the product of A and B at i. -/
theorem point0 (x0 : Vec Ideal S5000x128 .bf16) (x1 : Vec Ideal S128x256 .bf16)
    (A : S50000x128.Idx → EReal) (B : S128x256.Idx → EReal) (y : S5000x256.Idx) (i : S50000x256.Idx) (n : Nat)
    (hi0 : (i 0).val = n * 5000 + (y 0).val) (hi1 : (i 1).val = (y 1).val)
    (h0 : ∀ (x : S5000x128.Idx) (k : S50000x128.Idx), (k 0).val = n * 5000 + (x 0).val → (k 1).val = (x 1).val → x0 x = A k)
    (h1 : ∀ x : S128x256.Idx, x1 x = B x) :
    k0_pay1 (F := Ideal) x0 x1 y = Cert.Spec.mat A B i := by
  obtain ⟨p, q, rfl⟩ : ∃ (p : Fin 5000) (q : Fin 256), y = ix2 p q := ⟨y 0, y 1, eq_ix2 y⟩
  obtain ⟨r, s, rfl⟩ : ∃ (r : Fin 50000) (s : Fin 256), i = ix2 r s := ⟨i 0, i 1, eq_ix2 i⟩
  have hs : s = q := Fin.ext hi1
  subst hs
  rw [pay0_apply, Cert.Spec.mat_apply]
  refine Finset.sum_congr rfl fun k _ => ?_
  rw [h0 (ix2 p k) (ix2 r k) hi0 rfl, h1]

/-! ## From blocks to the array -/

section Region
variable (V : (c : Dev nD) → (b : Ref sig .tc) → Buf (Elt Ideal) ((c : Thread nD τ).loc b))

/-- The printed index maps, decided over the grid: the left operand's and the output's blocks are block t along the rows, the
    right operand's block is the whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 5000 t … 5000 t + 4999 of its array. -/
theorem iblk0_0_apply (c : Dev nD) (t : Fin cfg0.N) (x : S5000x128.Idx) (k : S50000x128.Idx)
    (hk0 : (k 0).val = t.val * 5000 + (x 0).val) (hk1 : (k 1).val = (x 1).val) :
    (iblk0 (F := Ideal) V c 0 t : Vec Ideal S5000x128 .bf16) x = (V c main_v34 : S50000x128.Idx → EReal) k := by
  obtain ⟨e0, e1, -, -, -, -⟩ := idx_facts0 t
  unfold iblk0
  rw [View.read_apply]
  show V c main_v34 _ = V c main_v34 _
  congr 1
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 128 + 1 * (x 1).val = (k 1).val; rw [e1, hk1]; omega

/-- The right operand's block at every point is its whole array. -/
theorem iblk0_1_apply (c : Dev nD) (t : Fin cfg0.N) (x : S128x256.Idx) :
    (iblk0 (F := Ideal) V c 1 t : Vec Ideal S128x256 .bf16) x = (V c main_v35 : S128x256.Idx → EReal) x := by
  obtain ⟨-, -, e2, e3, -, -⟩ := idx_facts0 t
  unfold iblk0
  rw [View.read_apply]
  show V c main_v35 _ = V c main_v35 _
  congr 1
  funext a
  apply Fin.ext
  match a with
  | ⟨0, _⟩ => show win0_1.index t (0 : Fin 2) * 128 + 1 * (x 0).val = (x 0).val; rw [e2]; omega
  | ⟨1, _⟩ => show win0_1.index t (1 : Fin 2) * 256 + 1 * (x 1).val = (x 1).val; rw [e3]; omega

/-- What point t writes back is block t of the product of the two arrays the region reads. -/
theorem flushed0_eq (c : Dev nD) (t : Fin cfg0.N) :
    (dat0 (F := Ideal) V c).flushed 2 t
      = ((cfg0.win 2).blk t).view.read (Elt Ideal) (Cert.Spec.mat (V c main_v34) (V c main_v35)) := by
  show (cfg0.win 2).cut (grid0.coords t) ((dat0 (F := Ideal) V c).after 2 t) = _
  rw [after0_2]
  unfold out0_2
  rw [View.canon_unit_zero Cert.Lib.MatmulAt.hz]
  simp only [View.ld_unit_zero (S := S5000x128) Cert.Lib.MatmulAt.hz, View.ld_unit_zero (S := S128x256) Cert.Lib.MatmulAt.hz]
  obtain ⟨-, -, -, -, e4, e5⟩ := idx_facts0 t
  funext j
  show k0_pay1 (F := Ideal) (iblk0 V c 0 t) (iblk0 V c 1 t) j
    = Cert.Spec.mat (V c main_v34) (V c main_v35) (((cfg0.win 2).blk t).view.emb j)
  refine point0 (iblk0 V c 0 t) (iblk0 V c 1 t) (V c main_v34) (V c main_v35) j (((cfg0.win 2).blk t).view.emb j) t.val ?_ ?_
    (fun x k hk0 hk1 => iblk0_0_apply V c t x k hk0 hk1) (fun x => iblk0_1_apply V c t x)
  · show win0_2.index t (0 : Fin 2) * 5000 + 1 * (j 0).val = t.val * 5000 + (j 0).val; rw [e4]; omega
  · show win0_2.index t (1 : Fin 2) * 256 + 1 * (j 1).val = (j 1).val; rw [e5]; omega

/-- An index of the output array is in point t's block iff each coordinate is in the block's range on its axis. -/
theorem mem_blk0 (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v36).slice (win0_2.rect t)).set ↔ _
  rw [View.set_slice_whole, Rect.mem_set_unit]
  exact Iff.rfl

/-- Row r of the output array is in the block of point r / 5000, which writes its block back. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  have ht : (i 0).val / 5000 < cfg0.N := by rw [hN]; omega
  obtain ⟨-, -, -, -, e4, e5⟩ := idx_facts0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 256 ≤ (i 1).val
      ∧ (i 1).val < win0_2.index ⟨(i 0).val / 5000, ht⟩ (1 : Fin 2) * 256 + 256
    rw [e5]; omega

/-- The output array after the region is the product of the two arrays the region reads. -/
theorem arr0 (c : Dev nD) :
    (dat0 (F := Ideal) V c).arrAt 2 cfg0.N = Cert.Spec.mat (V c main_v34) (V c main_v35) :=
  (dat0 (F := Ideal) V c).arrAt_eq_of_cover 2 (Cert.Spec.mat (V c main_v34) (V c main_v35))
    (fun t _ => flushed0_eq V c t) cover0

end Region

end Cert.KernelIdeal.Val

end
-- ==== Proof.Val1.lean ====
/-
  The value of matrix-product region 1 of the kernel's program: its output array after the region is the specification's
  matrix product of the two arrays the region reads.

  The region runs over 10 grid points. At point t the left operand's window holds rows 5000 t … 5000 t + 4999 of the
  [50000, 256] array, the right operand's window holds the whole [256, 128] array, and the body stores, into the output's
  window, the product of the two blocks accumulated into zero: entry (p, q) of the block is the sum over k of
  left (5000 t + p, k) · right (k, q), which is entry (5000 t + p, q) of the product of the whole arrays. So what point t
  writes back is block t of that one whole-array function; row r of the output is covered by point r / 5000; hence the
  output array ends holding the product.
-/
import proofs.«150106_j66537633350122_2_alg».proof.Proof.Gen.KernelIdeal.Frame
import proofs.«150106_j66537633350122_2_alg».proof.Proof.LibMatmulAt
import proofs.«150106_j66537633350122_2_alg».proof.Proof.Spec
import Idealize.ShloMosaic.Lib.Pipeline.Value

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/-! ## The body's payload at an index -/

/-- The body's payload at (p, q): the two casts to the same shape and the change of format are the identity, and the product
    accumulated into zero is the sum over k of x0 (p, k) · x1 (k, q). -/
theorem pay1_apply (x0 : Vec Ideal S5000x256 .bf16) (x1 : Vec Ideal S256x128 .bf16) (p : Fin 5000) (q : Fin 128) :
    k1_pay1 (F := Ideal) x0 x1 (ix2 p q) = ∑ k : Fin 256, x0 (ix2 p k) * x1 (ix2 k q) := by
  unfold k1_pay1
  show matmul dot_S5000x256_S256x128_S5000x128_1_0_0_1_n_n none (shapeCast S5000x256 x0 shapeCasts_S5000x256_S5000x256) (shapeCast S256x128 x1 shapeCasts_S256x128_S256x128)
    (constant (F := Ideal) S5000x128 .f32 0x00000000#32) (ix2 p q) = _
  rw [shapeCast_self, shapeCast_self]
  refine Cert.Lib.MatmulAt.matmul_zero_apply (a := 5000) (K := 256) (b := 128) dot_S5000x256_S256x128_S5000x128_1_0_0_1_n_n rfl rfl ?_ ?_ ?_ ?_ none x0 x1 p q
  · intro i k; simp [DotDims.lhsIdx, dot_S5000x256_S256x128_S5000x128_1_0_0_1_n_n]; rfl
  · intro i k; simp [DotDims.lhsIdx, dot_S5000x256_S256x128_S5000x128_1_0_0_1_n_n]; rfl
  · intro i k; simp [DotDims.rhsIdx, dot_S5000x256_S256x128_S5000x128_1_0_0_1_n_n]; rfl
  · intro i k; simp [DotDims.rhsIdx, dot_S5000x256_S256x128_S5000x128_1_0_0_1_n_n]; rfl

/-- The payload of two blocks, the left one rows 5000 n … of an array A and the right one a whole array B, at a block index y
    that sits at the array index i (row 5000 n + y's row, the same column), is the product of A and B at i. -/
theorem point1 (x0 : Vec Ideal S5000x256 .bf16) (x1 : Vec Ideal S256x128 .bf16)
    (A : S50000x256.Idx → EReal) (B : S256x128.Idx → EReal) (y : S5000x128.Idx) (i : S50000x128.Idx) (n : Nat)
    (hi0 : (i 0).val = n * 5000 + (y 0).val) (hi1 : (i 1).val = (y 1).val)
    (h0 : ∀ (x : S5000x256.Idx) (k : S50000x256.Idx), (k 0).val = n * 5000 + (x 0).val → (k 1).val = (x 1).val → x0 x = A k)
    (h1 : ∀ x : S256x128.Idx, x1 x = B x) :
    k1_pay1 (F := Ideal) x0 x1 y = Cert.Spec.mat A B i := by
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  have hs : s = q := Fin.ext hi1
  subst hs
  rw [pay1_apply, Cert.Spec.mat_apply]
  refine Finset.sum_congr rfl fun k _ => ?_
  rw [h0 (ix2 p k) (ix2 r k) hi0 rfl, h1]

/-! ## From blocks to the array -/

section Region
variable (V : (c : Dev nD) → (b : Ref sig .tc) → Buf (Elt Ideal) ((c : Thread nD τ).loc b))

/-- The printed index maps, decided over the grid: the left operand's and the output's blocks are block t along the rows, the
    right operand's block is the whole array. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t is rows 5000 t … 5000 t + 4999 of its array. -/
theorem iblk1_0_apply (c : Dev nD) (t : Fin cfg1.N) (x : S5000x256.Idx) (k : S50000x256.Idx)
    (hk0 : (k 0).val = t.val * 5000 + (x 0).val) (hk1 : (k 1).val = (x 1).val) :
    (iblk1 (F := Ideal) V c 0 t : Vec Ideal S5000x256 .bf16) x = (V c main_v83 : S50000x256.Idx → EReal) k := by
  obtain ⟨e0, e1, -, -, -, -⟩ := idx_facts1 t
  unfold iblk1
  rw [View.read_apply]
  show V c main_v83 _ = V c main_v83 _
  congr 1
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 256 + 1 * (x 1).val = (k 1).val; rw [e1, hk1]; omega

/-- The right operand's block at every point is its whole array. -/
theorem iblk1_1_apply (c : Dev nD) (t : Fin cfg1.N) (x : S256x128.Idx) :
    (iblk1 (F := Ideal) V c 1 t : Vec Ideal S256x128 .bf16) x = (V c main_v84 : S256x128.Idx → EReal) x := by
  obtain ⟨-, -, e2, e3, -, -⟩ := idx_facts1 t
  unfold iblk1
  rw [View.read_apply]
  show V c main_v84 _ = V c main_v84 _
  congr 1
  funext a
  apply Fin.ext
  match a with
  | ⟨0, _⟩ => show win1_1.index t (0 : Fin 2) * 256 + 1 * (x 0).val = (x 0).val; rw [e2]; omega
  | ⟨1, _⟩ => show win1_1.index t (1 : Fin 2) * 128 + 1 * (x 1).val = (x 1).val; rw [e3]; omega

/-- What point t writes back is block t of the product of the two arrays the region reads. -/
theorem flushed1_eq (c : Dev nD) (t : Fin cfg1.N) :
    (dat1 (F := Ideal) V c).flushed 2 t
      = ((cfg1.win 2).blk t).view.read (Elt Ideal) (Cert.Spec.mat (V c main_v83) (V c main_v84)) := by
  show (cfg1.win 2).cut (grid1.coords t) ((dat1 (F := Ideal) V c).after 2 t) = _
  rw [after1_2]
  unfold out1_2
  rw [View.canon_unit_zero Cert.Lib.MatmulAt.hz]
  simp only [View.ld_unit_zero (S := S5000x256) Cert.Lib.MatmulAt.hz, View.ld_unit_zero (S := S256x128) Cert.Lib.MatmulAt.hz]
  obtain ⟨-, -, -, -, e4, e5⟩ := idx_facts1 t
  funext j
  show k1_pay1 (F := Ideal) (iblk1 V c 0 t) (iblk1 V c 1 t) j
    = Cert.Spec.mat (V c main_v83) (V c main_v84) (((cfg1.win 2).blk t).view.emb j)
  refine point1 (iblk1 V c 0 t) (iblk1 V c 1 t) (V c main_v83) (V c main_v84) j (((cfg1.win 2).blk t).view.emb j) t.val ?_ ?_
    (fun x k hk0 hk1 => iblk1_0_apply V c t x k hk0 hk1) (fun x => iblk1_1_apply V c t x)
  · show win1_2.index t (0 : Fin 2) * 5000 + 1 * (j 0).val = t.val * 5000 + (j 0).val; rw [e4]; omega
  · show win1_2.index t (1 : Fin 2) * 128 + 1 * (j 1).val = (j 1).val; rw [e5]; omega

/-- An index of the output array is in point t's block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v85).slice (win1_2.rect t)).set ↔ _
  rw [View.set_slice_whole, Rect.mem_set_unit]
  exact Iff.rfl

/-- Row r of the output array is in the block of point r / 5000, which writes its block back. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, e4, e5⟩ := idx_facts1 ⟨(i 0).val / 5000, ht⟩
  refine ⟨⟨(i 0).val / 5000, ht⟩, flush1_2 _, ?_⟩
  rw [mem_blk1]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    rw [e5]; omega

/-- The output array after the region is the product of the two arrays the region reads. -/
theorem arr1 (c : Dev nD) :
    (dat1 (F := Ideal) V c).arrAt 2 cfg1.N = Cert.Spec.mat (V c main_v83) (V c main_v84) :=
  (dat1 (F := Ideal) V c).arrAt_eq_of_cover 2 (Cert.Spec.mat (V c main_v83) (V c main_v84))
    (fun t _ => flushed1_eq V c t) cover1

end Region

end Cert.KernelIdeal.Val

end
-- ==== Proof.Val2Pay.lean ====
/-
  The decoder body's arithmetic, read at an index.

  One grid point of the fused decoder holds 8000 rows. For a row e the body forms, with the two gathered halves xs, xd
  of the row's feature vector and the first weight matrix split accordingly,
      h1 j = max (Σ_l xs (e, l) · w1a (l, j) + Σ_l xd (e, l) · w1b (l, j) + b1 (0, j)) 0
      h2 k = max (Σ_j h1 j · w2 (j, k) + b2 (0, k)) 0
      out  = Σ_k h2 k · w3 (k, 0) + b3 (0, 0).
  On the extended reals a matrix product accumulated into a zero splat is the plain sum of products over the contracted
  axis, a change of float format is the identity, a row broadcast reads its one row, and the elementwise operations act
  entry by entry; so the body's result is the specification's decoder, row by row.
-/
import proofs.«150106_j66537633350122_2_alg».proof.Proof.Gen.KernelIdeal.Skeleton
import proofs.«150106_j66537633350122_2_alg».proof.Proof.Spec
import proofs.«150106_j66537633350122_2_alg».proof.Proof.LibPlainDot
import Idealize.ShloMosaic.Lib.ValueLayout
import Idealize.ShloMosaic.Lib.Pipeline.Value

noncomputable section

namespace Cert.KernelIdeal.Val

open Idealize.ShloMosaic Idealize.ShloMosaic.ValueIdx Cert.KernelIdeal Cert.KernelIdeal.Gen

/-- The [8000, 128] · [128, 128] product into a zero accumulator, at (p, q): the sum over the contracted axis. -/
theorem matA_apply {φ₁ φ₂ : FTy} (prec : Option ContractPrecision) (lhs : FVec Ideal S8000x128 φ₁) (rhs : FVec Ideal S128x128 φ₂)
    (p : Fin 8000) (q : Fin 128) :
    matmul dot_S8000x128_S128x128_S8000x128_1_0_0_1_n_n prec lhs rhs (constant S8000x128 .f32 0x00000000#32) (ix2 p q)
      = ∑ k : Fin 128, lhs (ix2 p k) * rhs (ix2 k q) :=
  (Ideal.matmul_constant_zero_apply dot_S8000x128_S128x128_S8000x128_1_0_0_1_n_n prec lhs rhs (ix2 p q)).trans
    (Cert.Lib.PlainDot.sum_contr (a := 8000) (K := 128) (b := 128) dot_S8000x128_S128x128_S8000x128_1_0_0_1_n_n rfl rfl
      (fun _ _ => rfl) (fun _ _ => rfl) (fun _ _ => rfl) (fun _ _ => rfl) lhs rhs p q)

/-- The [8000, 128] · [128, 1] product into a zero accumulator, at (p, q). -/
theorem matB_apply {φ₁ φ₂ : FTy} (prec : Option ContractPrecision) (lhs : FVec Ideal S8000x128 φ₁) (rhs : FVec Ideal S128x1 φ₂)
    (p : Fin 8000) (q : Fin 1) :
    matmul dot_S8000x128_S128x1_S8000x1_1_0_0_1_n_n prec lhs rhs (constant S8000x1 .f32 0x00000000#32) (ix2 p q)
      = ∑ k : Fin 128, lhs (ix2 p k) * rhs (ix2 k q) :=
  (Ideal.matmul_constant_zero_apply dot_S8000x128_S128x1_S8000x1_1_0_0_1_n_n prec lhs rhs (ix2 p q)).trans
    (Cert.Lib.PlainDot.sum_contr (a := 8000) (K := 128) (b := 1) dot_S8000x128_S128x1_S8000x1_1_0_0_1_n_n rfl rfl
      (fun _ _ => rfl) (fun _ _ => rfl) (fun _ _ => rfl) (fun _ _ => rfl) lhs rhs p q)

/-- The first hidden layer as the body computes it: two products added, the bias row added to every row, the
    maximum with the zero word taken entry by entry, the format narrowed. -/
def kh1 (x0 x1 : Vec Ideal S8000x128 .bf16) (x2 x3 : Vec Ideal S128x128 .bf16) (x4 : Vec Ideal S1x128 .f32) : FVec Ideal S8000x128 .bf16 :=
  truncf .bf16
    (maximumf
      (addf
        (addf
          (matmul dot_S8000x128_S128x128_S8000x128_1_0_0_1_n_n none (shapeCast S8000x128 x0 shapeCasts_S8000x128_S8000x128 : FVec Ideal S8000x128 .bf16)
            (shapeCast S128x128 x2 shapeCasts_S128x128_S128x128 : FVec Ideal S128x128 .bf16) (constant S8000x128 .f32 0x00000000#32))
          (matmul dot_S8000x128_S128x128_S8000x128_1_0_0_1_n_n none (shapeCast S8000x128 x1 shapeCasts_S8000x128_S8000x128 : FVec Ideal S8000x128 .bf16)
            (shapeCast S128x128 x3 shapeCasts_S128x128_S128x128 : FVec Ideal S128x128 .bf16) (constant S8000x128 .f32 0x00000000#32)))
        (broadcastTo S8000x128 (shapeCast S1x128 x4 shapeCasts_S1x128_S1x128 : FVec Ideal S1x128 .f32) broadcasts_S1x128_S8000x128))
      (broadcast S8000x128 (Scalar.ofBits (F := Ideal) .f32 0x00000000#32)))
    bitsLt_bf16_f32

/-- The second hidden layer as the body computes it, from the first. -/
def kh2 (h : FVec Ideal S8000x128 .bf16) (x5 : Vec Ideal S128x128 .bf16) (x6 : Vec Ideal S1x128 .f32) : FVec Ideal S8000x128 .bf16 :=
  truncf .bf16
    (maximumf
      (addf
        (matmul dot_S8000x128_S128x128_S8000x128_1_0_0_1_n_n none h
          (shapeCast S128x128 x5 shapeCasts_S128x128_S128x128 : FVec Ideal S128x128 .bf16) (constant S8000x128 .f32 0x00000000#32))
        (broadcastTo S8000x128 (shapeCast S1x128 x6 shapeCasts_S1x128_S1x128 : FVec Ideal S1x128 .f32) broadcasts_S1x128_S8000x128))
      (broadcast S8000x128 (Scalar.ofBits (F := Ideal) .f32 0x00000000#32)))
    bitsLt_bf16_f32

/-- The output column as the body computes it, from the second hidden layer. -/
def kout (h : FVec Ideal S8000x128 .bf16) (x7 : Vec Ideal S128x1 .bf16) (x8 : Vec Ideal S1x1 .f32) : FVec Ideal S8000x1 .f32 :=
  addf
    (matmul dot_S8000x128_S128x1_S8000x1_1_0_0_1_n_n none h
      (shapeCast S128x1 x7 shapeCasts_S128x1_S128x1 : FVec Ideal S128x1 .bf16) (constant S8000x1 .f32 0x00000000#32))
    (broadcastTo S8000x1 (shapeCast S1x1 x8 shapeCasts_S1x1_S1x1 : FVec Ideal S1x1 .f32) broadcasts_S1x1_S8000x1)

/-- The body's result is the three layers composed. -/
theorem pay_layers (x0 x1 : Vec Ideal S8000x128 .bf16) (x2 x3 : Vec Ideal S128x128 .bf16) (x4 : Vec Ideal S1x128 .f32)
    (x5 : Vec Ideal S128x128 .bf16) (x6 : Vec Ideal S1x128 .f32) (x7 : Vec Ideal S128x1 .bf16) (x8 : Vec Ideal S1x1 .f32) :
    k2_pay1 (F := Ideal) x0 x1 x2 x3 x4 x5 x6 x7 x8 = kout (kh2 (kh1 x0 x1 x2 x3 x4) x5 x6) x7 x8 := by
  unfold k2_pay1 kout kh2 kh1
  rfl

/-- The first hidden layer at row p, unit j. -/
theorem kh1_apply (x0 x1 : Vec Ideal S8000x128 .bf16) (x2 x3 : Vec Ideal S128x128 .bf16) (x4 : Vec Ideal S1x128 .f32)
    (p : Fin 8000) (j : Fin 128) :
    kh1 x0 x1 x2 x3 x4 (ix2 p j) = Cert.Spec.hid1 (n := 8000) x0 x1 x2 x3 x4 p j := by
  unfold kh1 Cert.Spec.hid1
  rw [shapeCast_self, shapeCast_self, shapeCast_self, shapeCast_self, shapeCast_self]
  rw [truncf_apply, maximumf_apply, addf_apply, addf_apply, matA_apply, matA_apply, broadcastTo_1b_ab_apply, broadcast_apply]
  rfl

/-- The second hidden layer at row p, unit k, from the first layer's entries of row p. -/
theorem kh2_apply (h : FVec Ideal S8000x128 .bf16) (x5 : Vec Ideal S128x128 .bf16) (x6 : Vec Ideal S1x128 .f32)
    (p : Fin 8000) (k : Fin 128) :
    kh2 h x5 x6 (ix2 p k) = max ((∑ j : Fin 128, h (ix2 p j) * x5 (ix2 j k)) + x6 (ix2 (0 : Fin 1) k)) Cert.Spec.z := by
  unfold kh2
  rw [shapeCast_self, shapeCast_self]
  rw [truncf_apply, maximumf_apply, addf_apply, matA_apply, broadcastTo_1b_ab_apply, broadcast_apply]
  rfl

/-- A [1, 1] array broadcast down a column reads its one entry. -/
theorem bcast11_apply (v : Vec Ideal S1x1 .f32) (p : Fin 8000) (q : Fin 1) :
    broadcastTo S8000x1 v broadcasts_S1x1_S8000x1 (ix2 p q) = v (ix2 (0 : Fin 1) (0 : Fin 1)) := by
  refine broadcastTo_apply v broadcasts_S1x1_S8000x1 (ix2 p q) (ix2 (0 : Fin 1) (0 : Fin 1)) fun ax => ?_
  match ax with
  | ⟨0, _⟩ => rfl
  | ⟨1, _⟩ => rfl

/-- The output column at row p, from the second layer's entries of row p. -/
theorem kout_apply (h : FVec Ideal S8000x128 .bf16) (x7 : Vec Ideal S128x1 .bf16) (x8 : Vec Ideal S1x1 .f32)
    (p : Fin 8000) (q : Fin 1) :
    kout h x7 x8 (ix2 p q) = (∑ k : Fin 128, h (ix2 p k) * x7 (ix2 k (0 : Fin 1))) + x8 (ix2 (0 : Fin 1) (0 : Fin 1)) := by
  unfold kout
  rw [shapeCast_self, shapeCast_self]
  rw [addf_apply, matB_apply, bcast11_apply]
  obtain rfl : q = (0 : Fin 1) := Subsingleton.elim _ _
  rfl

/-- THE BODY'S RESULT on a block of 8000 rows is the specification's decoder of the block. -/
theorem pay_eq (x0 x1 : Vec Ideal S8000x128 .bf16) (x2 x3 : Vec Ideal S128x128 .bf16) (x4 : Vec Ideal S1x128 .f32)
    (x5 : Vec Ideal S128x128 .bf16) (x6 : Vec Ideal S1x128 .f32) (x7 : Vec Ideal S128x1 .bf16) (x8 : Vec Ideal S1x1 .f32) :
    k2_pay1 (F := Ideal) x0 x1 x2 x3 x4 x5 x6 x7 x8 = Cert.Spec.decW (n := 8000) x0 x1 x2 x3 x4 x5 x6 x7 x8 := by
  rw [pay_layers]
  funext i
  obtain ⟨p, q, rfl⟩ : ∃ (p : Fin 8000) (q : Fin 1), i = ix2 p q := ⟨i 0, i 1, eq_ix2 i⟩
  rw [kout_apply, Cert.Spec.decW_apply]
  refine congrArg (· + x8 (ix2 (0 : Fin 1) (0 : Fin 1))) (Finset.sum_congr rfl fun k _ => ?_)
  refine congrArg (· * x7 (ix2 k (0 : Fin 1))) ?_
  rw [kh2_apply]
  unfold Cert.Spec.hid2
  refine congrArg (fun s => max (s + x6 (ix2 (0 : Fin 1) k)) Cert.Spec.z) (Finset.sum_congr rfl fun j _ => ?_)
  rw [kh1_apply]

end Cert.KernelIdeal.Val

end
-- ==== Proof.Val2.lean ====
/-
  The decoder region's output array, as one function of the arrays the region reads.

  The region runs over 100 grid points; point t reads rows 8000 t … 8000 t + 7999 of the two gathered feature arrays
  (each [800000, 128]) and all of the six weight and bias arrays, and writes back rows 8000 t … 8000 t + 7999 of the
  [800000, 1] output. The decoder acts row by row: row r of its output depends on row r of the two feature arrays and on
  the weights alone. So the block point t writes back — the decoder of the blocks it read — is the block at t of the
  decoder of the whole arrays; and since row r lies in the block of point r / 8000, the blocks cover the output array,
  which therefore ends holding the decoder of the whole arrays.
-/
import proofs.«150106_j66537633350122_2_alg».proof.Proof.Gen.KernelIdeal.Frame
import proofs.«150106_j66537633350122_2_alg».proof.Proof.Val2Pay
import Idealize.ShloMosaic.Lib.Pipeline.Value
import Idealize.ShloMosaic.Lib.Tactic

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

/-! ## The decoder is row-wise -/

section Rows
variable {n N : Nat} (xs xd : (⟨2, ![n, 128]⟩ : Shape).Idx → EReal) (Xs Xd : (⟨2, ![N, 128]⟩ : Shape).Idx → EReal)
  (w1a w1b : (⟨2, ![128, 128]⟩ : Shape).Idx → EReal) (b1 : (⟨2, ![1, 128]⟩ : Shape).Idx → EReal)
  (w2 : (⟨2, ![128, 128]⟩ : Shape).Idx → EReal) (b2 : (⟨2, ![1, 128]⟩ : Shape).Idx → EReal)
  (w3 : (⟨2, ![128, 1]⟩ : Shape).Idx → EReal) (b3 : (⟨2, ![1, 1]⟩ : Shape).Idx → EReal)

/-- Row e of one pair of feature arrays equal to row E of another: the first hidden layers agree there. -/
theorem hid1_rows (e : Fin n) (E : Fin N) (hs : ∀ l : Fin 128, xs (ix2 e l) = Xs (ix2 E l))
    (hd : ∀ l : Fin 128, xd (ix2 e l) = Xd (ix2 E l)) (j : Fin 128) :
    Cert.Spec.hid1 xs xd w1a w1b b1 e j = Cert.Spec.hid1 Xs Xd w1a w1b b1 E j := by
  unfold Cert.Spec.hid1
  simp only [hs, hd]

/-- So do the second hidden layers. -/
theorem hid2_rows (e : Fin n) (E : Fin N) (hs : ∀ l : Fin 128, xs (ix2 e l) = Xs (ix2 E l))
    (hd : ∀ l : Fin 128, xd (ix2 e l) = Xd (ix2 E l)) (k : Fin 128) :
    Cert.Spec.hid2 xs xd w1a w1b b1 w2 b2 e k = Cert.Spec.hid2 Xs Xd w1a w1b b1 w2 b2 E k := by
  unfold Cert.Spec.hid2
  simp only [hid1_rows xs xd Xs Xd w1a w1b b1 e E hs hd]

/-- And the outputs: the decoder at an index whose row is e is the decoder of the other arrays at an index whose row is E. -/
theorem decW_rows (y : (⟨2, ![n, 1]⟩ : Shape).Idx) (i : (⟨2, ![N, 1]⟩ : Shape).Idx) (e : Fin n) (E : Fin N)
    (hy : y 0 = e) (hi : i 0 = E) (hs : ∀ l : Fin 128, xs (ix2 e l) = Xs (ix2 E l))
    (hd : ∀ l : Fin 128, xd (ix2 e l) = Xd (ix2 E l)) :
    Cert.Spec.decW xs xd w1a w1b b1 w2 b2 w3 b3 y = Cert.Spec.decW Xs Xd w1a w1b b1 w2 b2 w3 b3 i := by
  subst hy hi
  unfold Cert.Spec.decW
  simp only [hid2_rows xs xd Xs Xd w1a w1b b1 w2 b2 (y 0) (i 0) hs hd]

end Rows

/-! ## The region's blocks -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the two feature windows and the output window move with the point
    along the rows; every weight and bias window stays at block (0, 0). -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = t.val ∧ win2_9.index t (1 : Fin 2) = 0) :=
  (by decide +kernel : ∀ t : Fin grid2.N, _)

/-- The first feature window's block at point t is rows 8000 t … of its array. -/
theorem iblk0_apply (c : Dev nD) (t : Fin cfg2.N) (y : S8000x128.Idx) (i : S800000x128.Idx)
    (h0 : (i 0).val = t.val * 8000 + (y 0).val) (h1 : (i 1).val = (y 1).val) :
    (iblk2 V c 0 t : Vec Ideal S8000x128 .bf16) y = (V c main_v115 : S800000x128.Idx → EReal) i := by
  obtain ⟨⟨e0, e1⟩, -⟩ := idx_facts t
  unfold iblk2
  rw [View.read_apply]
  show V c main_v115 _ = V c main_v115 _
  congr 1
  funext a
  apply Fin.ext
  match a with
  | ⟨0, _⟩ => show win2_0.index t (0 : Fin 2) * 8000 + 1 * (y 0).val = (i 0).val; rw [e0, h0]; omega
  | ⟨1, _⟩ => show win2_0.index t (1 : Fin 2) * 128 + 1 * (y 1).val = (i 1).val; rw [e1, h1]; omega

/-- The second feature window's, likewise. -/
theorem iblk1_apply (c : Dev nD) (t : Fin cfg2.N) (y : S8000x128.Idx) (i : S800000x128.Idx)
    (h0 : (i 0).val = t.val * 8000 + (y 0).val) (h1 : (i 1).val = (y 1).val) :
    (iblk2 V c 1 t : Vec Ideal S8000x128 .bf16) y = (V c main_v122 : S800000x128.Idx → EReal) i := by
  obtain ⟨-, ⟨e0, e1⟩, -⟩ := idx_facts t
  unfold iblk2
  rw [View.read_apply]
  show V c main_v122 _ = V c main_v122 _
  congr 1
  funext a
  apply Fin.ext
  match a with
  | ⟨0, _⟩ => show win2_1.index t (0 : Fin 2) * 8000 + 1 * (y 0).val = (i 0).val; rw [e0, h0]; omega
  | ⟨1, _⟩ => show win2_1.index t (1 : Fin 2) * 128 + 1 * (y 1).val = (i 1).val; rw [e1, h1]; omega

/-- A weight or bias window's block, at every point, is its whole array. -/
theorem iblk2_eq (c : Dev nD) (t : Fin cfg2.N) : (iblk2 V c 2 t : Vec Ideal S128x128 .bf16) = V c main_v125 := by
  obtain ⟨-, -, ⟨e0, e1⟩, -⟩ := idx_facts t
  funext y
  unfold iblk2
  rw [View.read_apply]
  show V c main_v125 _ = V c main_v125 _
  congr 1
  funext a
  apply Fin.ext
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

theorem iblk3_eq (c : Dev nD) (t : Fin cfg2.N) : (iblk2 V c 3 t : Vec Ideal S128x128 .bf16) = V c main_v126 := by
  obtain ⟨-, -, -, ⟨e0, e1⟩, -⟩ := idx_facts t
  funext y
  unfold iblk2
  rw [View.read_apply]
  show V c main_v126 _ = V c main_v126 _
  congr 1
  funext a
  apply Fin.ext
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

theorem iblk4_eq (c : Dev nD) (t : Fin cfg2.N) : (iblk2 V c 4 t : Vec Ideal S1x128 .f32) = V c main_v129 := by
  obtain ⟨-, -, -, -, ⟨e0, e1⟩, -⟩ := idx_facts t
  funext y
  unfold iblk2
  rw [View.read_apply]
  show V c main_v129 _ = V c main_v129 _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

theorem iblk5_eq (c : Dev nD) (t : Fin cfg2.N) : (iblk2 V c 5 t : Vec Ideal S128x128 .bf16) = V c main_v127 := by
  obtain ⟨-, -, -, -, -, ⟨e0, e1⟩, -⟩ := idx_facts t
  funext y
  unfold iblk2
  rw [View.read_apply]
  show V c main_v127 _ = V c main_v127 _
  congr 1
  funext a
  apply Fin.ext
  match a with
  | ⟨0, _⟩ => show win2_5.index t (0 : Fin 2) * 128 + 1 * (y 0).val = (y 0).val; rw [e0]; omega
  | ⟨1, _⟩ => show win2_5.index t (1 : Fin 2) * 128 + 1 * (y 1).val = (y 1).val; rw [e1]; omega

theorem iblk6_eq (c : Dev nD) (t : Fin cfg2.N) : (iblk2 V c 6 t : Vec Ideal S1x128 .f32) = V c main_v130 := by
  obtain ⟨-, -, -, -, -, -, ⟨e0, e1⟩, -⟩ := idx_facts t
  funext y
  unfold iblk2
  rw [View.read_apply]
  show V c main_v130 _ = V c main_v130 _
  congr 1
  funext a
  apply Fin.ext
  match a with
  | ⟨0, _⟩ => show win2_6.index t (0 : Fin 2) * 1 + 1 * (y 0).val = (y 0).val; rw [e0]; omega
  | ⟨1, _⟩ => show win2_6.index t (1 : Fin 2) * 128 + 1 * (y 1).val = (y 1).val; rw [e1]; omega

theorem iblk7_eq (c : Dev nD) (t : Fin cfg2.N) : (iblk2 V c 7 t : Vec Ideal S128x1 .bf16) = V c main_v128 := by
  obtain ⟨-, -, -, -, -, -, -, ⟨e0, e1⟩, -⟩ := idx_facts t
  funext y
  unfold iblk2
  rw [View.read_apply]
  show V c main_v128 _ = V c main_v128 _
  congr 1
  funext a
  apply Fin.ext
  match a with
  | ⟨0, _⟩ => show win2_7.index t (0 : Fin 2) * 128 + 1 * (y 0).val = (y 0).val; rw [e0]; omega
  | ⟨1, _⟩ => show win2_7.index t (1 : Fin 2) * 1 + 1 * (y 1).val = (y 1).val; rw [e1]; omega

theorem iblk8_eq (c : Dev nD) (t : Fin cfg2.N) : (iblk2 V c 8 t : Vec Ideal S1x1 .f32) = V c main_v131 := by
  obtain ⟨-, -, -, -, -, -, -, -, ⟨e0, e1⟩, -⟩ := idx_facts t
  funext y
  unfold iblk2
  rw [View.read_apply]
  show V c main_v131 _ = V c main_v131 _
  congr 1
  funext a
  apply Fin.ext
  match a with
  | ⟨0, _⟩ => show win2_8.index t (0 : Fin 2) * 1 + 1 * (y 0).val = (y 0).val; rw [e0]; omega
  | ⟨1, _⟩ => show win2_8.index t (1 : Fin 2) * 1 + 1 * (y 1).val = (y 1).val; rw [e1]; omega

/-! ## From the blocks to the array -/

/-- The decoder of the whole arrays the region reads, as the region finds them. -/
abbrev G2 (c : Dev nD) : S800000x1.Idx → EReal :=
  Cert.Spec.decW (n := 800000) (V c main_v115) (V c main_v122) (V c main_v125) (V c main_v126) (V c main_v129) (V c main_v127)
    (V c main_v130) (V c main_v128) (V c main_v131)

/-- WHAT POINT t WRITES BACK is the block at t of the decoder of the whole arrays. -/
theorem flushed2_eq (c : Dev nD) (t : Fin cfg2.N) :
    (dat2 (F := Ideal) V c).flushed 9 t = ((cfg2.win 9).blk t).view.read (Elt Ideal) (G2 V c) := by
  show (cfg2.win 9).cut (grid2.coords t) ((dat2 (F := Ideal) V c).after 9 t) = _
  rw [after2_9]
  unfold out2_9
  rw [View.canon_unit_zero hz]
  simp only [View.ld_unit_zero (S := S8000x128) hz, View.ld_unit_zero (S := S128x128) hz, View.ld_unit_zero (S := S1x128) hz,
    View.ld_unit_zero (S := S128x1) hz, View.ld_unit_zero (S := S1x1) hz]
  rw [pay_eq, iblk2_eq V c t, iblk3_eq V c t, iblk4_eq V c t, iblk5_eq V c t, iblk6_eq V c t, iblk7_eq V c t, iblk8_eq V c t]
  obtain ⟨-, -, -, -, -, -, -, -, -, ⟨e0, e1⟩⟩ := idx_facts t
  funext y
  have hy0 : ((((cfg2.win 9).blk t).view.emb y) 0).val = t.val * 8000 + (y 0).val := by
    show win2_9.index t (0 : Fin 2) * 8000 + 1 * (y 0).val = _
    rw [e0]; omega
  refine decW_rows (n := 8000) (N := 800000) (iblk2 V c 0 t) (iblk2 V c 1 t) (V c main_v115) (V c main_v122) (V c main_v125)
    (V c main_v126) (V c main_v129) (V c main_v127) (V c main_v130) (V c main_v128) (V c main_v131) y
    (((cfg2.win 9).blk t).view.emb y) (y 0) ((((cfg2.win 9).blk t).view.emb y) 0) rfl rfl (fun l => ?_) (fun l => ?_)
  · exact iblk0_apply V c t _ _ hy0 rfl
  · exact iblk1_apply V c t _ _ hy0 rfl

/-- An index of the output array is in point t's block iff each coordinate is in the block's range on its axis. -/
theorem mem_blk2 (t : Fin cfg2.N) (i : S800000x1.Idx) :
    i ∈ ((cfg2.win 9).blk t).view.set ↔ ∀ a : Fin 2, win2_9.index t a * S8000x1.size a ≤ (i a).val ∧ (i a).val < win2_9.index t a * S8000x1.size a + S8000x1.size a := by
  show i ∈ ((View.whole main_v132).slice (win2_9.rect t)).set ↔ _
  rw [View.set_slice_whole, Rect.mem_set_unit]
  exact Iff.rfl

/-- Row r of the output lies in the block of point r / 8000. -/
theorem cover2 (i : S800000x1.Idx) : ∃ t : Fin cfg2.N, (cfg2.win 9).flush t = true ∧ i ∈ ((cfg2.win 9).blk t).view.set := by
  have hi0 : (i 0).val < 800000 := (i 0).isLt
  have hi1 : (i 1).val < 1 := (i 1).isLt
  have hN : cfg2.N = 100 := N_2
  obtain ⟨t, ht⟩ : ∃ t : Fin cfg2.N, t.val = (i 0).val / 8000 := ⟨⟨(i 0).val / 8000, by rw [hN]; omega⟩, rfl⟩
  obtain ⟨-, -, -, -, -, -, -, -, -, ⟨e0, e1⟩⟩ := idx_facts t
  refine ⟨t, flush2_9 t, ?_⟩
  rw [mem_blk2]
  intro a
  match a with
  | ⟨0, _⟩ =>
    show win2_9.index t (0 : Fin 2) * 8000 ≤ (i 0).val ∧ (i 0).val < win2_9.index t (0 : Fin 2) * 8000 + 8000
    rw [e0, ht]; omega
  | ⟨1, _⟩ =>
    show win2_9.index t (1 : Fin 2) * 1 ≤ (i 1).val ∧ (i 1).val < win2_9.index t (1 : Fin 2) * 1 + 1
    rw [e1]; omega

/-- THE OUTPUT ARRAY after the region: the decoder of the arrays the region read. -/
theorem arr2 (c : Dev nD) :
    (dat2 (F := Ideal) V c).arrAt 9 cfg2.N
      = Cert.Spec.decW (V c main_v115) (V c main_v122) (V c main_v125) (V c main_v126) (V c main_v129) (V c main_v127)
          (V c main_v130) (V c main_v128) (V c main_v131) :=
  (dat2 (F := Ideal) V c).arrAt_eq_of_cover 9 (G2 V c) (fun t _ => flushed2_eq V c t) cover2

end Cert.KernelIdeal.Val

end
-- ==== Proof.RefDots.lean ====
/-
  The reference program's two plain matrix products, as the specification's matrix product.

  Each is a rank-2 contraction of the left operand's axis 1 against the right operand's axis 0 with no batch axis; at the
  result index (p, q) the contraction names the operand indices (p, k) and (k, q), so the value there is the sum over k of
  lhs (p, k) · rhs (k, q), which is the specification's `mat`.
-/
import proofs.«150106_j66537633350122_2_alg».proof.ReferenceIdeal
import proofs.«150106_j66537633350122_2_alg».proof.Proof.LibPlainDot
import proofs.«150106_j66537633350122_2_alg».proof.Proof.Spec

noncomputable section

namespace Cert.ReferenceIdeal.Hand

open Idealize.ShloMosaic Idealize.ShloMosaic.ValueIdx

variable [Facts₀]

/-- The [50000, 128] · [128, 256] product is the specification's matrix product. -/
theorem dot36 (l : FVec Ideal S50000x128 .f32) (r : FVec Ideal S128x256 .f32) :
    Host.dotGeneral dot_S50000x128_S128x256_S50000x256_1_0_0_1_n_n none l r = Cert.Spec.mat l r := by
  funext i
  obtain ⟨p, q, rfl⟩ : ∃ (p : Fin 50000) (q : Fin 256), i = ix2 p q := ⟨i 0, i 1, eq_ix2 i⟩
  rw [Cert.Spec.mat_apply]
  refine Cert.Lib.PlainDot.dotGeneral_apply (a := 50000) (K := 128) (b := 256)
    dot_S50000x128_S128x256_S50000x256_1_0_0_1_n_n rfl rfl ?_ ?_ ?_ ?_ none l r p q
  · intro i k; simp [DotDims.lhsIdx, dot_S50000x128_S128x256_S50000x256_1_0_0_1_n_n]; rfl
  · intro i k; simp [DotDims.lhsIdx, dot_S50000x128_S128x256_S50000x256_1_0_0_1_n_n]; rfl
  · intro i k; simp [DotDims.rhsIdx, dot_S50000x128_S128x256_S50000x256_1_0_0_1_n_n]; rfl
  · intro i k; simp [DotDims.rhsIdx, dot_S50000x128_S128x256_S50000x256_1_0_0_1_n_n]; rfl

/-- The [50000, 256] · [256, 128] product is the specification's matrix product. -/
theorem dot84 (l : FVec Ideal S50000x256 .f32) (r : FVec Ideal S256x128 .f32) :
    Host.dotGeneral dot_S50000x256_S256x128_S50000x128_1_0_0_1_n_n none l r = Cert.Spec.mat l r := by
  funext i
  obtain ⟨p, q, rfl⟩ : ∃ (p : Fin 50000) (q : Fin 128), i = ix2 p q := ⟨i 0, i 1, eq_ix2 i⟩
  rw [Cert.Spec.mat_apply]
  refine Cert.Lib.PlainDot.dotGeneral_apply (a := 50000) (K := 256) (b := 128)
    dot_S50000x256_S256x128_S50000x128_1_0_0_1_n_n rfl rfl ?_ ?_ ?_ ?_ none l r p q
  · intro i k; simp [DotDims.lhsIdx, dot_S50000x256_S256x128_S50000x128_1_0_0_1_n_n]; rfl
  · intro i k; simp [DotDims.lhsIdx, dot_S50000x256_S256x128_S50000x128_1_0_0_1_n_n]; rfl
  · intro i k; simp [DotDims.rhsIdx, dot_S50000x256_S256x128_S50000x128_1_0_0_1_n_n]; rfl
  · intro i k; simp [DotDims.rhsIdx, dot_S50000x256_S256x128_S50000x128_1_0_0_1_n_n]; rfl

end Cert.ReferenceIdeal.Hand

end
-- ==== Proof.Bridge.lean ====
/-
  The two programs' results are equal, buffer by buffer along the run.

  The kernel program's buffer contents at its segment boundaries (a fold from the launch memory: a stretch of host
  operations applies them, a region replaces its arrays by what its write-backs leave) are compared with the reference's
  contents after the matching segments of its line. Stage by stage equal inputs give equal outputs; at each of the three
  regions the array the pipeline leaves is the specification's function of its input arrays — a matrix product twice,
  the decoder once — and the reference's operations at the same place compute that function of the same arrays.
-/
import proofs.«150106_j66537633350122_2_alg».proof.Proof.Vals
import proofs.«150106_j66537633350122_2_alg».proof.Proof.SimA
import proofs.«150106_j66537633350122_2_alg».proof.Proof.SimB
import proofs.«150106_j66537633350122_2_alg».proof.Proof.SimC
import proofs.«150106_j66537633350122_2_alg».proof.Proof.SimD
import proofs.«150106_j66537633350122_2_alg».proof.Proof.KeepK
import proofs.«150106_j66537633350122_2_alg».proof.Proof.KeepR
import proofs.«150106_j66537633350122_2_alg».proof.Proof.Val0
import proofs.«150106_j66537633350122_2_alg».proof.Proof.Val1
import proofs.«150106_j66537633350122_2_alg».proof.Proof.Val2
import proofs.«150106_j66537633350122_2_alg».proof.Proof.RefDots
import proofs.«150106_j66537633350122_2_alg».proof.Proof.RefDec
import proofs.«150106_j66537633350122_2_alg».proof.Proof.Gen.KernelIdeal.Frame

set_option maxRecDepth 65536

noncomputable section

namespace Cert.Bridge

open Idealize.ShloMosaic Idealize.ShloMosaic.StableHlo Idealize.SL.Sem

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (X : RV)

/-- The first linear map: the array the first region leaves is the product of the gathered embedding rows with the first
    weight matrix, which is what the reference's first dot_general computes. -/
theorem region0_eq
    (h34 : (Cert.KernelIdeal.Gen.W3 m ρ c) (kd Cert.KernelIdeal.main_v34) = X3 X (rd Cert.ReferenceIdeal.main_v6))
    (h35 : (Cert.KernelIdeal.Gen.W3 m ρ c) (kd Cert.KernelIdeal.main_v35) = X3 X (rd Cert.ReferenceIdeal.main_arg5)) :
    (Cert.KernelIdeal.Gen.W4 m ρ c) (kd Cert.KernelIdeal.main_v36) = X4 X (rd Cert.ReferenceIdeal.main_v36) :=
  ((Cert.KernelIdeal.Gen.W4_arr m ρ c 2).trans (Cert.KernelIdeal.Val.arr0 (Cert.KernelIdeal.Gen.V3 m ρ) c)).trans
    ((congrArg₂ (Cert.Spec.mat (a := 50000) (K := 128) (b := 256)) h34 h35).trans
      ((Cert.ReferenceIdeal.Hand.dot36 _ _).symm.trans (x4_v36 (X3 X)).symm))

/-- The second linear map, likewise. -/
theorem region1_eq
    (h83 : (Cert.KernelIdeal.Gen.W9 m ρ c) (kd Cert.KernelIdeal.main_v83) = X9 X (rd Cert.ReferenceIdeal.main_v53))
    (h84 : (Cert.KernelIdeal.Gen.W9 m ρ c) (kd Cert.KernelIdeal.main_v84) = X9 X (rd Cert.ReferenceIdeal.main_arg7)) :
    (Cert.KernelIdeal.Gen.W10 m ρ c) (kd Cert.KernelIdeal.main_v85) = X10 X (rd Cert.ReferenceIdeal.main_v84) :=
  ((Cert.KernelIdeal.Gen.W10_arr m ρ c 2).trans (Cert.KernelIdeal.Val.arr1 (Cert.KernelIdeal.Gen.V9 m ρ) c)).trans
    ((congrArg₂ (Cert.Spec.mat (a := 50000) (K := 256) (b := 128)) h83 h84).trans
      ((Cert.ReferenceIdeal.Hand.dot84 _ _).symm.trans (x10_v84 (X9 X)).symm))

/-- The decoder: the column the third region leaves is the decoder's function of the two gathered halves and of the
    weights as the kernel program lays them out, which is what the reference's concatenation, three dot_generals, biases
    and maxima compute. -/
theorem region2_eq
    (h115 : (Cert.KernelIdeal.Gen.W13 m ρ c) (kd Cert.KernelIdeal.main_v115) = X13 X (rd Cert.ReferenceIdeal.main_v112))
    (h122 : (Cert.KernelIdeal.Gen.W13 m ρ c) (kd Cert.KernelIdeal.main_v122) = X13 X (rd Cert.ReferenceIdeal.main_v119))
    (h125 : (Cert.KernelIdeal.Gen.W13 m ρ c) (kd Cert.KernelIdeal.main_v125) = w1a (X13 X (rd Cert.ReferenceIdeal.main_arg9)))
    (h126 : (Cert.KernelIdeal.Gen.W13 m ρ c) (kd Cert.KernelIdeal.main_v126) = w1b (X13 X (rd Cert.ReferenceIdeal.main_arg9)))
    (h129 : (Cert.KernelIdeal.Gen.W13 m ρ c) (kd Cert.KernelIdeal.main_v129) = b1r (X13 X (rd Cert.ReferenceIdeal.main_arg10)))
    (h127 : (Cert.KernelIdeal.Gen.W13 m ρ c) (kd Cert.KernelIdeal.main_v127) = w2k (X13 X (rd Cert.ReferenceIdeal.main_arg11)))
    (h130 : (Cert.KernelIdeal.Gen.W13 m ρ c) (kd Cert.KernelIdeal.main_v130) = b2r (X13 X (rd Cert.ReferenceIdeal.main_arg12)))
    (h128 : (Cert.KernelIdeal.Gen.W13 m ρ c) (kd Cert.KernelIdeal.main_v128) = w3k (X13 X (rd Cert.ReferenceIdeal.main_arg13)))
    (h131 : (Cert.KernelIdeal.Gen.W13 m ρ c) (kd Cert.KernelIdeal.main_v131) = b3r (X13 X (rd Cert.ReferenceIdeal.main_arg14))) :
    (Cert.KernelIdeal.Gen.W14 m ρ c) (kd Cert.KernelIdeal.main_v132) = X14 X (rd Cert.ReferenceIdeal.main_v134) := by
  refine ((Cert.KernelIdeal.Gen.W14_arr m ρ c 9).trans (Cert.KernelIdeal.Val.arr2 (Cert.KernelIdeal.Gen.V13 m ρ) c)).trans ?_
  show Cert.Spec.decW (n := 800000) ((Cert.KernelIdeal.Gen.W13 m ρ c) (kd Cert.KernelIdeal.main_v115)) ((Cert.KernelIdeal.Gen.W13 m ρ c) (kd Cert.KernelIdeal.main_v122)) ((Cert.KernelIdeal.Gen.W13 m ρ c) (kd Cert.KernelIdeal.main_v125))
      ((Cert.KernelIdeal.Gen.W13 m ρ c) (kd Cert.KernelIdeal.main_v126)) ((Cert.KernelIdeal.Gen.W13 m ρ c) (kd Cert.KernelIdeal.main_v129)) ((Cert.KernelIdeal.Gen.W13 m ρ c) (kd Cert.KernelIdeal.main_v127)) ((Cert.KernelIdeal.Gen.W13 m ρ c) (kd Cert.KernelIdeal.main_v130))
      ((Cert.KernelIdeal.Gen.W13 m ρ c) (kd Cert.KernelIdeal.main_v128)) ((Cert.KernelIdeal.Gen.W13 m ρ c) (kd Cert.KernelIdeal.main_v131)) = _
  rw [h115, h122, h125, h126, h129, h127, h130, h128, h131]
  exact (refDec_eq _ _ _ _ _ _ _ _).symm.trans (x14_v134 (X13 X)).symm

/-- From equal arguments, the kernel program's result buffer at its last boundary holds what the reference's result
    buffer holds after its whole line. -/
theorem result_eq
    (h0 : (Cert.KernelIdeal.Gen.W0 m ρ c) (kd Cert.KernelIdeal.main_arg0) = X (rd Cert.ReferenceIdeal.main_arg0))
    (h1 : (Cert.KernelIdeal.Gen.W0 m ρ c) (kd Cert.KernelIdeal.main_arg1) = X (rd Cert.ReferenceIdeal.main_arg1))
    (h2 : (Cert.KernelIdeal.Gen.W0 m ρ c) (kd Cert.KernelIdeal.main_arg2) = X (rd Cert.ReferenceIdeal.main_arg2))
    (h3 : (Cert.KernelIdeal.Gen.W0 m ρ c) (kd Cert.KernelIdeal.main_arg3) = X (rd Cert.ReferenceIdeal.main_arg3))
    (h4 : (Cert.KernelIdeal.Gen.W0 m ρ c) (kd Cert.KernelIdeal.main_arg4) = X (rd Cert.ReferenceIdeal.main_arg4))
    (h5 : (Cert.KernelIdeal.Gen.W0 m ρ c) (kd Cert.KernelIdeal.main_arg5) = X (rd Cert.ReferenceIdeal.main_arg5))
    (h6 : (Cert.KernelIdeal.Gen.W0 m ρ c) (kd Cert.KernelIdeal.main_arg6) = X (rd Cert.ReferenceIdeal.main_arg6))
    (h7 : (Cert.KernelIdeal.Gen.W0 m ρ c) (kd Cert.KernelIdeal.main_arg7) = X (rd Cert.ReferenceIdeal.main_arg7))
    (h8 : (Cert.KernelIdeal.Gen.W0 m ρ c) (kd Cert.KernelIdeal.main_arg8) = X (rd Cert.ReferenceIdeal.main_arg8))
    (h9 : (Cert.KernelIdeal.Gen.W0 m ρ c) (kd Cert.KernelIdeal.main_arg9) = X (rd Cert.ReferenceIdeal.main_arg9))
    (h10 : (Cert.KernelIdeal.Gen.W0 m ρ c) (kd Cert.KernelIdeal.main_arg10) = X (rd Cert.ReferenceIdeal.main_arg10))
    (h11 : (Cert.KernelIdeal.Gen.W0 m ρ c) (kd Cert.KernelIdeal.main_arg11) = X (rd Cert.ReferenceIdeal.main_arg11))
    (h12 : (Cert.KernelIdeal.Gen.W0 m ρ c) (kd Cert.KernelIdeal.main_arg12) = X (rd Cert.ReferenceIdeal.main_arg12))
    (h13 : (Cert.KernelIdeal.Gen.W0 m ρ c) (kd Cert.KernelIdeal.main_arg13) = X (rd Cert.ReferenceIdeal.main_arg13))
    (h14 : (Cert.KernelIdeal.Gen.W0 m ρ c) (kd Cert.KernelIdeal.main_arg14) = X (rd Cert.ReferenceIdeal.main_arg14)) :
    (Cert.KernelIdeal.Gen.W15 m ρ c) (kd Cert.KernelIdeal.main_v133) = X15 X (rd Cert.ReferenceIdeal.main_v135) := by
  -- before the first linear map
  have e8_1 : (Cert.KernelIdeal.Gen.W1 m ρ c) (kd Cert.KernelIdeal.main_v8) = X1 X (rd Cert.ReferenceIdeal.main_v8) := s0_v8 (Cert.KernelIdeal.Gen.W0 m ρ c) X h1
  have e10_1 : (Cert.KernelIdeal.Gen.W1 m ρ c) (kd Cert.KernelIdeal.main_v10) = X1 X (rd Cert.ReferenceIdeal.main_v10) := s0_v10 (Cert.KernelIdeal.Gen.W0 m ρ c) X h1
  have e6_1 : (Cert.KernelIdeal.Gen.W1 m ρ c) (kd Cert.KernelIdeal.main_v6) = X1 X (rd Cert.ReferenceIdeal.main_v6) := s0_v6 (Cert.KernelIdeal.Gen.W0 m ρ c) X h0 h4
  have e17_2 : (Cert.KernelIdeal.Gen.W2 m ρ c) (kd Cert.KernelIdeal.main_v17) = X2 X (rd Cert.ReferenceIdeal.main_v19) := s1_v17 (Cert.KernelIdeal.Gen.W0 m ρ c) X h1 h3
  have e8_2 : (Cert.KernelIdeal.Gen.W2 m ρ c) (kd Cert.KernelIdeal.main_v8) = X2 X (rd Cert.ReferenceIdeal.main_v8) := (kk1_v8 m ρ c).trans (e8_1.trans (rk1_v8 X).symm)
  have e10_2 : (Cert.KernelIdeal.Gen.W2 m ρ c) (kd Cert.KernelIdeal.main_v10) = X2 X (rd Cert.ReferenceIdeal.main_v10) := (kk1_v10 m ρ c).trans (e10_1.trans (rk1_v10 X).symm)
  have e6_2 : (Cert.KernelIdeal.Gen.W2 m ρ c) (kd Cert.KernelIdeal.main_v6) = X2 X (rd Cert.ReferenceIdeal.main_v6) := (kk1_v6 m ρ c).trans (e6_1.trans (rk1_v6 X).symm)
  have e3_2 : (Cert.KernelIdeal.Gen.W2 m ρ c) (kd Cert.KernelIdeal.main_arg3) = X2 X (rd Cert.ReferenceIdeal.main_arg3) := (kk1_arg3 m ρ c).trans (h3.trans (rk1_arg3 X).symm)
  have e5_2 : (Cert.KernelIdeal.Gen.W2 m ρ c) (kd Cert.KernelIdeal.main_arg5) = X2 X (rd Cert.ReferenceIdeal.main_arg5) := (kk1_arg5 m ρ c).trans (h5.trans (rk1_arg5 X).symm)
  have e33_3 : (Cert.KernelIdeal.Gen.W3 m ρ c) (kd Cert.KernelIdeal.main_v33) = X3 X (rd Cert.ReferenceIdeal.main_v35) := s2_v33 (Cert.KernelIdeal.Gen.W2 m ρ c) (X2 X) e8_2 e10_2 e17_2 e3_2
  have e34_3 : (Cert.KernelIdeal.Gen.W3 m ρ c) (kd Cert.KernelIdeal.main_v34) = X3 X (rd Cert.ReferenceIdeal.main_v6) := s2_v34 (Cert.KernelIdeal.Gen.W2 m ρ c) (X2 X) e6_2
  have e35_3 : (Cert.KernelIdeal.Gen.W3 m ρ c) (kd Cert.KernelIdeal.main_v35) = X3 X (rd Cert.ReferenceIdeal.main_arg5) := s2_v35 (Cert.KernelIdeal.Gen.W2 m ρ c) (X2 X) e5_2
  -- the first linear map
  have e36_4 : (Cert.KernelIdeal.Gen.W4 m ρ c) (kd Cert.KernelIdeal.main_v36) = X4 X (rd Cert.ReferenceIdeal.main_v36) := region0_eq m ρ c X e34_3 e35_3
  -- between the two linear maps
  have e8_4 : (Cert.KernelIdeal.Gen.W4 m ρ c) (kd Cert.KernelIdeal.main_v8) = X4 X (rd Cert.ReferenceIdeal.main_v8) := (kk2_v8 m ρ c).trans (e8_1.trans (rk2_v8 X).symm)
  have e10_4 : (Cert.KernelIdeal.Gen.W4 m ρ c) (kd Cert.KernelIdeal.main_v10) = X4 X (rd Cert.ReferenceIdeal.main_v10) := (kk2_v10 m ρ c).trans (e10_1.trans (rk2_v10 X).symm)
  have e33_4 : (Cert.KernelIdeal.Gen.W4 m ρ c) (kd Cert.KernelIdeal.main_v33) = X4 X (rd Cert.ReferenceIdeal.main_v35) := (kk2_v33 m ρ c).trans (e33_3.trans (rk2_v35 X).symm)
  have e6a_4 : (Cert.KernelIdeal.Gen.W4 m ρ c) (kd Cert.KernelIdeal.main_arg6) = X4 X (rd Cert.ReferenceIdeal.main_arg6) := (kk2_arg6 m ρ c).trans (h6.trans (rk2_arg6 X).symm)
  have e53_5 : (Cert.KernelIdeal.Gen.W5 m ρ c) (kd Cert.KernelIdeal.main_v53) = X5 X (rd Cert.ReferenceIdeal.main_v52) := s3_v53 (Cert.KernelIdeal.Gen.W4 m ρ c) (X4 X) e8_4 e10_4 e36_4 e33_4 e6a_4
  have e54_6 : (Cert.KernelIdeal.Gen.W6 m ρ c) (kd Cert.KernelIdeal.main_v54) = X6 X (rd Cert.ReferenceIdeal.main_v53) := s4_v54 (Cert.KernelIdeal.Gen.W5 m ρ c) (X5 X) e53_5
  have e2_6 : (Cert.KernelIdeal.Gen.W6 m ρ c) (kd Cert.KernelIdeal.main_arg2) = X6 X (rd Cert.ReferenceIdeal.main_arg2) := (kk3_arg2 m ρ c).trans (h2.trans (rk3_arg2 X).symm)
  have e57_7 : (Cert.KernelIdeal.Gen.W7 m ρ c) (kd Cert.KernelIdeal.main_v57) = X7 X (rd Cert.ReferenceIdeal.main_v56) := s5_v57 (Cert.KernelIdeal.Gen.W6 m ρ c) (X6 X) e2_6
  have e59_7 : (Cert.KernelIdeal.Gen.W7 m ρ c) (kd Cert.KernelIdeal.main_v59) = X7 X (rd Cert.ReferenceIdeal.main_v58) := s5_v59 (Cert.KernelIdeal.Gen.W6 m ρ c) (X6 X) e2_6
  have e55_7 : (Cert.KernelIdeal.Gen.W7 m ρ c) (kd Cert.KernelIdeal.main_v55) = X7 X (rd Cert.ReferenceIdeal.main_v54) := s5_v55 (Cert.KernelIdeal.Gen.W6 m ρ c) (X6 X)
  have e66_8 : (Cert.KernelIdeal.Gen.W8 m ρ c) (kd Cert.KernelIdeal.main_v66) = X8 X (rd Cert.ReferenceIdeal.main_v67) := s6_v66 (Cert.KernelIdeal.Gen.W6 m ρ c) (X6 X) e2_6
  have e57_8 : (Cert.KernelIdeal.Gen.W8 m ρ c) (kd Cert.KernelIdeal.main_v57) = X8 X (rd Cert.ReferenceIdeal.main_v56) := (kk4_v57 m ρ c).trans (e57_7.trans (rk4_v56 X).symm)
  have e59_8 : (Cert.KernelIdeal.Gen.W8 m ρ c) (kd Cert.KernelIdeal.main_v59) = X8 X (rd Cert.ReferenceIdeal.main_v58) := (kk4_v59 m ρ c).trans (e59_7.trans (rk4_v58 X).symm)
  have e55_8 : (Cert.KernelIdeal.Gen.W8 m ρ c) (kd Cert.KernelIdeal.main_v55) = X8 X (rd Cert.ReferenceIdeal.main_v54) := (kk4_v55 m ρ c).trans (e55_7.trans (rk4_v54 X).symm)
  have e54_8 : (Cert.KernelIdeal.Gen.W8 m ρ c) (kd Cert.KernelIdeal.main_v54) = X8 X (rd Cert.ReferenceIdeal.main_v53) := (kk4_v54 m ρ c).trans (e54_6.trans (rk4_v53 X).symm)
  have e7_8 : (Cert.KernelIdeal.Gen.W8 m ρ c) (kd Cert.KernelIdeal.main_arg7) = X8 X (rd Cert.ReferenceIdeal.main_arg7) := (kk4_arg7 m ρ c).trans (h7.trans (rk4_arg7 X).symm)
  have e82_9 : (Cert.KernelIdeal.Gen.W9 m ρ c) (kd Cert.KernelIdeal.main_v82) = X9 X (rd Cert.ReferenceIdeal.main_v83) := s7_v82 (Cert.KernelIdeal.Gen.W8 m ρ c) (X8 X) e57_8 e59_8 e66_8 e55_8
  have e83_9 : (Cert.KernelIdeal.Gen.W9 m ρ c) (kd Cert.KernelIdeal.main_v83) = X9 X (rd Cert.ReferenceIdeal.main_v53) := s7_v83 (Cert.KernelIdeal.Gen.W8 m ρ c) (X8 X) e54_8
  have e84_9 : (Cert.KernelIdeal.Gen.W9 m ρ c) (kd Cert.KernelIdeal.main_v84) = X9 X (rd Cert.ReferenceIdeal.main_arg7) := s7_v84 (Cert.KernelIdeal.Gen.W8 m ρ c) (X8 X) e7_8
  -- the second linear map
  have e85_10 : (Cert.KernelIdeal.Gen.W10 m ρ c) (kd Cert.KernelIdeal.main_v85) = X10 X (rd Cert.ReferenceIdeal.main_v84) := region1_eq m ρ c X e83_9 e84_9
  -- between the second linear map and the decoder
  have e57_10 : (Cert.KernelIdeal.Gen.W10 m ρ c) (kd Cert.KernelIdeal.main_v57) = X10 X (rd Cert.ReferenceIdeal.main_v56) := (kk5_v57 m ρ c).trans (e57_7.trans (rk5_v56 X).symm)
  have e59_10 : (Cert.KernelIdeal.Gen.W10 m ρ c) (kd Cert.KernelIdeal.main_v59) = X10 X (rd Cert.ReferenceIdeal.main_v58) := (kk5_v59 m ρ c).trans (e59_7.trans (rk5_v58 X).symm)
  have e82_10 : (Cert.KernelIdeal.Gen.W10 m ρ c) (kd Cert.KernelIdeal.main_v82) = X10 X (rd Cert.ReferenceIdeal.main_v83) := (kk5_v82 m ρ c).trans (e82_9.trans (rk5_v83 X).symm)
  have e8a_10 : (Cert.KernelIdeal.Gen.W10 m ρ c) (kd Cert.KernelIdeal.main_arg8) = X10 X (rd Cert.ReferenceIdeal.main_arg8) := (kk5_arg8 m ρ c).trans (h8.trans (rk5_arg8 X).symm)
  have e102_11 : (Cert.KernelIdeal.Gen.W11 m ρ c) (kd Cert.KernelIdeal.main_v102) = X11 X (rd Cert.ReferenceIdeal.main_v100) := s8_v102 (Cert.KernelIdeal.Gen.W10 m ρ c) (X10 X) e57_10 e59_10 e85_10 e82_10 e8a_10
  have e103_12 : (Cert.KernelIdeal.Gen.W12 m ρ c) (kd Cert.KernelIdeal.main_v103) = X12 X (rd Cert.ReferenceIdeal.main_v101) := s9_v103 (Cert.KernelIdeal.Gen.W11 m ρ c) (X11 X) e102_11
  have e1_12 : (Cert.KernelIdeal.Gen.W12 m ρ c) (kd Cert.KernelIdeal.main_arg1) = X12 X (rd Cert.ReferenceIdeal.main_arg1) := (kk6_arg1 m ρ c).trans (h1.trans (rk6_arg1 X).symm)
  have e115_13 : (Cert.KernelIdeal.Gen.W13 m ρ c) (kd Cert.KernelIdeal.main_v115) = X13 X (rd Cert.ReferenceIdeal.main_v112) := s10_v115 (Cert.KernelIdeal.Gen.W12 m ρ c) (X12 X) e1_12 e103_12
  have e122_13 : (Cert.KernelIdeal.Gen.W13 m ρ c) (kd Cert.KernelIdeal.main_v122) = X13 X (rd Cert.ReferenceIdeal.main_v119) := s10_v122 (Cert.KernelIdeal.Gen.W12 m ρ c) (X12 X) e1_12 e103_12
  have a9 : (Cert.KernelIdeal.Gen.W12 m ρ c) (kd Cert.KernelIdeal.main_arg9) = X13 X (rd Cert.ReferenceIdeal.main_arg9) := (kk6_arg9 m ρ c).trans (h9.trans (rk7_arg9 X).symm)
  have a10 : (Cert.KernelIdeal.Gen.W12 m ρ c) (kd Cert.KernelIdeal.main_arg10) = X13 X (rd Cert.ReferenceIdeal.main_arg10) := (kk6_arg10 m ρ c).trans (h10.trans (rk7_arg10 X).symm)
  have a11 : (Cert.KernelIdeal.Gen.W12 m ρ c) (kd Cert.KernelIdeal.main_arg11) = X13 X (rd Cert.ReferenceIdeal.main_arg11) := (kk6_arg11 m ρ c).trans (h11.trans (rk7_arg11 X).symm)
  have a12 : (Cert.KernelIdeal.Gen.W12 m ρ c) (kd Cert.KernelIdeal.main_arg12) = X13 X (rd Cert.ReferenceIdeal.main_arg12) := (kk6_arg12 m ρ c).trans (h12.trans (rk7_arg12 X).symm)
  have a13 : (Cert.KernelIdeal.Gen.W12 m ρ c) (kd Cert.KernelIdeal.main_arg13) = X13 X (rd Cert.ReferenceIdeal.main_arg13) := (kk6_arg13 m ρ c).trans (h13.trans (rk7_arg13 X).symm)
  have a14 : (Cert.KernelIdeal.Gen.W12 m ρ c) (kd Cert.KernelIdeal.main_arg14) = X13 X (rd Cert.ReferenceIdeal.main_arg14) := (kk6_arg14 m ρ c).trans (h14.trans (rk7_arg14 X).symm)
  -- the decoder
  have e132_14 : (Cert.KernelIdeal.Gen.W14 m ρ c) (kd Cert.KernelIdeal.main_v132) = X14 X (rd Cert.ReferenceIdeal.main_v134) :=
    region2_eq m ρ c X e115_13 e122_13
      ((s10_v125 (Cert.KernelIdeal.Gen.W12 m ρ c)).trans (congrArg w1a a9)) ((s10_v126 (Cert.KernelIdeal.Gen.W12 m ρ c)).trans (congrArg w1b a9))
      ((s10_v129 (Cert.KernelIdeal.Gen.W12 m ρ c)).trans (congrArg b1r a10)) ((s10_v127 (Cert.KernelIdeal.Gen.W12 m ρ c)).trans (congrArg w2k a11))
      ((s10_v130 (Cert.KernelIdeal.Gen.W12 m ρ c)).trans (congrArg b2r a12)) ((s10_v128 (Cert.KernelIdeal.Gen.W12 m ρ c)).trans (congrArg w3k a13))
      ((s10_v131 (Cert.KernelIdeal.Gen.W12 m ρ c)).trans (congrArg b3r a14))
  -- the output column as a vector
  exact s11_out (Cert.KernelIdeal.Gen.W14 m ρ c) (X14 X) e132_14

end Cert.Bridge

end
-- ==== Proof.lean ====
/-
  Equivalence over the extended reals of a two-layer graph convolution with an edge decoder, computed by a program with
  three pipelined regions, against its plain reference.

  Both programs gather the embedding rows of the node ids; normalise the edge weights by the reciprocal root degrees of
  the edges' end points (a node's degree the sum of the weights of its incoming edges; the reciprocal root taken only
  where the degree is positive, 0 elsewhere); map the node features linearly, gather the mapped rows along the edges,
  scale them by the normalised weights, sum them into the edges' targets, add a bias and apply elu; do the same again
  over a second edge list with unit weights; and decode every edge of the first list from the features of its two end
  points by three affine layers, the first two followed by the maximum with 0.

  They differ in three ways, none of which changes a value at the ideal instance:
  * the kernel program takes rsqrt d where the reference takes 1 / sqrt d; for d > 0 — the only case the selection by
    the sign of the degree lets through — these are one number, (√d)⁻¹, and 0 at +∞;
  * the two linear maps and the decoder run as pipelined regions over blocks of rows, on operands converted to bf16
    and back; a change of float format is the identity on the extended reals, a block of rows of a matrix product is
    the product of that block of rows, and the blocks cover the array;
  * the decoder multiplies the two gathered halves by the two halves of the first weight matrix and adds, where the
    reference multiplies their concatenation by the whole matrix: a sum over 256 terms split into its first and last 128.
  No step needs the inputs finite: sums are only regrouped, never distributed over or cancelled.

  The frames of the two kernel programs are the generated ones; the reference's run, and from it its frame, is read off
  its line of host operations; the ideal pass rewrote nothing, so there is nothing to preserve.
-/
import proofs.«150106_j66537633350122_2_alg».proof.Defs
import proofs.«150106_j66537633350122_2_alg».proof.Proof.Gen.Kernel
import proofs.«150106_j66537633350122_2_alg».proof.Proof.Gen.Kernel.Skeleton
import proofs.«150106_j66537633350122_2_alg».proof.Proof.Gen.Kernel.Launch
import proofs.«150106_j66537633350122_2_alg».proof.Proof.Gen.Kernel.Points
import proofs.«150106_j66537633350122_2_alg».proof.Proof.Gen.Kernel.Frame
import proofs.«150106_j66537633350122_2_alg».proof.Proof.Gen.KernelIdeal
import proofs.«150106_j66537633350122_2_alg».proof.Proof.Gen.KernelIdeal.Skeleton
import proofs.«150106_j66537633350122_2_alg».proof.Proof.Gen.KernelIdeal.Launch
import proofs.«150106_j66537633350122_2_alg».proof.Proof.Gen.KernelIdeal.Points
import proofs.«150106_j66537633350122_2_alg».proof.Proof.Gen.KernelIdeal.Frame
import proofs.«150106_j66537633350122_2_alg».proof.Proof.Gen.ReferenceIdeal
import proofs.«150106_j66537633350122_2_alg».proof.Proof.Gen.Pre_finite_inputs
import Idealize.ShloMosaic.Adequacy
import Idealize.ShloMosaic.Init
import proofs.«150106_j66537633350122_2_alg».proof.Proof.KRun
import proofs.«150106_j66537633350122_2_alg».proof.Proof.RefRun
import proofs.«150106_j66537633350122_2_alg».proof.Proof.Bridge

set_option maxRecDepth 65536

noncomputable section

namespace Cert.Proof

open Idealize.ShloMosaic Idealize.ShloMosaic.StableHlo Idealize.SL.Sem

/-- The kernel program as printed runs and keeps its arguments. -/
theorem frame_k : Cert.frame_Kernel := fun m ρ _ => Cert.Kernel.Gen.frame m ρ

/-- So does its reading at the ideal instance. -/
theorem frame_ki : Cert.frame_KernelIdeal := fun m ρ _ => Cert.KernelIdeal.Gen.frame m ρ

/-- So does the reference: no operation of its line writes an argument. -/
theorem frame_ri : Cert.frame_ReferenceIdeal := fun m ρ _ => Cert.ReferenceIdeal.Hand.frame m ρ

/-- The ideal pass rewrote no operation. -/
theorem preserves : Cert.preserves_Kernel_KernelIdeal := trivial

/-- From memories that agree on the arguments both programs run, keep their arguments, and end with equal results: the
    kernel program's result buffer at its last boundary's contents, which are what the reference's line leaves in its
    result buffer. -/
theorem algebraic : Cert.algebraic_KernelIdeal_ReferenceIdeal := by
  intro m ρ m' ρ' _ hagree
  refine ⟨fun c => Cert.KernelIdeal.Gen.W15 m ρ c (Cert.Bridge.kd Cert.KernelIdeal.main_v133),
    Cert.KernelIdeal.Hand.run m ρ, ?_⟩
  refine (θ_run Cert.ReferenceIdeal.defs _ _).mono (fun r h c => ?_) (Cert.ReferenceIdeal.Hand.run (F := Ideal) m' ρ')
  obtain ⟨a0, a1, a2, a3, a4, a5, a6, a7, a8, a9, a10, a11, a12, a13, a14⟩ := hagree c
  refine ⟨?_, (h c _).trans (Cert.ReferenceIdeal.Hand.arg0_kept _),
      (h c _).trans (Cert.ReferenceIdeal.Hand.arg1_kept _),
      (h c _).trans (Cert.ReferenceIdeal.Hand.arg2_kept _),
      (h c _).trans (Cert.ReferenceIdeal.Hand.arg3_kept _),
      (h c _).trans (Cert.ReferenceIdeal.Hand.arg4_kept _),
      (h c _).trans (Cert.ReferenceIdeal.Hand.arg5_kept _),
      (h c _).trans (Cert.ReferenceIdeal.Hand.arg6_kept _),
      (h c _).trans (Cert.ReferenceIdeal.Hand.arg7_kept _),
      (h c _).trans (Cert.ReferenceIdeal.Hand.arg8_kept _),
      (h c _).trans (Cert.ReferenceIdeal.Hand.arg9_kept _),
      (h c _).trans (Cert.ReferenceIdeal.Hand.arg10_kept _),
      (h c _).trans (Cert.ReferenceIdeal.Hand.arg11_kept _),
      (h c _).trans (Cert.ReferenceIdeal.Hand.arg12_kept _),
      (h c _).trans (Cert.ReferenceIdeal.Hand.arg13_kept _),
      (h c _).trans (Cert.ReferenceIdeal.Hand.arg14_kept _)⟩
  refine (h c _).trans ?_
  rw [Cert.Bridge.after_all]
  exact (Cert.Bridge.result_eq m ρ c (launchContents m' c) a0.symm a1.symm a2.symm a3.symm a4.symm a5.symm a6.symm a7.symm
    a8.symm a9.symm a10.symm a11.symm a12.symm a13.symm a14.symm).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
